-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S1024x1024 : Shape := ⟨2, ![1024, 1024]⟩
abbrev S1024 : Shape := ⟨1, ![1024]⟩
abbrev S512x1024 : Shape := ⟨2, ![512, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S512x1024 : S_.BroadcastsInDim S512x1024 (![] : Fin 0 → Fin S512x1024.rank)
  reducesTo_S512x1024_S_d0_1 : S512x1024.ReducesTo [0, 1] S_

variable [Facts]

def fn_part1 {F : FTy → Type} [FloatOps F] (main_arg4 : FVec F S512x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  main_v23

def fn {F : FTy → Type} [FloatOps F] (main_arg0 : FVec F S2x2048x1024 .f32) (main_arg1 : FVec F S3072x1024 .f32) (main_arg2 : FVec F S1024x1024 .f32) (main_arg3 : FVec F S1024 .f32) (main_arg4 : FVec F S512x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S2x2048x1024 : Shape := ⟨3, ![2, 2048, 1024]⟩
abbrev S3072x1024 : Shape := ⟨2, ![3072, 1024]⟩
abbrev S1024x1024 : Shape := ⟨2, ![1024, 1024]⟩
abbrev S1024 : Shape := ⟨1, ![1024]⟩
abbrev S512x1024 : Shape := ⟨2, ![512, 1024]⟩
abbrev S1024x3072 : Shape := ⟨2, ![1024, 3072]⟩
abbrev S1x1024 : Shape := ⟨2, ![1, 1024]⟩
abbrev S4096x1024 : Shape := ⟨2, ![4096, 1024]⟩
abbrev S4096x3072 : Shape := ⟨2, ![4096, 3072]⟩
abbrev S2x2048x3072 : Shape := ⟨3, ![2, 2048, 3072]⟩
abbrev S2x2048x16x64 : Shape := ⟨4, ![2, 2048, 16, 64]⟩
abbrev S2x16x2048x64 : Shape := ⟨4, ![2, 16, 2048, 64]⟩
abbrev S512x16x64 : Shape := ⟨3, ![512, 16, 64]⟩
abbrev S16x512x64 : Shape := ⟨3, ![16, 512, 64]⟩
abbrev S1x1x512x64 : Shape := ⟨4, ![1, 1, 512, 64]⟩
abbrev S1x1x2048x64 : Shape := ⟨4, ![1, 1, 2048, 64]⟩
abbrev S1x512x64 : Shape := ⟨3, ![1, 512, 64]⟩
abbrev S64x1024 : Shape := ⟨2, ![64, 1024]⟩
abbrev S1x512x1024 : Shape := ⟨3, ![1, 512, 1024]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S64x512 : Shape := ⟨2, ![64, 512]⟩
abbrev S512x512 : Shape := ⟨2, ![512, 512]⟩
abbrev S512 : Shape := ⟨1, ![512]⟩
abbrev S512x1 : Shape := ⟨2, ![512, 1]⟩

abbrev nBuf : Space → Nat
  | .hbm => 25
  | .vmem => 20
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S512x1024, .f32⟩
  | .hbm, ⟨5, _⟩ => ⟨S1024x3072, .f32⟩
  | .hbm, ⟨6, _⟩ => ⟨S1024x1024, .f32⟩
  | .hbm, ⟨7, _⟩ => ⟨S1024x1024, .bf16⟩
  | .hbm, ⟨8, _⟩ => ⟨S1x1024, .f32⟩
  | .hbm, ⟨9, _⟩ => ⟨S4096x1024, .f32⟩
  | .hbm, ⟨10, _⟩ => ⟨S4096x3072, .bf16⟩
  | .hbm, ⟨11, _⟩ => ⟨S2x2048x3072, .bf16⟩
  | .hbm, ⟨12, _⟩ => ⟨S2x2048x1024, .bf16⟩
  | .hbm, ⟨13, _⟩ => ⟨S2x2048x1024, .bf16⟩
  | .hbm, ⟨14, _⟩ => ⟨S2x2048x1024, .bf16⟩
  | .hbm, ⟨15, _⟩ => ⟨S2x2048x16x64, .bf16⟩
  | .hbm, ⟨16, _⟩ => ⟨S2x16x2048x64, .bf16⟩
  | .hbm, ⟨17, _⟩ => ⟨S2x2048x16x64, .bf16⟩
  | .hbm, ⟨18, _⟩ => ⟨S2x16x2048x64, .bf16⟩
  | .hbm, ⟨19, _⟩ => ⟨S2x2048x16x64, .bf16⟩
  | .hbm, ⟨20, _⟩ => ⟨S2x16x2048x64, .bf16⟩
  | .hbm, ⟨21, _⟩ => ⟨S512x16x64, .f32⟩
  | .hbm, ⟨22, _⟩ => ⟨S16x512x64, .f32⟩
  | .hbm, ⟨23, _⟩ => ⟨S16x512x64, .bf16⟩
  | .hbm, ⟨24, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S512x1024, .bf16⟩
  | .local _ .vmem, ⟨5, _⟩ => ⟨S512x1024, .bf16⟩
  | .local _ .vmem, ⟨6, _⟩ => ⟨S1x1x512x64, .bf16⟩
  | .local _ .vmem, ⟨7, _⟩ => ⟨S1x1x512x64, .bf16⟩
  | .local _ .vmem, ⟨8, _⟩ => ⟨S1x1x2048x64, .bf16⟩
  | .local _ .vmem, ⟨9, _⟩ => ⟨S1x1x2048x64, .bf16⟩
  | .local _ .vmem, ⟨10, _⟩ => ⟨S1x1x2048x64, .bf16⟩
  | .local _ .vmem, ⟨11, _⟩ => ⟨S1x1x2048x64, .bf16⟩
  | .local _ .vmem, ⟨12, _⟩ => ⟨S1x512x64, .bf16⟩
  | .local _ .vmem, ⟨13, _⟩ => ⟨S1x512x64, .bf16⟩
  | .local _ .vmem, ⟨14, _⟩ => ⟨S64x1024, .bf16⟩
  | .local _ .vmem, ⟨15, _⟩ => ⟨S64x1024, .bf16⟩
  | .local _ .vmem, ⟨16, _⟩ => ⟨S1x1024, .f32⟩
  | .local _ .vmem, ⟨17, _⟩ => ⟨S1x512x1024, .f32⟩
  | .local _ .vmem, ⟨18, _⟩ => ⟨S1x512x1024, .f32⟩
  | .local _ .vmem, ⟨19, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![2, 4, 16], ![false, false, false]⟩

def k1_cond2 (i : grid1.Coords) : BitVec 1 :=
  let arg2 : BitVec 32 := BitVec.ofNat 32 (i 2).val
  let c15_i32 : BitVec 32 := 15#32
  let v51 : BitVec 1 := Scalar.cmpi .eq arg2 c15_i32
  let v52 : BitVec 32 := Scalar.extui v51
  let c0_i32_31 : BitVec 32 := 0#32
  let v53 : BitVec 1 := Scalar.cmpi .ne v52 c0_i32_31
  v53

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, false, true]

abbrev stage1_4 : Fin 2 → Memref sig .tc .vmem S64x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, false, true]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 2 → Memref sig .tc .vmem S1x512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

class Facts₀ : Prop where
  transposes_S3072x1024_S1024x3072_1_0 : S3072x1024.Transposes [1, 0] S1024x3072
  transposes_S1024x1024_S1024x1024_1_0 : S1024x1024.Transposes [1, 0] S1024x1024
  bitsLt_bf16_f32 : FTy.bits .bf16 < FTy.bits .f32
  shapeCasts_S1024_S1x1024 : S1024.ShapeCasts S1x1024
  shapeCasts_S2x2048x1024_S4096x1024 : S2x2048x1024.ShapeCasts S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  shapeCasts_S4096x3072_S2x2048x3072 : S4096x3072.ShapeCasts S2x2048x3072
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  shapeCasts_S512x1024_S512x16x64 : S512x1024.ShapeCasts S512x16x64
  transposes_S512x16x64_S16x512x64_1_0_2 : S512x16x64.Transposes [1, 0, 2] S16x512x64
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  transposes_S2048x64_p1_0_S64x2048 : S2048x64.Transposes [1, 0] S64x2048
  transposes_S512x64_p1_0_S64x512 : S512x64.Transposes [1, 0] S64x512
  reduces_S512x2048_S512 : S512x2048.Reduces [1] S512
  shapeCasts_S512_S512x1 : S512.ShapeCasts S512x1
  reduces_S512x512_S512 : S512x512.Reduces [1] S512
  broadcasts_S512x1_S512x2048 : S512x1.Broadcasts S512x2048
  broadcasts_S512x1_S512x512 : S512x1.Broadcasts S512x512
  broadcasts_S512x1_S512x64 : S512x1.Broadcasts S512x64
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x64_S64x2048_S512x2048_1_0_0_1_n_n_wf : DotDims.WF S512x64 S64x2048 S512x2048 [1] [0] [0] [1] [] []
  dot_S512x64_S64x512_S512x512_1_0_0_1_n_n_wf : DotDims.WF S512x64 S64x512 S512x512 [1] [0] [0] [1] [] []
  dot_S512x2048_S2048x64_S512x64_1_0_0_1_n_n_wf : DotDims.WF S512x2048 S2048x64 S512x64 [1] [0] [0] [1] [] []
  dot_S512x512_S512x64_S512x64_1_0_0_1_n_n_wf : DotDims.WF S512x512 S512x64 S512x64 [1] [0] [0] [1] [] []
  dot_S512x64_S64x1024_S512x1024_1_0_0_1_n_n_wf : DotDims.WF S512x64 S64x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .f32 = 32 ∨ (Rect.block (s := S1024x3072) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x3072.size a
  hwx0_2 : ∀ i : grid0.Coords, EltTy.bits .bf16 = 32 ∨ (Rect.block (s := S4096x3072) S512x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x512x64.size a ≤ S2x16x2048x64.size a
  hwx1_0 : ∀ i : grid1.Coords, EltTy.bits .bf16 = 32 ∨ (Rect.block (s := S2x16x2048x64) S1x1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048x64.size a ≤ S2x16x2048x64.size a
  hwx1_1 : ∀ i : grid1.Coords, EltTy.bits .bf16 = 32 ∨ (Rect.block (s := S2x16x2048x64) S1x1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048x64.size a ≤ S2x16x2048x64.size a
  hwx1_2 : ∀ i : grid1.Coords, EltTy.bits .bf16 = 32 ∨ (Rect.block (s := S2x16x2048x64) S1x1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S16x512x64.size a
  hwx1_3 : ∀ i : grid1.Coords, EltTy.bits .bf16 = 32 ∨ (Rect.block (s := S16x512x64) S1x512x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S64x1024.size a ≤ S1024x1024.size a
  hwx1_4 : ∀ i : grid1.Coords, EltTy.bits .bf16 = 32 ∨ (Rect.block (s := S1024x1024) S64x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512x1024.size a ≤ S2x2048x1024.size a
  hwx1_6 : ∀ i : grid1.Coords, EltTy.bits .f32 = 32 ∨ (Rect.block (s := S2x2048x1024) S1x512x1024.size (cc1_transform_6 i) (hinb1_6 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_v4) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S1x1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x512x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S64x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S1x512x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S1024x1024 : Shape := ⟨2, ![1024, 1024]⟩
abbrev S1024 : Shape := ⟨1, ![1024]⟩
abbrev S512x1024 : Shape := ⟨2, ![512, 1024]⟩
abbrev S2x2048x3072 : Shape := ⟨3, ![2, 2048, 3072]⟩
abbrev S2x2048x16x64 : Shape := ⟨4, ![2, 2048, 16, 64]⟩
abbrev S2x16x2048x64 : Shape := ⟨4, ![2, 16, 2048, 64]⟩
abbrev S1x512x16x64 : Shape := ⟨4, ![1, 512, 16, 64]⟩
abbrev S1x16x512x64 : Shape := ⟨4, ![1, 16, 512, 64]⟩
abbrev S2x16x512x64 : Shape := ⟨4, ![2, 16, 512, 64]⟩
abbrev S2x16x2560x64 : Shape := ⟨4, ![2, 16, 2560, 64]⟩
abbrev S2x16x2048x2560 : Shape := ⟨4, ![2, 16, 2048, 2560]⟩
abbrev S_ : Shape := ⟨0, ![]⟩
abbrev S2x16x2048 : Shape := ⟨3, ![2, 16, 2048]⟩
abbrev S2x16x2048x1 : Shape := ⟨4, ![2, 16, 2048, 1]⟩
abbrev S1x1x1024 : Shape := ⟨3, ![1, 1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S512x1024, .f32⟩
  | .hbm, ⟨5, _⟩ => ⟨S2x2048x3072, .f32⟩
  | .hbm, ⟨6, _⟩ => ⟨S2x2048x1024, .f32⟩
  | .hbm, ⟨7, _⟩ => ⟨S2x2048x1024, .f32⟩
  | .hbm, ⟨8, _⟩ => ⟨S2x2048x1024, .f32⟩
  | .hbm, ⟨9, _⟩ => ⟨S2x2048x16x64, .f32⟩
  | .hbm, ⟨10, _⟩ => ⟨S2x16x2048x64, .f32⟩
  | .hbm, ⟨11, _⟩ => ⟨S2x2048x16x64, .f32⟩
  | .hbm, ⟨12, _⟩ => ⟨S2x16x2048x64, .f32⟩
  | .hbm, ⟨13, _⟩ => ⟨S2x2048x16x64, .f32⟩
  | .hbm, ⟨14, _⟩ => ⟨S2x16x2048x64, .f32⟩
  | .hbm, ⟨15, _⟩ => ⟨S1x512x16x64, .f32⟩
  | .hbm, ⟨16, _⟩ => ⟨S1x16x512x64, .f32⟩
  | .hbm, ⟨17, _⟩ => ⟨S2x16x512x64, .f32⟩
  | .hbm, ⟨18, _⟩ => ⟨S2x16x2560x64, .f32⟩
  | .hbm, ⟨19, _⟩ => ⟨S2x16x2560x64, .f32⟩
  | .hbm, ⟨20, _⟩ => ⟨S2x16x2048x2560, .f32⟩
  | .hbm, ⟨21, _⟩ => ⟨S_, .f32⟩
  | .hbm, ⟨22, _⟩ => ⟨S2x16x2048x2560, .f32⟩
  | .hbm, ⟨23, _⟩ => ⟨S2x16x2048x2560, .f32⟩
  | .hbm, ⟨24, _⟩ => ⟨S_, .f32⟩
  | .hbm, ⟨25, _⟩ => ⟨S2x16x2048, .f32⟩
  | .hbm, ⟨26, _⟩ => ⟨S_, .f32⟩
  | .hbm, ⟨27, _⟩ => ⟨S2x16x2048, .f32⟩
  | .hbm, ⟨28, _⟩ => ⟨S2x16x2048, .f32⟩
  | .hbm, ⟨29, _⟩ => ⟨S2x16x2048x1, .f32⟩
  | .hbm, ⟨30, _⟩ => ⟨S2x16x2048x2560, .f32⟩
  | .hbm, ⟨31, _⟩ => ⟨S2x16x2048x2560, .f32⟩
  | .hbm, ⟨32, _⟩ => ⟨S2x16x2048x2560, .f32⟩
  | .hbm, ⟨33, _⟩ => ⟨S_, .f32⟩
  | .hbm, ⟨34, _⟩ => ⟨S2x16x2048, .f32⟩
  | .hbm, ⟨35, _⟩ => ⟨S2x16x2048x1, .f32⟩
  | .hbm, ⟨36, _⟩ => ⟨S2x16x2048x2560, .f32⟩
  | .hbm, ⟨37, _⟩ => ⟨S2x16x2048x2560, .f32⟩
  | .hbm, ⟨38, _⟩ => ⟨S2x16x2048x64, .f32⟩
  | .hbm, ⟨39, _⟩ => ⟨S2x2048x16x64, .f32⟩
  | .hbm, ⟨40, _⟩ => ⟨S2x2048x1024, .f32⟩
  | .hbm, ⟨41, _⟩ => ⟨S2x2048x1024, .f32⟩
  | .hbm, ⟨42, _⟩ => ⟨S1x1x1024, .f32⟩
  | .hbm, ⟨43, _⟩ => ⟨S2x2048x1024, .f32⟩
  | .hbm, ⟨44, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]

class Facts₀ : Prop where
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  shapeCasts_S512x1024_S1x512x16x64 : S512x1024.ShapeCasts S1x512x16x64
  transposes_S1x512x16x64_S1x16x512x64_0_2_1_3 : S1x512x16x64.Transposes [0, 2, 1, 3] S1x16x512x64
  bcast_S1x16x512x64_S2x16x512x64_0_1_2_3 : S1x16x512x64.BroadcastsInDim S2x16x512x64 (![0, 1, 2, 3] : Fin 4 → Fin S2x16x512x64.rank)
  concatenates_S2x16x512x64_S2x16x2048x64_S2x16x2560x64_d2 : Shape.Concatenates [S2x16x512x64, S2x16x2048x64] S2x16x2560x64 2
  bcast_S_S2x16x2048x2560 : S_.BroadcastsInDim S2x16x2048x2560 (![] : Fin 0 → Fin S2x16x2048x2560.rank)
  reducesTo_S2x16x2048x2560_S2x16x2048_d3 : S2x16x2048x2560.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2560_0_1_2_3 : S2x16x2048x1.BroadcastsInDim S2x16x2048x2560 (![0, 1, 2, 3] : Fin 4 → Fin S2x16x2048x2560.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S3072x1024_S2x2048x3072_2_1_01_0_n_n_wf : DotDims.WF S2x2048x1024 S3072x1024 S2x2048x3072 [2] [1] [0, 1] [0] [] []
  dot_S2x16x2048x64_S2x16x2560x64_S2x16x2048x2560_3_3_2_2_01_01_wf : DotDims.WF S2x16x2048x64 S2x16x2560x64 S2x16x2048x2560 [3] [3] [2] [2] [0, 1] [0, 1]
  dot_S2x16x2048x2560_S2x16x2560x64_S2x16x2048x64_3_2_2_3_01_01_wf : DotDims.WF S2x16x2048x2560 S2x16x2560x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2560x64_S2x16x2048x2560_3_3_2_2_01_01 : DotDims S2x16x2048x64 S2x16x2560x64 S2x16x2048x2560 where
  lhsContracting := [3]
  rhsContracting := [3]
  lhsNonContracting := [2]
  rhsNonContracting := [2]
  lhsBatch := [0, 1]
  rhsBatch := [0, 1]
  wf := dot_S2x16x2048x64_S2x16x2560x64_S2x16x2048x2560_3_3_2_2_01_01_wf
def dot_S2x16x2048x2560_S2x16x2560x64_S2x16x2048x64_3_2_2_3_01_01 : DotDims S2x16x2048x2560 S2x16x2560x64 S2x16x2048x64 where
  lhsContracting := [3]
  rhsContracting := [2]
  lhsNonContracting := [2]
  rhsNonContracting := [3]
  lhsBatch := [0, 1]
  rhsBatch := [0, 1]
  wf := dot_S2x16x2048x2560_S2x16x2560x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.ProjectionBits.lean ====
/-
  The projection kernel (the first launch): one grid point multiplies a 512-row block of the flattened
  activations (4096 x 1024) by a 1024-column block of the transposed projection weights (1024 x 3072)
  and stores the 512 x 1024 product block. The grid is 3 weight blocks (outer) by 8 row blocks (inner).
  Stated for every float instance and for an arbitrary valuation `V` of the unscoped buffers at the
  moment the launch is entered: what each window's block is, what the body leaves in the output block
  (a function of the two input blocks only), and that the body run from buffers holding those blocks
  ends holding that product block, the two input buffers unchanged.
-/
import proofs.«133163_j69827578298917_2_alg».proof.Proof.Gen.Kernel.Launch
import proofs.«133163_j69827578298917_2_alg».proof.Proof.Gen.Kernel.Skeleton
import proofs.«133163_j69827578298917_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`: the part of the window's array (as the launch finds it) that grid point `t` sees. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' buffer holds the point's row block at every point, whether or not it was fetched there
    (an unfetched block has the same index as the one before). -/
theorem rows_held {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The weights' buffer holds the point's column block at every point (it is fetched only when the outer
    coordinate moves, and keeps its block in between). -/
theorem cols_held {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The whole 512 x 1024 block and the whole 1024 x 1024 block, as rectangles. -/
abbrev rRows : Rect S512x1024 := Rect.unit (s := S512x1024) ![0, 0] S512x1024.size inb_S512x1024_S512x1024_0_0
abbrev rCols : Rect S1024x1024 := Rect.unit (s := S1024x1024) ![0, 0] S1024x1024.size inb_S1024x1024_S1024x1024_0_0

/-- What the body leaves in the output block: its one store, the product of the row block and the column block. -/
def prod (x0 : Vec F S512x1024 .f32) (x1 : Vec F S1024x1024 .f32) : Vec F S512x1024 .bf16 :=
  View.canon [⟨rRows, k0_pay1 (View.ld x0 rRows) (View.ld x1 rCols)⟩]

/-- The one store covers the whole output block. -/
theorem prod_cover (p0 : Vec F S512x1024 .bf16) (y : S512x1024.Idx) :
    ∃ pc ∈ ([⟨rRows, p0⟩] : List (View.Piece (Elt F) S512x1024 .bf16)), y ∈ pc.1.set :=
  View.cover_of_tiled [⟨rRows, p0⟩] S512x1024.size (by rfl) y

set_option maxHeartbeats 1000000 in
/-- The body, run from whole buffers holding a row block `x0`, a column block `x1` and anything in the output
    buffer, ends with the inputs as they were and the output buffer at `prod x0 x1`. -/
theorem body_triple (c : Dev nD) (E : Set ℕ) (i : grid0.Coords) (arg2 : Memref sig .tc .vmem S512x1024 .f32) (harg2 : arg2.IsWhole)
    (arg3 : Memref sig .tc .vmem S1024x1024 .f32) (harg3 : arg3.IsWhole) (arg4 : Memref sig .tc .vmem S512x1024 .bf16) (harg4 : arg4.IsWhole)
    (x0 : Vec F S512x1024 .f32) (x1 : Vec F S1024x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (prod x0 x1)) -∗ K ⟨⟩))
      ⊢ wp frame (wpE (defs₀ (F := F)) Variants.none c none) E (cc0__qkv_kernel i arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prod_cover _)

/-- The proof data of the first launch on core `c`: the arrays as the launch finds them; after the body at
    point `t` the input buffers at their blocks and the output buffer at their product; nothing kept between
    points; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => prod (blk V c 0 t) (blk V c 1 t)
  Φ _ := Pipeline.ΦA spec0 c
  q _ := fullShare
  owed _ := 0

theorem dat_A (c : Dev nD) (w : Fin cfg0.W) : (dat V c).A w = V c (Pipeline.arrRef spec0 w) := by
  dsimp only [dat]

theorem after_rows (c : Dev nD) (t : Fin cfg0.N) : (dat V c).after 0 t = blk V c 0 t := by dsimp only [dat]
theorem after_cols (c : Dev nD) (t : Fin cfg0.N) : (dat V c).after 1 t = blk V c 1 t := by dsimp only [dat]
theorem after_prod (c : Dev nD) (t : Fin cfg0.N) : (dat V c).after 2 t = prod (blk V c 0 t) (blk V c 1 t) := by dsimp only [dat]

theorem before_rows (c : Dev nD) (t : Fin cfg0.N) (d) : (dat V c).before 0 t d = blk V c 0 t :=
  rows_held V (dat V c) (dat_A V c 0) (after_rows V c) t d
theorem before_cols (c : Dev nD) (t : Fin cfg0.N) (d) : (dat V c).before 1 t d = blk V c 1 t :=
  cols_held V (dat V c) (dat_A V c 1) (after_cols V c) t d

/-- What the body is entered with at point `t`, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_rows, before_cols]
  rw [show (dat V c).Φ t.succ = (dat V c).Φ t.castSucc from rfl,
    show (dat V c).owesAt () t.succ = (dat V c).owesAt () t.castSucc from rfl,
    after_rows, after_cols, after_prod]
  iintro ⟨HΦ, Ho, ⟨%d0, H0⟩, ⟨%d1, H1⟩, ⟨%d2, H2⟩⟩
  iapply (body_triple c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first launch, at every point. -/
theorem obligation (c : Dev nD) : BodyObligation (dat (F := F) V c) (defs₀ (F := F)) Variants.none () Set.univ := fun t => by
  rw [bigSep_W0, bigSep_W0]
  exact body_at V c t

end Cert.Kernel.Proj

end
-- ==== Proof.AttnBaseBits.lean ====
/-
  The attention kernel (the second launch), shared definitions. The grid is batch (2) x query block (4) x
  head (16), the head innermost. One grid point takes the 512 x 64 query block of its (batch, head, query
  block), the 2048 x 64 key and value blocks of its (batch, head), the 512 x 64 memory block and the
  64 x 1024 slice of the transposed output weights of its head, and the 1 x 1024 bias. It adds the head's
  contribution to a 512 x 1024 accumulator that lives in a scratch buffer across the 16 heads: the
  accumulator is set to zero when the head is the first, and when the head is the last the accumulator plus
  the bias is stored into the output block of (batch, query block).
  Here: the windows' blocks, the two conditions in closed form over the linear point number
  (first head: point = 0 mod 16; last head: point = 15 mod 16), where the output window is idle, and the
  scoped buffers other than the staging buffers split into the accumulator and the rest.
-/
import proofs.«133163_j69827578298917_2_alg».proof.Proof.Gen.Kernel.Launch
import proofs.«133163_j69827578298917_2_alg».proof.Proof.Gen.Kernel.Skeleton
import proofs.«133163_j69827578298917_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`: the part of the window's array (as the launch finds it) that grid point `t` sees. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query buffer holds the point's query block at every point. -/
theorem q_held {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The key buffer holds the point's key block at every point. -/
theorem k_held {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The value buffer holds the point's value block at every point. -/
theorem v_held {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The memory buffer holds the head's memory block at every point. -/
theorem mem_held {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- The weight buffer holds the head's weight slice at every point. -/
theorem w_held {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The bias buffer holds the bias at every point: it is fetched once, at the first point, and its index never moves. -/
theorem bias_held {c : Dev nD} (dat : Dat τ (Elt F) Unit ℕ (UR sig nD τ) ℕ cfg1 c) (hA : dat.A 5 = V c (Pipeline.arrRef spec1 5))
    (hafter : ∀ t, dat.after 5 t = blk V c 5 t) (t : Fin cfg1.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-! ## The two conditions -/

/-- The head coordinate is 0: the accumulator is reset. -/
abbrev isFirst (i : grid1.Coords) : Prop := (Scalar.cmpi .ne (Scalar.extui (Scalar.cmpi .eq (BitVec.ofNat 32 (i 2).val) 0#32)) 0#32) = 1#1
theorem isFirst_iff : ∀ t : Fin cfg1.N, isFirst (grid1.coords t) ↔ t.val % 16 = 0 :=
  (by decide +kernel : ∀ t : Fin grid1.N, isFirst (grid1.coords t) ↔ t.val % 16 = 0)

/-- The head coordinate is 15: the output block is stored. -/
abbrev isLast (i : grid1.Coords) : Prop := k1_cond2 i = 1#1
theorem isLast_iff : ∀ t : Fin cfg1.N, isLast (grid1.coords t) ↔ t.val % 16 = 15 :=
  (by decide +kernel : ∀ t : Fin grid1.N, isLast (grid1.coords t) ↔ t.val % 16 = 15)

/-! ## Where the windows are idle -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
theorem live4 : ∀ t : Fin cfg1.N, cfg1.idle 4 (grid1.coords t) = false := by decide +kernel
theorem live5 : ∀ t : Fin cfg1.N, cfg1.idle 5 (grid1.coords t) = false := by decide +kernel
/-- Away from the last head nothing is stored into the output block, and it is not written back. -/
theorem out_idle : ∀ t : Fin cfg1.N, ¬isLast (grid1.coords t) → cfg1.idle 6 (grid1.coords t) = true := by decide +kernel
theorem out_kept : ∀ t : Fin cfg1.N, ¬isLast (grid1.coords t) → (cfg1.win 6).flush t = false := by decide +kernel
/-- At the last head the output block is stored. -/
theorem out_live : ∀ t : Fin cfg1.N, isLast (grid1.coords t) → cfg1.idle 6 (grid1.coords t) = false := by decide +kernel

/-! ## The buffers the body is called with -/

abbrev mQ (t : Fin cfg1.N) : Memref sig .tc .vmem S1x1x512x64 .bf16 := win1_0.stage (cfg1.slots t 0)
abbrev hQ (t : Fin cfg1.N) : (mQ t).IsWhole := hstage1_0 ((cfg1.slots t 0).cast nbuf1_0)
abbrev mK (t : Fin cfg1.N) : Memref sig .tc .vmem S1x1x2048x64 .bf16 := win1_1.stage (cfg1.slots t 1)
abbrev hK (t : Fin cfg1.N) : (mK t).IsWhole := hstage1_1 ((cfg1.slots t 1).cast nbuf1_1)
abbrev mV (t : Fin cfg1.N) : Memref sig .tc .vmem S1x1x2048x64 .bf16 := win1_2.stage (cfg1.slots t 2)
abbrev hV (t : Fin cfg1.N) : (mV t).IsWhole := hstage1_2 ((cfg1.slots t 2).cast nbuf1_2)
abbrev mM (t : Fin cfg1.N) : Memref sig .tc .vmem S1x512x64 .bf16 := win1_3.stage (cfg1.slots t 3)
abbrev hM (t : Fin cfg1.N) : (mM t).IsWhole := hstage1_3 ((cfg1.slots t 3).cast nbuf1_3)
abbrev mW (t : Fin cfg1.N) : Memref sig .tc .vmem S64x1024 .bf16 := win1_4.stage (cfg1.slots t 4)
abbrev hW (t : Fin cfg1.N) : (mW t).IsWhole := hstage1_4 ((cfg1.slots t 4).cast nbuf1_4)
abbrev mB (t : Fin cfg1.N) : Memref sig .tc .vmem S1x1024 .f32 := win1_5.stage (cfg1.slots t 5)
abbrev hB (t : Fin cfg1.N) : (mB t).IsWhole := hstage1_5 ((cfg1.slots t 5).cast nbuf1_5)
abbrev mO (t : Fin cfg1.N) : Memref sig .tc .vmem S1x512x1024 .f32 := win1_6.stage (cfg1.slots t 6)
abbrev hO (t : Fin cfg1.N) : (mO t).IsWhole := hstage1_6 ((cfg1.slots t 6).cast nbuf1_6)
/-- The accumulator: a whole scoped buffer of the kernel's own. -/
abbrev mAcc : Memref sig .tc .vmem S512x1024 .f32 := Memref.whole cc1_scratch0
/-- Views through which the accumulator's and the output block's contents are stated. -/
abbrev vAcc : View sig .tc .vmem S512x1024 .f32 := mAcc.view
abbrev vOut : View sig .tc .vmem S1x512x1024 .f32 := (Memref.whole cc1_stg6_0 : Memref sig .tc .vmem S1x512x1024 .f32).view

/-- The scoped buffers that are no staging buffer of this launch, with the accumulator at `S`, and the
    generator register at some state. -/
def accWith (c : Dev nD) (S : sProp 𝕄) : sProp 𝕄 :=
  iprop(iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ S) ∗ (∃ r, prngReg c r))

/-- What the launch hands the kernel besides its windows is `accWith` with the accumulator at anything. -/
theorem rest_eq (c : Dev nD) :
    (Pipeline.ΦA spec1 c : sProp 𝕄) = accWith c iprop(∃ d, owns (c : Thread nD τ) mAcc fullShare d) := by
  unfold Pipeline.ΦA accWith; rw [scopedRest1_eq]; simp only [mAcc, owns_whole]; try rfl

end Cert.Kernel.Attn

end
-- ==== Proof.AttnRunFirstBits.lean ====
/-
  The attention kernel's body at one kind of grid point. At the first head: the accumulator, found at anything, is set to zero and the head's contribution added; the output block, handed in at `xo`, is given back untouched.
  The pieces the stores leave are read off the run itself.
-/
import proofs.«133163_j69827578298917_2_alg».proof.Proof.AttnBaseBits

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first head: the accumulator, found at anything, is set to zero and the head's contribution added; the output block, handed in at `xo`, is given back untouched. -/
noncomputable def runFirst (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x512x64 .bf16) (harg6 : arg6.IsWhole) (arg7 : Memref sig .tc .vmem S64x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hf : isFirst i) (hl : ¬isLast i)
    (x0 : Vec F S1x1x512x64 .bf16) (x1 : Vec F S1x1x2048x64 .bf16) (x2 : Vec F S1x1x2048x64 .bf16) (x3 : Vec F S1x512x64 .bf16) (x4 : Vec F S64x1024 .bf16) (x5 : Vec F S1x1024 .f32) :
    { LS : List (View.Piece (Elt F) S512x1024 .f32) //
      ∀ (xo : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xo ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xo ∗ (∃ f, arg10.view.loc (c : Thread nD τ) ↦[arg10.view.set]{fullShare} arg10.view.writes (Elt F) f LS)) -∗ K ⟨⟩))
          ⊢ wp frame (wpE (defs₀ (F := F)) Variants.none c none) E (cc1__fused_kernel i arg3 harg3 arg4 harg4 arg5 harg5 arg6 harg6 arg7 harg7 arg8 harg8 arg9 harg9 arg10 harg10) K } := by
  refine ⟨?_, fun xo E K => ?run⟩
  case run =>
    simp only [cc1__fused_kernel_eq_skeleton]; unfold cc1__fused_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS

end Cert.Kernel.Attn

end
-- ==== Proof.AttnRunMidBits.lean ====
/-
  The attention kernel's body at one kind of grid point. At a middle head: the head's contribution is added to the accumulator found at `acc`; the output block, handed in at `xo`, is given back untouched.
  The pieces the stores leave are read off the run itself.
-/
import proofs.«133163_j69827578298917_2_alg».proof.Proof.AttnBaseBits

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a middle head: the head's contribution is added to the accumulator found at `acc`; the output block, handed in at `xo`, is given back untouched. -/
noncomputable def runMid (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x512x64 .bf16) (harg6 : arg6.IsWhole) (arg7 : Memref sig .tc .vmem S64x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hf : ¬isFirst i) (hl : ¬isLast i)
    (x0 : Vec F S1x1x512x64 .bf16) (x1 : Vec F S1x1x2048x64 .bf16) (x2 : Vec F S1x1x2048x64 .bf16) (x3 : Vec F S1x512x64 .bf16) (x4 : Vec F S64x1024 .bf16) (x5 : Vec F S1x1024 .f32) (acc : Vec F S512x1024 .f32) :
    { LS : List (View.Piece (Elt F) S512x1024 .f32) //
      ∀ (xo : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xo ∗ owns (c : Thread nD τ) arg10 fullShare acc
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xo ∗ (∃ f, arg10.view.loc (c : Thread nD τ) ↦[arg10.view.set]{fullShare} arg10.view.writes (Elt F) f LS)) -∗ K ⟨⟩))
          ⊢ wp frame (wpE (defs₀ (F := F)) Variants.none c none) E (cc1__fused_kernel i arg3 harg3 arg4 harg4 arg5 harg5 arg6 harg6 arg7 harg7 arg8 harg8 arg9 harg9 arg10 harg10) K } := by
  refine ⟨?_, fun xo E K => ?run⟩
  case run =>
    simp only [cc1__fused_kernel_eq_skeleton]; unfold cc1__fused_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS

end Cert.Kernel.Attn

end
-- ==== Proof.AttnRunLastBits.lean ====
/-
  The attention kernel's body at one kind of grid point. At the last head: the head's contribution is added to the accumulator found at `acc`, and the sum plus the bias is stored into the output block (found at anything).
  The pieces the stores leave are read off the run itself.
-/
import proofs.«133163_j69827578298917_2_alg».proof.Proof.AttnBaseBits

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the last head: the head's contribution is added to the accumulator found at `acc`, and the sum plus the bias is stored into the output block (found at anything). -/
noncomputable def runLast (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x512x64 .bf16) (harg6 : arg6.IsWhole) (arg7 : Memref sig .tc .vmem S64x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hf : ¬isFirst i) (hl : isLast i)
    (x0 : Vec F S1x1x512x64 .bf16) (x1 : Vec F S1x1x2048x64 .bf16) (x2 : Vec F S1x1x2048x64 .bf16) (x3 : Vec F S1x512x64 .bf16) (x4 : Vec F S64x1024 .bf16) (x5 : Vec F S1x1024 .f32) (acc : Vec F S512x1024 .f32) :
    Σ' (LO : List (View.Piece (Elt F) S1x512x1024 .f32)), { LS : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare acc
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f LO) ∗ (∃ f, arg10.view.loc (c : Thread nD τ) ↦[arg10.view.set]{fullShare} arg10.view.writes (Elt F) f LS)) -∗ K ⟨⟩))
          ⊢ wp frame (wpE (defs₀ (F := F)) Variants.none c none) E (cc1__fused_kernel i arg3 harg3 arg4 harg4 arg5 harg5 arg6 harg6 arg7 harg7 arg8 harg8 arg9 harg9 arg10 harg10) K } := by
  refine ⟨?_, ?_, fun E K => ?run⟩
  case run =>
    simp only [cc1__fused_kernel_eq_skeleton]; unfold cc1__fused_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS

end Cert.Kernel.Attn

end
-- ==== Proof.AttnBits.lean ====
/-
  The attention kernel (the second launch): what the accumulator and the output block hold after every
  grid point, and the body obligation. Writing h for the head coordinate of point t (h = t mod 16):
  after a point with h = 0 the accumulator holds zero plus the head's contribution; after any other point
  it holds what the point before left plus the head's contribution; and after a point with h = 15 the
  output block holds that sum plus the bias. The accumulator's contents after point n are defined by
  recursion on n, and the invariant between points n and n + 1 says the scratch buffer holds exactly
  that; before the first point it holds anything.
-/
import proofs.«133163_j69827578298917_2_alg».proof.Proof.AttnRunFirstBits
import proofs.«133163_j69827578298917_2_alg».proof.Proof.AttnRunMidBits
import proofs.«133163_j69827578298917_2_alg».proof.Proof.AttnRunLastBits

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

/-- At a first head the stores into the accumulator cover it. -/
theorem first_cover (c : Dev nD) (t : Fin cfg1.N) (hf : isFirst (grid1.coords t)) (hl : ¬isLast (grid1.coords t)) (x0 : Vec F S1x1x512x64 .bf16) (x1 : Vec F S1x1x2048x64 .bf16) (x2 : Vec F S1x1x2048x64 .bf16) (x3 : Vec F S1x512x64 .bf16) (x4 : Vec F S64x1024 .bf16) (x5 : Vec F S1x1024 .f32) (y : S512x1024.Idx) :
    ∃ pc ∈ (runFirst c (grid1.coords t) (mQ t) (hQ t) (mK t) (hK t) (mV t) (hV t) (mM t) (hM t) (mW t) (hW t) (mB t) (hB t) (mO t) (hO t) mAcc (Memref.isWhole_whole _) hf hl x0 x1 x2 x3 x4 x5).1, y ∈ pc.1.set :=
  View.cover_of_tiledL (runFirst c (grid1.coords t) (mQ t) (hQ t) (mK t) (hK t) (mV t) (hV t) (mM t) (hM t) (mW t) (hW t) (mB t) (hB t) (mO t) (hO t) mAcc (Memref.isWhole_whole _) hf hl x0 x1 x2 x3 x4 x5).1 S512x1024.size (by sl_kernel_rfl) y

/-- The accumulator after a first head. -/
def accFirst (c : Dev nD) (t : Fin cfg1.N) (hf : isFirst (grid1.coords t)) (hl : ¬isLast (grid1.coords t)) (x0 : Vec F S1x1x512x64 .bf16) (x1 : Vec F S1x1x2048x64 .bf16) (x2 : Vec F S1x1x2048x64 .bf16) (x3 : Vec F S1x512x64 .bf16) (x4 : Vec F S64x1024 .bf16) (x5 : Vec F S1x1024 .f32) : Vec F S512x1024 .f32 :=
  vAcc.read (Elt F) (vAcc.writes (Elt F) vAcc.junk (runFirst c (grid1.coords t) (mQ t) (hQ t) (mK t) (hK t) (mV t) (hV t) (mM t) (hM t) (mW t) (hW t) (mB t) (hB t) (mO t) (hO t) mAcc (Memref.isWhole_whole _) hf hl x0 x1 x2 x3 x4 x5).1)

/-- At a middle head the store into the accumulator covers it. -/
theorem mid_cover (c : Dev nD) (t : Fin cfg1.N) (hf : ¬isFirst (grid1.coords t)) (hl : ¬isLast (grid1.coords t)) (x0 : Vec F S1x1x512x64 .bf16) (x1 : Vec F S1x1x2048x64 .bf16) (x2 : Vec F S1x1x2048x64 .bf16) (x3 : Vec F S1x512x64 .bf16) (x4 : Vec F S64x1024 .bf16) (x5 : Vec F S1x1024 .f32) (acc : Vec F S512x1024 .f32) (y : S512x1024.Idx) :
    ∃ pc ∈ (runMid c (grid1.coords t) (mQ t) (hQ t) (mK t) (hK t) (mV t) (hV t) (mM t) (hM t) (mW t) (hW t) (mB t) (hB t) (mO t) (hO t) mAcc (Memref.isWhole_whole _) hf hl x0 x1 x2 x3 x4 x5 acc).1, y ∈ pc.1.set :=
  View.cover_of_tiledL (runMid c (grid1.coords t) (mQ t) (hQ t) (mK t) (hK t) (mV t) (hV t) (mM t) (hM t) (mW t) (hW t) (mB t) (hB t) (mO t) (hO t) mAcc (Memref.isWhole_whole _) hf hl x0 x1 x2 x3 x4 x5 acc).1 S512x1024.size (by sl_kernel_rfl) y

/-- The accumulator after a middle head, from what the point before left. -/
def accMid (c : Dev nD) (t : Fin cfg1.N) (hf : ¬isFirst (grid1.coords t)) (hl : ¬isLast (grid1.coords t)) (x0 : Vec F S1x1x512x64 .bf16) (x1 : Vec F S1x1x2048x64 .bf16) (x2 : Vec F S1x1x2048x64 .bf16) (x3 : Vec F S1x512x64 .bf16) (x4 : Vec F S64x1024 .bf16) (x5 : Vec F S1x1024 .f32) (acc : Vec F S512x1024 .f32) : Vec F S512x1024 .f32 :=
  vAcc.read (Elt F) (vAcc.writes (Elt F) vAcc.junk (runMid c (grid1.coords t) (mQ t) (hQ t) (mK t) (hK t) (mV t) (hV t) (mM t) (hM t) (mW t) (hW t) (mB t) (hB t) (mO t) (hO t) mAcc (Memref.isWhole_whole _) hf hl x0 x1 x2 x3 x4 x5 acc).1)

/-- At a last head the store into the accumulator covers it, -/
theorem last_cover (c : Dev nD) (t : Fin cfg1.N) (hf : ¬isFirst (grid1.coords t)) (hl : isLast (grid1.coords t)) (x0 : Vec F S1x1x512x64 .bf16) (x1 : Vec F S1x1x2048x64 .bf16) (x2 : Vec F S1x1x2048x64 .bf16) (x3 : Vec F S1x512x64 .bf16) (x4 : Vec F S64x1024 .bf16) (x5 : Vec F S1x1024 .f32) (acc : Vec F S512x1024 .f32) (y : S512x1024.Idx) :
    ∃ pc ∈ (runLast c (grid1.coords t) (mQ t) (hQ t) (mK t) (hK t) (mV t) (hV t) (mM t) (hM t) (mW t) (hW t) (mB t) (hB t) (mO t) (hO t) mAcc (Memref.isWhole_whole _) hf hl x0 x1 x2 x3 x4 x5 acc).2.1, y ∈ pc.1.set :=
  View.cover_of_tiledL (runLast c (grid1.coords t) (mQ t) (hQ t) (mK t) (hK t) (mV t) (hV t) (mM t) (hM t) (mW t) (hW t) (mB t) (hB t) (mO t) (hO t) mAcc (Memref.isWhole_whole _) hf hl x0 x1 x2 x3 x4 x5 acc).2.1 S512x1024.size (by sl_kernel_rfl) y

/-- and the store into the output block covers it. -/
theorem out_cover (c : Dev nD) (t : Fin cfg1.N) (hf : ¬isFirst (grid1.coords t)) (hl : isLast (grid1.coords t)) (x0 : Vec F S1x1x512x64 .bf16) (x1 : Vec F S1x1x2048x64 .bf16) (x2 : Vec F S1x1x2048x64 .bf16) (x3 : Vec F S1x512x64 .bf16) (x4 : Vec F S64x1024 .bf16) (x5 : Vec F S1x1024 .f32) (acc : Vec F S512x1024 .f32) (y : S1x512x1024.Idx) :
    ∃ pc ∈ (runLast c (grid1.coords t) (mQ t) (hQ t) (mK t) (hK t) (mV t) (hV t) (mM t) (hM t) (mW t) (hW t) (mB t) (hB t) (mO t) (hO t) mAcc (Memref.isWhole_whole _) hf hl x0 x1 x2 x3 x4 x5 acc).1, y ∈ pc.1.set :=
  View.cover_of_tiledL (runLast c (grid1.coords t) (mQ t) (hQ t) (mK t) (hK t) (mV t) (hV t) (mM t) (hM t) (mW t) (hW t) (mB t) (hB t) (mO t) (hO t) mAcc (Memref.isWhole_whole _) hf hl x0 x1 x2 x3 x4 x5 acc).1 S1x512x1024.size (by sl_kernel_rfl) y

/-- The accumulator after a last head, -/
def accLast (c : Dev nD) (t : Fin cfg1.N) (hf : ¬isFirst (grid1.coords t)) (hl : isLast (grid1.coords t)) (x0 : Vec F S1x1x512x64 .bf16) (x1 : Vec F S1x1x2048x64 .bf16) (x2 : Vec F S1x1x2048x64 .bf16) (x3 : Vec F S1x512x64 .bf16) (x4 : Vec F S64x1024 .bf16) (x5 : Vec F S1x1024 .f32) (acc : Vec F S512x1024 .f32) : Vec F S512x1024 .f32 :=
  vAcc.read (Elt F) (vAcc.writes (Elt F) vAcc.junk (runLast c (grid1.coords t) (mQ t) (hQ t) (mK t) (hK t) (mV t) (hV t) (mM t) (hM t) (mW t) (hW t) (mB t) (hB t) (mO t) (hO t) mAcc (Memref.isWhole_whole _) hf hl x0 x1 x2 x3 x4 x5 acc).2.1)

/-- and the output block. -/
def outLast (c : Dev nD) (t : Fin cfg1.N) (hf : ¬isFirst (grid1.coords t)) (hl : isLast (grid1.coords t)) (x0 : Vec F S1x1x512x64 .bf16) (x1 : Vec F S1x1x2048x64 .bf16) (x2 : Vec F S1x1x2048x64 .bf16) (x3 : Vec F S1x512x64 .bf16) (x4 : Vec F S64x1024 .bf16) (x5 : Vec F S1x1024 .f32) (acc : Vec F S512x1024 .f32) : Vec F S1x512x1024 .f32 :=
  vOut.read (Elt F) (vOut.writes (Elt F) vOut.junk (runLast c (grid1.coords t) (mQ t) (hQ t) (mK t) (hK t) (mV t) (hV t) (mM t) (hM t) (mW t) (hW t) (mB t) (hB t) (mO t) (hO t) mAcc (Memref.isWhole_whole _) hf hl x0 x1 x2 x3 x4 x5 acc).1)

/-- Away from a last head nothing is stored into the output block: a placeholder nothing consults. -/
def outNone : Vec F S1x512x1024 .f32 := vOut.read (Elt F) vOut.junk

/-! ## The accumulation over the grid -/

/-- What the output block's buffer and the accumulator hold after the body at position `n`. -/
def stateAt (c : Dev nD) : (n : ℕ) → n < cfg1.N → Vec F S1x512x1024 .f32 × Vec F S512x1024 .f32
  | 0, hn => (outNone, accFirst c ⟨0, hn⟩ ((isFirst_iff ⟨0, hn⟩).mpr (Nat.zero_mod _)) (fun h => (fun h => by (try dsimp only at h); omega) ((isLast_iff ⟨0, hn⟩).mp h)) (blk V c 0 ⟨0, hn⟩) (blk V c 1 ⟨0, hn⟩) (blk V c 2 ⟨0, hn⟩) (blk V c 3 ⟨0, hn⟩) (blk V c 4 ⟨0, hn⟩) (blk V c 5 ⟨0, hn⟩))
  | n + 1, hn =>
    if h0 : (n + 1) % 16 = 0 then
      if h1 : (n + 1) % 16 = 15 then
        False.elim (by omega)
      else
        (outNone, accFirst c ⟨n + 1, hn⟩ ((isFirst_iff ⟨n + 1, hn⟩).mpr h0) (fun h => h1 ((isLast_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩))
    else
      if h1 : (n + 1) % 16 = 15 then
        (outLast c ⟨n + 1, hn⟩ (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (stateAt c n (Nat.lt_of_succ_lt hn)).2,
         accLast c ⟨n + 1, hn⟩ (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (stateAt c n (Nat.lt_of_succ_lt hn)).2)
      else
        (outNone, accMid c ⟨n + 1, hn⟩ (fun h => h0 ((isFirst_iff ⟨n + 1, hn⟩).mp h)) (fun h => h1 ((isLast_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (stateAt c n (Nat.lt_of_succ_lt hn)).2)

theorem stateAt_first (c : Dev nD) (t : Fin cfg1.N) (h0 : t.val % 16 = 0) (h1 : ¬t.val % 16 = 15) :
    stateAt V c t.val t.isLt = (outNone, accFirst c t ((isFirst_iff t).mpr h0) (fun h => h1 ((isLast_iff t).mp h)) (blk V c 0 t) (blk V c 1 t) (blk V c 2 t) (blk V c 3 t) (blk V c 4 t) (blk V c 5 t)) := by
  obtain ⟨n, hn⟩ := t
  cases n with
  | zero => exact rfl
  | succ n => exact (dif_pos h0).trans ((dif_neg h1).trans rfl)

theorem stateAt_mid (c : Dev nD) (t : Fin cfg1.N) (h0 : ¬t.val % 16 = 0) (h1 : ¬t.val % 16 = 15) :
    stateAt V c t.val t.isLt = (outNone, accMid c t (fun h => h0 ((isFirst_iff t).mp h)) (fun h => h1 ((isLast_iff t).mp h)) (blk V c 0 t) (blk V c 1 t) (blk V c 2 t) (blk V c 3 t) (blk V c 4 t) (blk V c 5 t) (stateAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem stateAt_last (c : Dev nD) (t : Fin cfg1.N) (h0 : ¬t.val % 16 = 0) (h1 : t.val % 16 = 15) :
    stateAt V c t.val t.isLt = (outLast c t (fun h => h0 ((isFirst_iff t).mp h)) ((isLast_iff t).mpr h1) (blk V c 0 t) (blk V c 1 t) (blk V c 2 t) (blk V c 3 t) (blk V c 4 t) (blk V c 5 t) (stateAt V c (t.val - 1) (Nat.lt_of_le_of_lt (Nat.sub_le _ _) t.isLt)).2,
      accLast c t (fun h => h0 ((isFirst_iff t).mp h)) ((isLast_iff t).mpr h1) (blk V c 0 t) (blk V c 1 t) (blk V c 2 t) (blk V c 3 t) (blk V c 4 t) (blk V c 5 t) (stateAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point what the launch hands over (the accumulator at
    anything); afterwards the accumulator at what the point before left in it. -/
def inv (c : Dev nD) : (n : ℕ) → n ≤ cfg1.N → sProp 𝕄
  | 0, _ => Pipeline.ΦA spec1 c
  | n + 1, hn => accWith c (owns (c : Thread nD τ) mAcc fullShare (stateAt V c n hn).2)

theorem inv_zero (c : Dev nD) (n : ℕ) (h : n ≤ cfg1.N) (hz : n = 0) : inv V c n h = Pipeline.ΦA spec1 c := by
  subst hz; rfl

theorem inv_succ (c : Dev nD) (n : ℕ) (hn : n < cfg1.N) :
    inv V c (n + 1) hn = accWith c (owns (c : Thread nD τ) mAcc fullShare (stateAt V c n hn).2) := rfl

theorem inv_pos (c : Dev nD) (n : ℕ) (h : n ≤ cfg1.N) (hz : n ≠ 0) :
    inv V c n h = accWith c (owns (c : Thread nD τ) mAcc fullShare (stateAt V c (n - 1) (by omega)).2) := by
  cases n with
  | zero => exact absurd rfl hz
  | succ n => rfl

/-! ## The proof data -/

/-- The proof data of the second launch on core `c`: the arrays as the launch finds them; after the body at
    point `t` each input buffer at its block and the output buffer at `stateAt`'s first component; the
    invariant `inv`; nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => (stateAt V c t.val t.isLt).1
  Φ t := inv V c t.val (Nat.le_of_lt_succ t.isLt)
  q _ := fullShare
  owed _ := 0

theorem dat_A (c : Dev nD) (w : Fin cfg1.W) : (dat V c).A w = V c (Pipeline.arrRef spec1 w) := by
  dsimp only [dat]

theorem inv_castSucc (c : Dev nD) (t : Fin cfg1.N) :
    (dat V c).Φ t.castSucc = inv V c t.val (Nat.le_of_lt t.isLt) := by
  dsimp only [dat]; simp only [Fin.coe_castSucc]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) : (dat V c).after 5 t = blk V c 5 t := by dsimp only [dat]
theorem after_6 (c : Dev nD) (t : Fin cfg1.N) : (dat V c).after 6 t = (stateAt V c t.val t.isLt).1 := by dsimp only [dat]

theorem before_0 (c : Dev nD) (t : Fin cfg1.N) (d) : (dat V c).before 0 t d = blk V c 0 t := q_held V (dat V c) (dat_A V c 0) (after_0 V c) t d
theorem before_1 (c : Dev nD) (t : Fin cfg1.N) (d) : (dat V c).before 1 t d = blk V c 1 t := k_held V (dat V c) (dat_A V c 1) (after_1 V c) t d
theorem before_2 (c : Dev nD) (t : Fin cfg1.N) (d) : (dat V c).before 2 t d = blk V c 2 t := v_held V (dat V c) (dat_A V c 2) (after_2 V c) t d
theorem before_3 (c : Dev nD) (t : Fin cfg1.N) (d) : (dat V c).before 3 t d = blk V c 3 t := mem_held V (dat V c) (dat_A V c 3) (after_3 V c) t d
theorem before_4 (c : Dev nD) (t : Fin cfg1.N) (d) : (dat V c).before 4 t d = blk V c 4 t := w_held V (dat V c) (dat_A V c 4) (after_4 V c) t d
theorem before_5 (c : Dev nD) (t : Fin cfg1.N) (d) : (dat V c).before 5 t d = blk V c 5 t := bias_held V (dat V c) (dat_A V c 5) (after_5 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (mQ t) fullShare ((dat V c).before 0 t d))
    ∗ (∃ d, owns (c : Thread nD τ) (mK t) fullShare ((dat V c).before 1 t d))
    ∗ (∃ d, owns (c : Thread nD τ) (mV t) fullShare ((dat V c).before 2 t d))
    ∗ (∃ d, owns (c : Thread nD τ) (mM t) fullShare ((dat V c).before 3 t d))
    ∗ (∃ d, owns (c : Thread nD τ) (mW t) fullShare ((dat V c).before 4 t d))
    ∗ (∃ d, owns (c : Thread nD τ) (mB t) fullShare ((dat V c).before 5 t d))
    ∗ (∃ d, owns (c : Thread nD τ) (mO t) fullShare ((dat V c).before 6 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t ∗ (dat V c).leavesExact 5 t ∗ (dat V c).leavesExact 6 t)

set_option maxHeartbeats 4800000 in
/-- The body at any point: the inputs' buffers hold their blocks; the point number mod 16 says which kind of
    point it is; the invariant hands the body the accumulator at what the point before left (at anything
    before the first point) and takes it back at this point's contents. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).owesAt () t.succ = (dat V c).owesAt () t.castSucc from rfl]
  rw [show (dat V c).Φ t.succ = inv V c (t.val + 1) t.isLt from rfl, inv_succ]
  have hN : t.val < 128 := lt_of_lt_of_eq t.isLt (show cfg1.N = 128 from N_1)
  rw [show (dat V c).leavesExact 0 t = owns (c : Thread nD τ) ((cfg1.win 0).stage (cfg1.slots t 0)) fullShare ((dat V c).after 0 t) from by
    unfold Dat.leavesExact; rw [live0 t], after_0]
  rw [show (dat V c).leavesExact 1 t = owns (c : Thread nD τ) ((cfg1.win 1).stage (cfg1.slots t 1)) fullShare ((dat V c).after 1 t) from by
    unfold Dat.leavesExact; rw [live1 t], after_1]
  rw [show (dat V c).leavesExact 2 t = owns (c : Thread nD τ) ((cfg1.win 2).stage (cfg1.slots t 2)) fullShare ((dat V c).after 2 t) from by
    unfold Dat.leavesExact; rw [live2 t], after_2]
  rw [show (dat V c).leavesExact 3 t = owns (c : Thread nD τ) ((cfg1.win 3).stage (cfg1.slots t 3)) fullShare ((dat V c).after 3 t) from by
    unfold Dat.leavesExact; rw [live3 t], after_3]
  rw [show (dat V c).leavesExact 4 t = owns (c : Thread nD τ) ((cfg1.win 4).stage (cfg1.slots t 4)) fullShare ((dat V c).after 4 t) from by
    unfold Dat.leavesExact; rw [live4 t], after_4]
  rw [show (dat V c).leavesExact 5 t = owns (c : Thread nD τ) ((cfg1.win 5).stage (cfg1.slots t 5)) fullShare ((dat V c).after 5 t) from by
    unfold Dat.leavesExact; rw [live5 t], after_5]
  by_cases h0 : t.val % 16 = 0
  · have h1 : ¬t.val % 16 = 15 := by omega
    rw [Dat.leavesExact_idle (dat V c) 6 t (out_idle t (fun h => h1 ((isLast_iff t).mp h))) (out_kept t (fun h => h1 ((isLast_iff t).mp h)))]
    rw [stateAt_first V c t h0 h1]
    unfold accFirst accWith; (try dsimp only)
    by_cases hz : t.val = 0
    · rw [inv_castSucc V c t, inv_zero V c _ _ hz, rest_eq]; unfold accWith
      iintro ⟨⟨⟨A1, A2, A3, A4, A5, A6, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid1.coords t) (mQ t) (hQ t) (mK t) (hK t) (mV t) (hV t) (mM t) (hM t) (mW t) (hW t) (mB t) (hB t) (mO t) (hO t) mAcc (Memref.isWhole_whole _) ((isFirst_iff t).mpr h0) (fun h => h1 ((isLast_iff t).mp h)) (blk V c 0 t) (blk V c 1 t) (blk V c 2 t) (blk V c 3 t) (blk V c 4 t) (blk V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [A1 A2 A3 A4 A5 A6 HS Hg]
      · isplitl [A1 A2 A3 A4 A5 A6 HS]
        · isplitl [A1]; · iexact A1
          isplitl [A2]; · iexact A2
          isplitl [A3]; · iexact A3
          isplitl [A4]; · iexact A4
          isplitl [A5]; · iexact A5
          isplitl [A6]; · iexact A6
          unfold owns; iexists _; isplitr
          swap; · iexact HS
          ipureintro; exact View.read_writes_of_cover _ _ _ _ _ (first_cover c t _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [inv_castSucc V c t, inv_pos V c _ _ hz]; unfold accWith
      iintro ⟨⟨⟨A1, A2, A3, A4, A5, A6, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid1.coords t) (mQ t) (hQ t) (mK t) (hK t) (mV t) (hV t) (mM t) (hM t) (mW t) (hW t) (mB t) (hB t) (mO t) (hO t) mAcc (Memref.isWhole_whole _) ((isFirst_iff t).mpr h0) (fun h => h1 ((isLast_iff t).mp h)) (blk V c 0 t) (blk V c 1 t) (blk V c 2 t) (blk V c 3 t) (blk V c 4 t) (blk V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, ⟨%es, HS⟩⟩
      isplitl [A1 A2 A3 A4 A5 A6 HS Hg]
      · isplitl [A1 A2 A3 A4 A5 A6 HS]
        · isplitl [A1]; · iexact A1
          isplitl [A2]; · iexact A2
          isplitl [A3]; · iexact A3
          isplitl [A4]; · iexact A4
          isplitl [A5]; · iexact A5
          isplitl [A6]; · iexact A6
          unfold owns; iexists _; isplitr
          swap; · iexact HS
          ipureintro; exact View.read_writes_of_cover _ _ _ _ _ (first_cover c t _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : t.val % 16 = 15
    · rw [show (dat V c).leavesExact 6 t = owns (c : Thread nD τ) ((cfg1.win 6).stage (cfg1.slots t 6)) fullShare ((dat V c).after 6 t) from by
        unfold Dat.leavesExact; rw [out_live t ((isLast_iff t).mpr h1)], after_6]
      rw [stateAt_last V c t h0 h1]
      unfold accLast outLast accWith; (try dsimp only)
      rw [inv_castSucc V c t, inv_pos V c _ _ hz]; unfold accWith
      iintro ⟨⟨⟨A1, A2, A3, A4, A5, A6, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid1.coords t) (mQ t) (hQ t) (mK t) (hK t) (mV t) (hV t) (mM t) (hM t) (mW t) (hW t) (mB t) (hB t) (mO t) (hO t) mAcc (Memref.isWhole_whole _) (fun h => h0 ((isFirst_iff t).mp h)) ((isLast_iff t).mpr h1) (blk V c 0 t) (blk V c 1 t) (blk V c 2 t) (blk V c 3 t) (blk V c 4 t) (blk V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%eo, H6⟩, ⟨%es, HS⟩⟩
      isplitl [A1 A2 A3 A4 A5 A6 HS Hg]
      · isplitl [A1 A2 A3 A4 A5 A6 HS]
        · isplitl [A1]; · iexact A1
          isplitl [A2]; · iexact A2
          isplitl [A3]; · iexact A3
          isplitl [A4]; · iexact A4
          isplitl [A5]; · iexact A5
          isplitl [A6]; · iexact A6
          unfold owns; iexists _; isplitr
          swap; · iexact HS
          ipureintro; exact View.read_writes_of_cover _ _ _ _ _ (last_cover c t _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (out_cover c t _ _ _ _ _ _ _ _ _)
    · rw [Dat.leavesExact_idle (dat V c) 6 t (out_idle t (fun h => h1 ((isLast_iff t).mp h))) (out_kept t (fun h => h1 ((isLast_iff t).mp h)))]
      rw [stateAt_mid V c t h0 h1]
      unfold accMid accWith; (try dsimp only)
      rw [inv_castSucc V c t, inv_pos V c _ _ hz]; unfold accWith
      iintro ⟨⟨⟨A1, A2, A3, A4, A5, A6, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runMid c (grid1.coords t) (mQ t) (hQ t) (mK t) (hK t) (mV t) (hV t) (mM t) (hM t) (mW t) (hW t) (mB t) (hB t) (mO t) (hO t) mAcc (Memref.isWhole_whole _) (fun h => h0 ((isFirst_iff t).mp h)) (fun h => h1 ((isLast_iff t).mp h)) (blk V c 0 t) (blk V c 1 t) (blk V c 2 t) (blk V c 3 t) (blk V c 4 t) (blk V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [A1 A2 A3 A4 A5 A6 HS Hg]
      · isplitl [A1 A2 A3 A4 A5 A6 HS]
        · isplitl [A1]; · iexact A1
          isplitl [A2]; · iexact A2
          isplitl [A3]; · iexact A3
          isplitl [A4]; · iexact A4
          isplitl [A5]; · iexact A5
          isplitl [A6]; · iexact A6
          unfold owns; iexists _; isplitr
          swap; · iexact HS
          ipureintro; exact View.read_writes_of_cover _ _ _ _ _ (mid_cover c t _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation of the second launch, at every point. -/
theorem obligation (c : Dev nD) : BodyObligation (dat (F := F) V c) (defs₀ (F := F)) Variants.none () Set.univ := fun t => by
  rw [bigSep_W1, bigSep_W1]
  exact body_at V c t

/-- What the launch hands over is the invariant before the first point. -/
theorem inv_in (c : Dev nD) : Pipeline.ΦA spec1 c ⊢ (dat V c).Φ 0 := by
  rw [show (dat V c).Φ 0 = inv V c 0 (Nat.zero_le _) from rfl, inv_zero V c 0 _ rfl]
  try exact Idealize.SL.BI.Entails.refl _

/-- After the last point the invariant gives back what the launch handed over: the accumulator's contents
    are forgotten. -/
theorem inv_out (c : Dev nD) : (dat V c).Φ (Fin.last cfg1.N) ⊢ Pipeline.ΦA spec1 c := by
  have ht : (Fin.last cfg1.N).val ≠ 0 := by rw [Fin.val_last]; have : cfg1.N = 128 := N_1; omega
  rw [show (dat V c).Φ (Fin.last cfg1.N) = inv V c (Fin.last cfg1.N).val (Nat.le_of_lt_succ (Fin.last cfg1.N).isLt) from rfl,
    inv_pos V c _ _ ht, rest_eq]
  unfold accWith
  iintro ⟨⟨A1, A2, A3, A4, A5, A6, HS⟩, Hg⟩
  isplitl [A1 A2 A3 A4 A5 A6 HS]
  · isplitl [A1]; · iexact A1
    isplitl [A2]; · iexact A2
    isplitl [A3]; · iexact A3
    isplitl [A4]; · iexact A4
    isplitl [A5]; · iexact A5
    isplitl [A6]; · iexact A6
    iexists _; iexact HS
  iexact Hg

end Cert.Kernel.Attn

end
-- ==== Proof.WholeBits.lean ====
/-
  The whole program: five host operations (two transposes, a format change, two reshapes), the projection
  launch, thirteen host operations (a reshape, three slices, reshapes and transposes into per-head layout, a
  format change), the attention launch. The contents of every unscoped buffer are followed through the four
  stretches: after a stretch of host operations each written buffer holds its operation's result; after a
  launch each of its windows' arrays holds what the write-backs of the launch leave, and every other buffer
  what it held. No stretch writes an argument. The run of the program from any memory with every semaphore at
  zero terminates without a fault, and every unscoped buffer ends at the last valuation.
-/
import proofs.«133163_j69827578298917_2_alg».proof.Proof.ProjectionBits
import proofs.«133163_j69827578298917_2_alg».proof.Proof.AttnBits
import proofs.«133163_j69827578298917_2_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first five host operations (what the projection launch finds). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection launch: its arrays at what its write-backs leave, every other buffer as before. -/
def W2 (c : Dev nD) : Valuation τ sig (Elt F) :=
  Pipeline.withArrays spec0 c (W1 m c) fun w => (Proj.dat (V1 m) c).arrAt w cfg0.N
theorem W2_arr (c : Dev nD) (w : Fin cfg0.W) :
    W2 m c (Proc.devRef .tc (Pipeline.arrRef spec0 w)) = (Proj.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem arrs0 (c : Dev nD) (w : Fin cfg0.W) : (Proj.dat (V1 m) c).arrAt w cfg0.N = V2 m c (Pipeline.arrRef spec0 w) :=
  (W2_arr m c w).symm
theorem rest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the thirteen host operations (what the attention launch finds). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the attention launch. -/
def W4 (c : Dev nD) : Valuation τ sig (Elt F) :=
  Pipeline.withArrays spec1 c (W3 m c) fun w => (Attn.dat (V3 m) c).arrAt w cfg1.N
theorem W4_arr (c : Dev nD) (w : Fin cfg1.W) :
    W4 m c (Proc.devRef .tc (Pipeline.arrRef spec1 w)) = (Attn.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem arrs1 (c : Dev nD) (w : Fin cfg1.W) : (Attn.dat (V3 m) c).arrAt w cfg1.N = V4 m c (Pipeline.arrRef spec1 w) :=
  (W4_arr m c w).symm
theorem rest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- A buffer that is no window's array of either launch and that no host operation writes ends as launched. -/
theorem end_of_untouched (c : Dev nD) (r : Ref sig .tc) (h1 : ∀ w, Pipeline.arrRef spec1 w ≠ r) (h2 : r ∉ hostOps1_W)
    (h3 : ∀ w, Pipeline.arrRef spec0 w ≠ r) (h4 : r ∉ hostOps0_W) :
    W4 m c (Proc.devRef .tc r) = m ((c : Thread nD τ).loc r) :=
  calc W4 m c (Proc.devRef .tc r)
    _ = W3 m c (Proc.devRef .tc r) := W4_of_ne m c r h1
    _ = W2 m c (Proc.devRef .tc r) := StableHlo.after_of_writes_sub hostOps1 _ hostOps1_writes h2
    _ = W1 m c (Proc.devRef .tc r) := W2_of_ne m c r h3
    _ = W0 m c (Proc.devRef .tc r) := StableHlo.after_of_writes_sub hostOps0 _ hostOps0_writes h4
    _ = m ((c : Thread nD τ).loc r) := rfl

theorem end_arg0 (c : Dev nD) : W4 m c (Proc.devRef .tc main_arg0) = m ((c : Thread nD τ).loc main_arg0) :=
  end_of_untouched m c main_arg0 (by decide) (by decide) (by decide) (by decide)
theorem end_arg1 (c : Dev nD) : W4 m c (Proc.devRef .tc main_arg1) = m ((c : Thread nD τ).loc main_arg1) :=
  end_of_untouched m c main_arg1 (by decide) (by decide) (by decide) (by decide)
theorem end_arg2 (c : Dev nD) : W4 m c (Proc.devRef .tc main_arg2) = m ((c : Thread nD τ).loc main_arg2) :=
  end_of_untouched m c main_arg2 (by decide) (by decide) (by decide) (by decide)
theorem end_arg3 (c : Dev nD) : W4 m c (Proc.devRef .tc main_arg3) = m ((c : Thread nD τ).loc main_arg3) :=
  end_of_untouched m c main_arg3 (by decide) (by decide) (by decide) (by decide)
theorem end_arg4 (c : Dev nD) : W4 m c (Proc.devRef .tc main_arg4) = m ((c : Thread nD τ).loc main_arg4) :=
  end_of_untouched m c main_arg4 (by decide) (by decide) (by decide) (by decide)

/-! ## The proof data family and the thread state -/

abbrev adm : (p : Fin 2) → (pcfgs (F := F) p).Adm := fun p => (cfgs p).toPCfg_adm
/-- Both launches' proof data, each at the valuation its launch finds. -/
def pdats (ρ : Dev nD → PrngReg) : (p : Fin 2) → (c : Dev nD) → Dat τ (Elt F) Unit ℕ (UR sig nD τ) ℕ (Pipeline.pin (pcfgs (F := F)) adm p) c
  | ⟨0, _⟩ => fun c => Proj.dat (V1 m) c
  | ⟨1, _⟩ => fun c => Attn.dat (V3 m) c
abbrev 𝒱₀ : Variants := Variants.none
abbrev L : GSem nD τ sig → Finset Unit := fun _ => ∅
abbrev lv : GSem nD τ sig → Unit → ℕ := fun _ _ => 0
/-- What rides beside the buffers through every stretch: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last valuation. -/
abbrev Tₙ (c : Dev nD) : sProp 𝕄 := iprop(StableHlo.held (c : Thread nD τ) (Pipeline.ucRefs τ sig) (W4 m c) ∗ ∃ r, prngReg c r)

/-! ## The launches as segments -/

set_option backward.isDefEq.respectTransparency.types false in
/-- Launch 0 over the thread state: entered from every unscoped buffer at the valuation before it, left at the
    valuation after it. Its windows' arrays are split out of the unscoped buffers and put back at their final
    contents; the generator register passes through; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m c) (V2 m c) ((pdats m ρ 0 c).arrAt · cfg0.N) (arrs0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at the valuation before it, left at the
    valuation after it. Its windows' arrays are split out of the unscoped buffers and put back at their final
    contents; the generator register passes through; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Attn.obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Attn.inv_in (V3 m) c)
    unfold Pipeline.ΦA
    iintro ⟨Hp, -, Hr⟩
    isplitl [Hr]; · iexact Hr
    iexact Hp
  hout c := by
    rw [Pipeline.ownSems0_none]
    refine BIBase.Entails.trans (Attn.inv_out (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m c) (V4 m c) ((pdats m ρ 1 c).arrAt · cfg1.N) (arrs1 m c) (rest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .host (hseg hostOps0 hostOps0_sub hostOps0_fresh (W0 m)),
    .region (reg0 m ρ),
    .host (hseg hostOps1 hostOps1_sub hostOps1_fresh (W2 m)),
    .region (reg1 m ρ) ]
theorem main_run (c : Dev nD) : main (F := F) c = Pipeline.Seg.run (segs m ρ) := (main_chain c).trans (by chain_rfl)

set_option backward.isDefEq.respectTransparency.types false in
/-- From any memory with every semaphore at zero, every weakly fair execution of the program terminates without
    a fault, and in the final memory every unscoped buffer holds what the last valuation says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (end_arg0 m c),
     (h c _ (mem_uc main_arg1 (by decide))).trans (end_arg1 m c),
     (h c _ (mem_uc main_arg2 (by decide))).trans (end_arg2 m c),
     (h c _ (mem_uc main_arg3 (by decide))).trans (end_arg3 m c),
     (h c _ (mem_uc main_arg4 (by decide))).trans (end_arg4 m c)⟩) (run_all m ρ)

end Cert.Kernel.Whole

end
-- ==== Proof.ProjectionIdeal.lean ====
/-
  The projection kernel (the first launch): one grid point multiplies a 512-row block of the flattened
  activations (4096 x 1024) by a 1024-column block of the transposed projection weights (1024 x 3072)
  and stores the 512 x 1024 product block. The grid is 3 weight blocks (outer) by 8 row blocks (inner).
  Stated for every float instance and for an arbitrary valuation `V` of the unscoped buffers at the
  moment the launch is entered: what each window's block is, what the body leaves in the output block
  (a function of the two input blocks only), and that the body run from buffers holding those blocks
  ends holding that product block, the two input buffers unchanged.
-/
import proofs.«133163_j69827578298917_2_alg».proof.Proof.Gen.KernelIdeal.Launch
import proofs.«133163_j69827578298917_2_alg».proof.Proof.Gen.KernelIdeal.Skeleton
import proofs.«133163_j69827578298917_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`: the part of the window's array (as the launch finds it) that grid point `t` sees. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' buffer holds the point's row block at every point, whether or not it was fetched there
    (an unfetched block has the same index as the one before). -/
theorem rows_held {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The weights' buffer holds the point's column block at every point (it is fetched only when the outer
    coordinate moves, and keeps its block in between). -/
theorem cols_held {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The whole 512 x 1024 block and the whole 1024 x 1024 block, as rectangles. -/
abbrev rRows : Rect S512x1024 := Rect.unit (s := S512x1024) ![0, 0] S512x1024.size inb_S512x1024_S512x1024_0_0
abbrev rCols : Rect S1024x1024 := Rect.unit (s := S1024x1024) ![0, 0] S1024x1024.size inb_S1024x1024_S1024x1024_0_0

/-- What the body leaves in the output block: its one store, the product of the row block and the column block. -/
def prod (x0 : Vec F S512x1024 .f32) (x1 : Vec F S1024x1024 .f32) : Vec F S512x1024 .bf16 :=
  View.canon [⟨rRows, k0_pay1 (View.ld x0 rRows) (View.ld x1 rCols)⟩]

/-- The one store covers the whole output block. -/
theorem prod_cover (p0 : Vec F S512x1024 .bf16) (y : S512x1024.Idx) :
    ∃ pc ∈ ([⟨rRows, p0⟩] : List (View.Piece (Elt F) S512x1024 .bf16)), y ∈ pc.1.set :=
  View.cover_of_tiled [⟨rRows, p0⟩] S512x1024.size (by rfl) y

set_option maxHeartbeats 1000000 in
/-- The body, run from whole buffers holding a row block `x0`, a column block `x1` and anything in the output
    buffer, ends with the inputs as they were and the output buffer at `prod x0 x1`. -/
theorem body_triple (c : Dev nD) (E : Set ℕ) (i : grid0.Coords) (arg2 : Memref sig .tc .vmem S512x1024 .f32) (harg2 : arg2.IsWhole)
    (arg3 : Memref sig .tc .vmem S1024x1024 .f32) (harg3 : arg3.IsWhole) (arg4 : Memref sig .tc .vmem S512x1024 .bf16) (harg4 : arg4.IsWhole)
    (x0 : Vec F S512x1024 .f32) (x1 : Vec F S1024x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (prod x0 x1)) -∗ K ⟨⟩))
      ⊢ wp frame (wpE (defs₀ (F := F)) Variants.none c none) E (cc0__qkv_kernel i arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (prod_cover _)

/-- The proof data of the first launch on core `c`: the arrays as the launch finds them; after the body at
    point `t` the input buffers at their blocks and the output buffer at their product; nothing kept between
    points; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => prod (blk V c 0 t) (blk V c 1 t)
  Φ _ := Pipeline.ΦA spec0 c
  q _ := fullShare
  owed _ := 0

theorem dat_A (c : Dev nD) (w : Fin cfg0.W) : (dat V c).A w = V c (Pipeline.arrRef spec0 w) := by
  dsimp only [dat]

theorem after_rows (c : Dev nD) (t : Fin cfg0.N) : (dat V c).after 0 t = blk V c 0 t := by dsimp only [dat]
theorem after_cols (c : Dev nD) (t : Fin cfg0.N) : (dat V c).after 1 t = blk V c 1 t := by dsimp only [dat]
theorem after_prod (c : Dev nD) (t : Fin cfg0.N) : (dat V c).after 2 t = prod (blk V c 0 t) (blk V c 1 t) := by dsimp only [dat]

theorem before_rows (c : Dev nD) (t : Fin cfg0.N) (d) : (dat V c).before 0 t d = blk V c 0 t :=
  rows_held V (dat V c) (dat_A V c 0) (after_rows V c) t d
theorem before_cols (c : Dev nD) (t : Fin cfg0.N) (d) : (dat V c).before 1 t d = blk V c 1 t :=
  cols_held V (dat V c) (dat_A V c 1) (after_cols V c) t d

/-- What the body is entered with at point `t`, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_rows, before_cols]
  rw [show (dat V c).Φ t.succ = (dat V c).Φ t.castSucc from rfl,
    show (dat V c).owesAt () t.succ = (dat V c).owesAt () t.castSucc from rfl,
    after_rows, after_cols, after_prod]
  iintro ⟨HΦ, Ho, ⟨%d0, H0⟩, ⟨%d1, H1⟩, ⟨%d2, H2⟩⟩
  iapply (body_triple c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the first launch, at every point. -/
theorem obligation (c : Dev nD) : BodyObligation (dat (F := F) V c) (defs₀ (F := F)) Variants.none () Set.univ := fun t => by
  rw [bigSep_W0, bigSep_W0]
  exact body_at V c t

end Cert.KernelIdeal.Proj

end
-- ==== Proof.AttnBaseIdeal.lean ====
/-
  The attention kernel (the second launch), shared definitions. The grid is batch (2) x query block (4) x
  head (16), the head innermost. One grid point takes the 512 x 64 query block of its (batch, head, query
  block), the 2048 x 64 key and value blocks of its (batch, head), the 512 x 64 memory block and the
  64 x 1024 slice of the transposed output weights of its head, and the 1 x 1024 bias. It adds the head's
  contribution to a 512 x 1024 accumulator that lives in a scratch buffer across the 16 heads: the
  accumulator is set to zero when the head is the first, and when the head is the last the accumulator plus
  the bias is stored into the output block of (batch, query block).
  Here: the windows' blocks, the two conditions in closed form over the linear point number
  (first head: point = 0 mod 16; last head: point = 15 mod 16), where the output window is idle, and the
  scoped buffers other than the staging buffers split into the accumulator and the rest.
-/
import proofs.«133163_j69827578298917_2_alg».proof.Proof.Gen.KernelIdeal.Launch
import proofs.«133163_j69827578298917_2_alg».proof.Proof.Gen.KernelIdeal.Skeleton
import proofs.«133163_j69827578298917_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block `t` of window `w`: the part of the window's array (as the launch finds it) that grid point `t` sees. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query buffer holds the point's query block at every point. -/
theorem q_held {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The key buffer holds the point's key block at every point. -/
theorem k_held {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- The value buffer holds the point's value block at every point. -/
theorem v_held {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The memory buffer holds the head's memory block at every point. -/
theorem mem_held {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- The weight buffer holds the head's weight slice at every point. -/
theorem w_held {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The bias buffer holds the bias at every point: it is fetched once, at the first point, and its index never moves. -/
theorem bias_held {c : Dev nD} (dat : Dat τ (Elt F) Unit ℕ (UR sig nD τ) ℕ cfg1 c) (hA : dat.A 5 = V c (Pipeline.arrRef spec1 5))
    (hafter : ∀ t, dat.after 5 t = blk V c 5 t) (t : Fin cfg1.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-! ## The two conditions -/

/-- The head coordinate is 0: the accumulator is reset. -/
abbrev isFirst (i : grid1.Coords) : Prop := (Scalar.cmpi .ne (Scalar.extui (Scalar.cmpi .eq (BitVec.ofNat 32 (i 2).val) 0#32)) 0#32) = 1#1
theorem isFirst_iff : ∀ t : Fin cfg1.N, isFirst (grid1.coords t) ↔ t.val % 16 = 0 :=
  (by decide +kernel : ∀ t : Fin grid1.N, isFirst (grid1.coords t) ↔ t.val % 16 = 0)

/-- The head coordinate is 15: the output block is stored. -/
abbrev isLast (i : grid1.Coords) : Prop := k1_cond2 i = 1#1
theorem isLast_iff : ∀ t : Fin cfg1.N, isLast (grid1.coords t) ↔ t.val % 16 = 15 :=
  (by decide +kernel : ∀ t : Fin grid1.N, isLast (grid1.coords t) ↔ t.val % 16 = 15)

/-! ## Where the windows are idle -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
theorem live4 : ∀ t : Fin cfg1.N, cfg1.idle 4 (grid1.coords t) = false := by decide +kernel
theorem live5 : ∀ t : Fin cfg1.N, cfg1.idle 5 (grid1.coords t) = false := by decide +kernel
/-- Away from the last head nothing is stored into the output block, and it is not written back. -/
theorem out_idle : ∀ t : Fin cfg1.N, ¬isLast (grid1.coords t) → cfg1.idle 6 (grid1.coords t) = true := by decide +kernel
theorem out_kept : ∀ t : Fin cfg1.N, ¬isLast (grid1.coords t) → (cfg1.win 6).flush t = false := by decide +kernel
/-- At the last head the output block is stored. -/
theorem out_live : ∀ t : Fin cfg1.N, isLast (grid1.coords t) → cfg1.idle 6 (grid1.coords t) = false := by decide +kernel

/-! ## The buffers the body is called with -/

abbrev mQ (t : Fin cfg1.N) : Memref sig .tc .vmem S1x1x512x64 .bf16 := win1_0.stage (cfg1.slots t 0)
abbrev hQ (t : Fin cfg1.N) : (mQ t).IsWhole := hstage1_0 ((cfg1.slots t 0).cast nbuf1_0)
abbrev mK (t : Fin cfg1.N) : Memref sig .tc .vmem S1x1x2048x64 .bf16 := win1_1.stage (cfg1.slots t 1)
abbrev hK (t : Fin cfg1.N) : (mK t).IsWhole := hstage1_1 ((cfg1.slots t 1).cast nbuf1_1)
abbrev mV (t : Fin cfg1.N) : Memref sig .tc .vmem S1x1x2048x64 .bf16 := win1_2.stage (cfg1.slots t 2)
abbrev hV (t : Fin cfg1.N) : (mV t).IsWhole := hstage1_2 ((cfg1.slots t 2).cast nbuf1_2)
abbrev mM (t : Fin cfg1.N) : Memref sig .tc .vmem S1x512x64 .bf16 := win1_3.stage (cfg1.slots t 3)
abbrev hM (t : Fin cfg1.N) : (mM t).IsWhole := hstage1_3 ((cfg1.slots t 3).cast nbuf1_3)
abbrev mW (t : Fin cfg1.N) : Memref sig .tc .vmem S64x1024 .bf16 := win1_4.stage (cfg1.slots t 4)
abbrev hW (t : Fin cfg1.N) : (mW t).IsWhole := hstage1_4 ((cfg1.slots t 4).cast nbuf1_4)
abbrev mB (t : Fin cfg1.N) : Memref sig .tc .vmem S1x1024 .f32 := win1_5.stage (cfg1.slots t 5)
abbrev hB (t : Fin cfg1.N) : (mB t).IsWhole := hstage1_5 ((cfg1.slots t 5).cast nbuf1_5)
abbrev mO (t : Fin cfg1.N) : Memref sig .tc .vmem S1x512x1024 .f32 := win1_6.stage (cfg1.slots t 6)
abbrev hO (t : Fin cfg1.N) : (mO t).IsWhole := hstage1_6 ((cfg1.slots t 6).cast nbuf1_6)
/-- The accumulator: a whole scoped buffer of the kernel's own. -/
abbrev mAcc : Memref sig .tc .vmem S512x1024 .f32 := Memref.whole cc1_scratch0
/-- Views through which the accumulator's and the output block's contents are stated. -/
abbrev vAcc : View sig .tc .vmem S512x1024 .f32 := mAcc.view
abbrev vOut : View sig .tc .vmem S1x512x1024 .f32 := (Memref.whole cc1_stg6_0 : Memref sig .tc .vmem S1x512x1024 .f32).view

/-- The scoped buffers that are no staging buffer of this launch, with the accumulator at `S`, and the
    generator register at some state. -/
def accWith (c : Dev nD) (S : sProp 𝕄) : sProp 𝕄 :=
  iprop(iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ S) ∗ (∃ r, prngReg c r))

/-- What the launch hands the kernel besides its windows is `accWith` with the accumulator at anything. -/
theorem rest_eq (c : Dev nD) :
    (Pipeline.ΦA spec1 c : sProp 𝕄) = accWith c iprop(∃ d, owns (c : Thread nD τ) mAcc fullShare d) := by
  unfold Pipeline.ΦA accWith; rw [scopedRest1_eq]; simp only [mAcc, owns_whole]; try rfl

end Cert.KernelIdeal.Attn

end
-- ==== Proof.AttnRunFirstIdeal.lean ====
/-
  The attention kernel's body at one kind of grid point. At the first head: the accumulator, found at anything, is set to zero and the head's contribution added; the output block, handed in at `xo`, is given back untouched.
  The pieces the stores leave are read off the run itself.
-/
import proofs.«133163_j69827578298917_2_alg».proof.Proof.AttnBaseIdeal

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first head: the accumulator, found at anything, is set to zero and the head's contribution added; the output block, handed in at `xo`, is given back untouched. -/
noncomputable def runFirst (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x512x64 .bf16) (harg6 : arg6.IsWhole) (arg7 : Memref sig .tc .vmem S64x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hf : isFirst i) (hl : ¬isLast i)
    (x0 : Vec F S1x1x512x64 .bf16) (x1 : Vec F S1x1x2048x64 .bf16) (x2 : Vec F S1x1x2048x64 .bf16) (x3 : Vec F S1x512x64 .bf16) (x4 : Vec F S64x1024 .bf16) (x5 : Vec F S1x1024 .f32) :
    { LS : List (View.Piece (Elt F) S512x1024 .f32) //
      ∀ (xo : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xo ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xo ∗ (∃ f, arg10.view.loc (c : Thread nD τ) ↦[arg10.view.set]{fullShare} arg10.view.writes (Elt F) f LS)) -∗ K ⟨⟩))
          ⊢ wp frame (wpE (defs₀ (F := F)) Variants.none c none) E (cc1__fused_kernel i arg3 harg3 arg4 harg4 arg5 harg5 arg6 harg6 arg7 harg7 arg8 harg8 arg9 harg9 arg10 harg10) K } := by
  refine ⟨?_, fun xo E K => ?run⟩
  case run =>
    simp only [cc1__fused_kernel_eq_skeleton]; unfold cc1__fused_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS

end Cert.KernelIdeal.Attn

end
-- ==== Proof.AttnRunMidIdeal.lean ====
/-
  The attention kernel's body at one kind of grid point. At a middle head: the head's contribution is added to the accumulator found at `acc`; the output block, handed in at `xo`, is given back untouched.
  The pieces the stores leave are read off the run itself.
-/
import proofs.«133163_j69827578298917_2_alg».proof.Proof.AttnBaseIdeal

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a middle head: the head's contribution is added to the accumulator found at `acc`; the output block, handed in at `xo`, is given back untouched. -/
noncomputable def runMid (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x512x64 .bf16) (harg6 : arg6.IsWhole) (arg7 : Memref sig .tc .vmem S64x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hf : ¬isFirst i) (hl : ¬isLast i)
    (x0 : Vec F S1x1x512x64 .bf16) (x1 : Vec F S1x1x2048x64 .bf16) (x2 : Vec F S1x1x2048x64 .bf16) (x3 : Vec F S1x512x64 .bf16) (x4 : Vec F S64x1024 .bf16) (x5 : Vec F S1x1024 .f32) (acc : Vec F S512x1024 .f32) :
    { LS : List (View.Piece (Elt F) S512x1024 .f32) //
      ∀ (xo : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xo ∗ owns (c : Thread nD τ) arg10 fullShare acc
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xo ∗ (∃ f, arg10.view.loc (c : Thread nD τ) ↦[arg10.view.set]{fullShare} arg10.view.writes (Elt F) f LS)) -∗ K ⟨⟩))
          ⊢ wp frame (wpE (defs₀ (F := F)) Variants.none c none) E (cc1__fused_kernel i arg3 harg3 arg4 harg4 arg5 harg5 arg6 harg6 arg7 harg7 arg8 harg8 arg9 harg9 arg10 harg10) K } := by
  refine ⟨?_, fun xo E K => ?run⟩
  case run =>
    simp only [cc1__fused_kernel_eq_skeleton]; unfold cc1__fused_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS

end Cert.KernelIdeal.Attn

end
-- ==== Proof.AttnRunLastIdeal.lean ====
/-
  The attention kernel's body at one kind of grid point. At the last head: the head's contribution is added to the accumulator found at `acc`, and the sum plus the bias is stored into the output block (found at anything).
  The pieces the stores leave are read off the run itself.
-/
import proofs.«133163_j69827578298917_2_alg».proof.Proof.AttnBaseIdeal

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the last head: the head's contribution is added to the accumulator found at `acc`, and the sum plus the bias is stored into the output block (found at anything). -/
noncomputable def runLast (c : Dev nD) (i : grid1.Coords) (arg3 : Memref sig .tc .vmem S1x1x512x64 .bf16) (harg3 : arg3.IsWhole) (arg4 : Memref sig .tc .vmem S1x1x2048x64 .bf16) (harg4 : arg4.IsWhole) (arg5 : Memref sig .tc .vmem S1x1x2048x64 .bf16) (harg5 : arg5.IsWhole) (arg6 : Memref sig .tc .vmem S1x512x64 .bf16) (harg6 : arg6.IsWhole) (arg7 : Memref sig .tc .vmem S64x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (hf : ¬isFirst i) (hl : isLast i)
    (x0 : Vec F S1x1x512x64 .bf16) (x1 : Vec F S1x1x2048x64 .bf16) (x2 : Vec F S1x1x2048x64 .bf16) (x3 : Vec F S1x512x64 .bf16) (x4 : Vec F S64x1024 .bf16) (x5 : Vec F S1x1024 .f32) (acc : Vec F S512x1024 .f32) :
    Σ' (LO : List (View.Piece (Elt F) S1x512x1024 .f32)), { LS : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare acc
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f LO) ∗ (∃ f, arg10.view.loc (c : Thread nD τ) ↦[arg10.view.set]{fullShare} arg10.view.writes (Elt F) f LS)) -∗ K ⟨⟩))
          ⊢ wp frame (wpE (defs₀ (F := F)) Variants.none c none) E (cc1__fused_kernel i arg3 harg3 arg4 harg4 arg5 harg5 arg6 harg6 arg7 harg7 arg8 harg8 arg9 harg9 arg10 harg10) K } := by
  refine ⟨?_, ?_, fun E K => ?run⟩
  case run =>
    simp only [cc1__fused_kernel_eq_skeleton]; unfold cc1__fused_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hfs
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS

end Cert.KernelIdeal.Attn

end
-- ==== Proof.AttnIdeal.lean ====
/-
  The attention kernel (the second launch): what the accumulator and the output block hold after every
  grid point, and the body obligation. Writing h for the head coordinate of point t (h = t mod 16):
  after a point with h = 0 the accumulator holds zero plus the head's contribution; after any other point
  it holds what the point before left plus the head's contribution; and after a point with h = 15 the
  output block holds that sum plus the bias. The accumulator's contents after point n are defined by
  recursion on n, and the invariant between points n and n + 1 says the scratch buffer holds exactly
  that; before the first point it holds anything.
-/
import proofs.«133163_j69827578298917_2_alg».proof.Proof.AttnRunFirstIdeal
import proofs.«133163_j69827578298917_2_alg».proof.Proof.AttnRunMidIdeal
import proofs.«133163_j69827578298917_2_alg».proof.Proof.AttnRunLastIdeal

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

/-- At a first head the stores into the accumulator cover it. -/
theorem first_cover (c : Dev nD) (t : Fin cfg1.N) (hf : isFirst (grid1.coords t)) (hl : ¬isLast (grid1.coords t)) (x0 : Vec F S1x1x512x64 .bf16) (x1 : Vec F S1x1x2048x64 .bf16) (x2 : Vec F S1x1x2048x64 .bf16) (x3 : Vec F S1x512x64 .bf16) (x4 : Vec F S64x1024 .bf16) (x5 : Vec F S1x1024 .f32) (y : S512x1024.Idx) :
    ∃ pc ∈ (runFirst c (grid1.coords t) (mQ t) (hQ t) (mK t) (hK t) (mV t) (hV t) (mM t) (hM t) (mW t) (hW t) (mB t) (hB t) (mO t) (hO t) mAcc (Memref.isWhole_whole _) hf hl x0 x1 x2 x3 x4 x5).1, y ∈ pc.1.set :=
  View.cover_of_tiledL (runFirst c (grid1.coords t) (mQ t) (hQ t) (mK t) (hK t) (mV t) (hV t) (mM t) (hM t) (mW t) (hW t) (mB t) (hB t) (mO t) (hO t) mAcc (Memref.isWhole_whole _) hf hl x0 x1 x2 x3 x4 x5).1 S512x1024.size (by sl_kernel_rfl) y

/-- The accumulator after a first head. -/
def accFirst (c : Dev nD) (t : Fin cfg1.N) (hf : isFirst (grid1.coords t)) (hl : ¬isLast (grid1.coords t)) (x0 : Vec F S1x1x512x64 .bf16) (x1 : Vec F S1x1x2048x64 .bf16) (x2 : Vec F S1x1x2048x64 .bf16) (x3 : Vec F S1x512x64 .bf16) (x4 : Vec F S64x1024 .bf16) (x5 : Vec F S1x1024 .f32) : Vec F S512x1024 .f32 :=
  vAcc.read (Elt F) (vAcc.writes (Elt F) vAcc.junk (runFirst c (grid1.coords t) (mQ t) (hQ t) (mK t) (hK t) (mV t) (hV t) (mM t) (hM t) (mW t) (hW t) (mB t) (hB t) (mO t) (hO t) mAcc (Memref.isWhole_whole _) hf hl x0 x1 x2 x3 x4 x5).1)

/-- At a middle head the store into the accumulator covers it. -/
theorem mid_cover (c : Dev nD) (t : Fin cfg1.N) (hf : ¬isFirst (grid1.coords t)) (hl : ¬isLast (grid1.coords t)) (x0 : Vec F S1x1x512x64 .bf16) (x1 : Vec F S1x1x2048x64 .bf16) (x2 : Vec F S1x1x2048x64 .bf16) (x3 : Vec F S1x512x64 .bf16) (x4 : Vec F S64x1024 .bf16) (x5 : Vec F S1x1024 .f32) (acc : Vec F S512x1024 .f32) (y : S512x1024.Idx) :
    ∃ pc ∈ (runMid c (grid1.coords t) (mQ t) (hQ t) (mK t) (hK t) (mV t) (hV t) (mM t) (hM t) (mW t) (hW t) (mB t) (hB t) (mO t) (hO t) mAcc (Memref.isWhole_whole _) hf hl x0 x1 x2 x3 x4 x5 acc).1, y ∈ pc.1.set :=
  View.cover_of_tiledL (runMid c (grid1.coords t) (mQ t) (hQ t) (mK t) (hK t) (mV t) (hV t) (mM t) (hM t) (mW t) (hW t) (mB t) (hB t) (mO t) (hO t) mAcc (Memref.isWhole_whole _) hf hl x0 x1 x2 x3 x4 x5 acc).1 S512x1024.size (by sl_kernel_rfl) y

/-- The accumulator after a middle head, from what the point before left. -/
def accMid (c : Dev nD) (t : Fin cfg1.N) (hf : ¬isFirst (grid1.coords t)) (hl : ¬isLast (grid1.coords t)) (x0 : Vec F S1x1x512x64 .bf16) (x1 : Vec F S1x1x2048x64 .bf16) (x2 : Vec F S1x1x2048x64 .bf16) (x3 : Vec F S1x512x64 .bf16) (x4 : Vec F S64x1024 .bf16) (x5 : Vec F S1x1024 .f32) (acc : Vec F S512x1024 .f32) : Vec F S512x1024 .f32 :=
  vAcc.read (Elt F) (vAcc.writes (Elt F) vAcc.junk (runMid c (grid1.coords t) (mQ t) (hQ t) (mK t) (hK t) (mV t) (hV t) (mM t) (hM t) (mW t) (hW t) (mB t) (hB t) (mO t) (hO t) mAcc (Memref.isWhole_whole _) hf hl x0 x1 x2 x3 x4 x5 acc).1)

/-- At a last head the store into the accumulator covers it, -/
theorem last_cover (c : Dev nD) (t : Fin cfg1.N) (hf : ¬isFirst (grid1.coords t)) (hl : isLast (grid1.coords t)) (x0 : Vec F S1x1x512x64 .bf16) (x1 : Vec F S1x1x2048x64 .bf16) (x2 : Vec F S1x1x2048x64 .bf16) (x3 : Vec F S1x512x64 .bf16) (x4 : Vec F S64x1024 .bf16) (x5 : Vec F S1x1024 .f32) (acc : Vec F S512x1024 .f32) (y : S512x1024.Idx) :
    ∃ pc ∈ (runLast c (grid1.coords t) (mQ t) (hQ t) (mK t) (hK t) (mV t) (hV t) (mM t) (hM t) (mW t) (hW t) (mB t) (hB t) (mO t) (hO t) mAcc (Memref.isWhole_whole _) hf hl x0 x1 x2 x3 x4 x5 acc).2.1, y ∈ pc.1.set :=
  View.cover_of_tiledL (runLast c (grid1.coords t) (mQ t) (hQ t) (mK t) (hK t) (mV t) (hV t) (mM t) (hM t) (mW t) (hW t) (mB t) (hB t) (mO t) (hO t) mAcc (Memref.isWhole_whole _) hf hl x0 x1 x2 x3 x4 x5 acc).2.1 S512x1024.size (by sl_kernel_rfl) y

/-- and the store into the output block covers it. -/
theorem out_cover (c : Dev nD) (t : Fin cfg1.N) (hf : ¬isFirst (grid1.coords t)) (hl : isLast (grid1.coords t)) (x0 : Vec F S1x1x512x64 .bf16) (x1 : Vec F S1x1x2048x64 .bf16) (x2 : Vec F S1x1x2048x64 .bf16) (x3 : Vec F S1x512x64 .bf16) (x4 : Vec F S64x1024 .bf16) (x5 : Vec F S1x1024 .f32) (acc : Vec F S512x1024 .f32) (y : S1x512x1024.Idx) :
    ∃ pc ∈ (runLast c (grid1.coords t) (mQ t) (hQ t) (mK t) (hK t) (mV t) (hV t) (mM t) (hM t) (mW t) (hW t) (mB t) (hB t) (mO t) (hO t) mAcc (Memref.isWhole_whole _) hf hl x0 x1 x2 x3 x4 x5 acc).1, y ∈ pc.1.set :=
  View.cover_of_tiledL (runLast c (grid1.coords t) (mQ t) (hQ t) (mK t) (hK t) (mV t) (hV t) (mM t) (hM t) (mW t) (hW t) (mB t) (hB t) (mO t) (hO t) mAcc (Memref.isWhole_whole _) hf hl x0 x1 x2 x3 x4 x5 acc).1 S1x512x1024.size (by sl_kernel_rfl) y

/-- The accumulator after a last head, -/
def accLast (c : Dev nD) (t : Fin cfg1.N) (hf : ¬isFirst (grid1.coords t)) (hl : isLast (grid1.coords t)) (x0 : Vec F S1x1x512x64 .bf16) (x1 : Vec F S1x1x2048x64 .bf16) (x2 : Vec F S1x1x2048x64 .bf16) (x3 : Vec F S1x512x64 .bf16) (x4 : Vec F S64x1024 .bf16) (x5 : Vec F S1x1024 .f32) (acc : Vec F S512x1024 .f32) : Vec F S512x1024 .f32 :=
  vAcc.read (Elt F) (vAcc.writes (Elt F) vAcc.junk (runLast c (grid1.coords t) (mQ t) (hQ t) (mK t) (hK t) (mV t) (hV t) (mM t) (hM t) (mW t) (hW t) (mB t) (hB t) (mO t) (hO t) mAcc (Memref.isWhole_whole _) hf hl x0 x1 x2 x3 x4 x5 acc).2.1)

/-- and the output block. -/
def outLast (c : Dev nD) (t : Fin cfg1.N) (hf : ¬isFirst (grid1.coords t)) (hl : isLast (grid1.coords t)) (x0 : Vec F S1x1x512x64 .bf16) (x1 : Vec F S1x1x2048x64 .bf16) (x2 : Vec F S1x1x2048x64 .bf16) (x3 : Vec F S1x512x64 .bf16) (x4 : Vec F S64x1024 .bf16) (x5 : Vec F S1x1024 .f32) (acc : Vec F S512x1024 .f32) : Vec F S1x512x1024 .f32 :=
  vOut.read (Elt F) (vOut.writes (Elt F) vOut.junk (runLast c (grid1.coords t) (mQ t) (hQ t) (mK t) (hK t) (mV t) (hV t) (mM t) (hM t) (mW t) (hW t) (mB t) (hB t) (mO t) (hO t) mAcc (Memref.isWhole_whole _) hf hl x0 x1 x2 x3 x4 x5 acc).1)

/-- Away from a last head nothing is stored into the output block: a placeholder nothing consults. -/
def outNone : Vec F S1x512x1024 .f32 := vOut.read (Elt F) vOut.junk

/-! ## The accumulation over the grid -/

/-- What the output block's buffer and the accumulator hold after the body at position `n`. -/
def stateAt (c : Dev nD) : (n : ℕ) → n < cfg1.N → Vec F S1x512x1024 .f32 × Vec F S512x1024 .f32
  | 0, hn => (outNone, accFirst c ⟨0, hn⟩ ((isFirst_iff ⟨0, hn⟩).mpr (Nat.zero_mod _)) (fun h => (fun h => by (try dsimp only at h); omega) ((isLast_iff ⟨0, hn⟩).mp h)) (blk V c 0 ⟨0, hn⟩) (blk V c 1 ⟨0, hn⟩) (blk V c 2 ⟨0, hn⟩) (blk V c 3 ⟨0, hn⟩) (blk V c 4 ⟨0, hn⟩) (blk V c 5 ⟨0, hn⟩))
  | n + 1, hn =>
    if h0 : (n + 1) % 16 = 0 then
      if h1 : (n + 1) % 16 = 15 then
        False.elim (by omega)
      else
        (outNone, accFirst c ⟨n + 1, hn⟩ ((isFirst_iff ⟨n + 1, hn⟩).mpr h0) (fun h => h1 ((isLast_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩))
    else
      if h1 : (n + 1) % 16 = 15 then
        (outLast c ⟨n + 1, hn⟩ (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (stateAt c n (Nat.lt_of_succ_lt hn)).2,
         accLast c ⟨n + 1, hn⟩ (fun h => h0 ((isFirst_iff ⟨n + 1, hn⟩).mp h)) ((isLast_iff ⟨n + 1, hn⟩).mpr h1) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (stateAt c n (Nat.lt_of_succ_lt hn)).2)
      else
        (outNone, accMid c ⟨n + 1, hn⟩ (fun h => h0 ((isFirst_iff ⟨n + 1, hn⟩).mp h)) (fun h => h1 ((isLast_iff ⟨n + 1, hn⟩).mp h)) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (stateAt c n (Nat.lt_of_succ_lt hn)).2)

theorem stateAt_first (c : Dev nD) (t : Fin cfg1.N) (h0 : t.val % 16 = 0) (h1 : ¬t.val % 16 = 15) :
    stateAt V c t.val t.isLt = (outNone, accFirst c t ((isFirst_iff t).mpr h0) (fun h => h1 ((isLast_iff t).mp h)) (blk V c 0 t) (blk V c 1 t) (blk V c 2 t) (blk V c 3 t) (blk V c 4 t) (blk V c 5 t)) := by
  obtain ⟨n, hn⟩ := t
  cases n with
  | zero => exact rfl
  | succ n => exact (dif_pos h0).trans ((dif_neg h1).trans rfl)

theorem stateAt_mid (c : Dev nD) (t : Fin cfg1.N) (h0 : ¬t.val % 16 = 0) (h1 : ¬t.val % 16 = 15) :
    stateAt V c t.val t.isLt = (outNone, accMid c t (fun h => h0 ((isFirst_iff t).mp h)) (fun h => h1 ((isLast_iff t).mp h)) (blk V c 0 t) (blk V c 1 t) (blk V c 2 t) (blk V c 3 t) (blk V c 4 t) (blk V c 5 t) (stateAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem stateAt_last (c : Dev nD) (t : Fin cfg1.N) (h0 : ¬t.val % 16 = 0) (h1 : t.val % 16 = 15) :
    stateAt V c t.val t.isLt = (outLast c t (fun h => h0 ((isFirst_iff t).mp h)) ((isLast_iff t).mpr h1) (blk V c 0 t) (blk V c 1 t) (blk V c 2 t) (blk V c 3 t) (blk V c 4 t) (blk V c 5 t) (stateAt V c (t.val - 1) (Nat.lt_of_le_of_lt (Nat.sub_le _ _) t.isLt)).2,
      accLast c t (fun h => h0 ((isFirst_iff t).mp h)) ((isLast_iff t).mpr h1) (blk V c 0 t) (blk V c 1 t) (blk V c 2 t) (blk V c 3 t) (blk V c 4 t) (blk V c 5 t) (stateAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point what the launch hands over (the accumulator at
    anything); afterwards the accumulator at what the point before left in it. -/
def inv (c : Dev nD) : (n : ℕ) → n ≤ cfg1.N → sProp 𝕄
  | 0, _ => Pipeline.ΦA spec1 c
  | n + 1, hn => accWith c (owns (c : Thread nD τ) mAcc fullShare (stateAt V c n hn).2)

theorem inv_zero (c : Dev nD) (n : ℕ) (h : n ≤ cfg1.N) (hz : n = 0) : inv V c n h = Pipeline.ΦA spec1 c := by
  subst hz; rfl

theorem inv_succ (c : Dev nD) (n : ℕ) (hn : n < cfg1.N) :
    inv V c (n + 1) hn = accWith c (owns (c : Thread nD τ) mAcc fullShare (stateAt V c n hn).2) := rfl

theorem inv_pos (c : Dev nD) (n : ℕ) (h : n ≤ cfg1.N) (hz : n ≠ 0) :
    inv V c n h = accWith c (owns (c : Thread nD τ) mAcc fullShare (stateAt V c (n - 1) (by omega)).2) := by
  cases n with
  | zero => exact absurd rfl hz
  | succ n => rfl

/-! ## The proof data -/

/-- The proof data of the second launch on core `c`: the arrays as the launch finds them; after the body at
    point `t` each input buffer at its block and the output buffer at `stateAt`'s first component; the
    invariant `inv`; nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => (stateAt V c t.val t.isLt).1
  Φ t := inv V c t.val (Nat.le_of_lt_succ t.isLt)
  q _ := fullShare
  owed _ := 0

theorem dat_A (c : Dev nD) (w : Fin cfg1.W) : (dat V c).A w = V c (Pipeline.arrRef spec1 w) := by
  dsimp only [dat]

theorem inv_castSucc (c : Dev nD) (t : Fin cfg1.N) :
    (dat V c).Φ t.castSucc = inv V c t.val (Nat.le_of_lt t.isLt) := by
  dsimp only [dat]; simp only [Fin.coe_castSucc]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) : (dat V c).after 5 t = blk V c 5 t := by dsimp only [dat]
theorem after_6 (c : Dev nD) (t : Fin cfg1.N) : (dat V c).after 6 t = (stateAt V c t.val t.isLt).1 := by dsimp only [dat]

theorem before_0 (c : Dev nD) (t : Fin cfg1.N) (d) : (dat V c).before 0 t d = blk V c 0 t := q_held V (dat V c) (dat_A V c 0) (after_0 V c) t d
theorem before_1 (c : Dev nD) (t : Fin cfg1.N) (d) : (dat V c).before 1 t d = blk V c 1 t := k_held V (dat V c) (dat_A V c 1) (after_1 V c) t d
theorem before_2 (c : Dev nD) (t : Fin cfg1.N) (d) : (dat V c).before 2 t d = blk V c 2 t := v_held V (dat V c) (dat_A V c 2) (after_2 V c) t d
theorem before_3 (c : Dev nD) (t : Fin cfg1.N) (d) : (dat V c).before 3 t d = blk V c 3 t := mem_held V (dat V c) (dat_A V c 3) (after_3 V c) t d
theorem before_4 (c : Dev nD) (t : Fin cfg1.N) (d) : (dat V c).before 4 t d = blk V c 4 t := w_held V (dat V c) (dat_A V c 4) (after_4 V c) t d
theorem before_5 (c : Dev nD) (t : Fin cfg1.N) (d) : (dat V c).before 5 t d = blk V c 5 t := bias_held V (dat V c) (dat_A V c 5) (after_5 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (mQ t) fullShare ((dat V c).before 0 t d))
    ∗ (∃ d, owns (c : Thread nD τ) (mK t) fullShare ((dat V c).before 1 t d))
    ∗ (∃ d, owns (c : Thread nD τ) (mV t) fullShare ((dat V c).before 2 t d))
    ∗ (∃ d, owns (c : Thread nD τ) (mM t) fullShare ((dat V c).before 3 t d))
    ∗ (∃ d, owns (c : Thread nD τ) (mW t) fullShare ((dat V c).before 4 t d))
    ∗ (∃ d, owns (c : Thread nD τ) (mB t) fullShare ((dat V c).before 5 t d))
    ∗ (∃ d, owns (c : Thread nD τ) (mO t) fullShare ((dat V c).before 6 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t ∗ (dat V c).leavesExact 5 t ∗ (dat V c).leavesExact 6 t)

set_option maxHeartbeats 4800000 in
/-- The body at any point: the inputs' buffers hold their blocks; the point number mod 16 says which kind of
    point it is; the invariant hands the body the accumulator at what the point before left (at anything
    before the first point) and takes it back at this point's contents. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).owesAt () t.succ = (dat V c).owesAt () t.castSucc from rfl]
  rw [show (dat V c).Φ t.succ = inv V c (t.val + 1) t.isLt from rfl, inv_succ]
  have hN : t.val < 128 := lt_of_lt_of_eq t.isLt (show cfg1.N = 128 from N_1)
  rw [show (dat V c).leavesExact 0 t = owns (c : Thread nD τ) ((cfg1.win 0).stage (cfg1.slots t 0)) fullShare ((dat V c).after 0 t) from by
    unfold Dat.leavesExact; rw [live0 t], after_0]
  rw [show (dat V c).leavesExact 1 t = owns (c : Thread nD τ) ((cfg1.win 1).stage (cfg1.slots t 1)) fullShare ((dat V c).after 1 t) from by
    unfold Dat.leavesExact; rw [live1 t], after_1]
  rw [show (dat V c).leavesExact 2 t = owns (c : Thread nD τ) ((cfg1.win 2).stage (cfg1.slots t 2)) fullShare ((dat V c).after 2 t) from by
    unfold Dat.leavesExact; rw [live2 t], after_2]
  rw [show (dat V c).leavesExact 3 t = owns (c : Thread nD τ) ((cfg1.win 3).stage (cfg1.slots t 3)) fullShare ((dat V c).after 3 t) from by
    unfold Dat.leavesExact; rw [live3 t], after_3]
  rw [show (dat V c).leavesExact 4 t = owns (c : Thread nD τ) ((cfg1.win 4).stage (cfg1.slots t 4)) fullShare ((dat V c).after 4 t) from by
    unfold Dat.leavesExact; rw [live4 t], after_4]
  rw [show (dat V c).leavesExact 5 t = owns (c : Thread nD τ) ((cfg1.win 5).stage (cfg1.slots t 5)) fullShare ((dat V c).after 5 t) from by
    unfold Dat.leavesExact; rw [live5 t], after_5]
  by_cases h0 : t.val % 16 = 0
  · have h1 : ¬t.val % 16 = 15 := by omega
    rw [Dat.leavesExact_idle (dat V c) 6 t (out_idle t (fun h => h1 ((isLast_iff t).mp h))) (out_kept t (fun h => h1 ((isLast_iff t).mp h)))]
    rw [stateAt_first V c t h0 h1]
    unfold accFirst accWith; (try dsimp only)
    by_cases hz : t.val = 0
    · rw [inv_castSucc V c t, inv_zero V c _ _ hz, rest_eq]; unfold accWith
      iintro ⟨⟨⟨A1, A2, A3, A4, A5, A6, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid1.coords t) (mQ t) (hQ t) (mK t) (hK t) (mV t) (hV t) (mM t) (hM t) (mW t) (hW t) (mB t) (hB t) (mO t) (hO t) mAcc (Memref.isWhole_whole _) ((isFirst_iff t).mpr h0) (fun h => h1 ((isLast_iff t).mp h)) (blk V c 0 t) (blk V c 1 t) (blk V c 2 t) (blk V c 3 t) (blk V c 4 t) (blk V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [A1 A2 A3 A4 A5 A6 HS Hg]
      · isplitl [A1 A2 A3 A4 A5 A6 HS]
        · isplitl [A1]; · iexact A1
          isplitl [A2]; · iexact A2
          isplitl [A3]; · iexact A3
          isplitl [A4]; · iexact A4
          isplitl [A5]; · iexact A5
          isplitl [A6]; · iexact A6
          unfold owns; iexists _; isplitr
          swap; · iexact HS
          ipureintro; exact View.read_writes_of_cover _ _ _ _ _ (first_cover c t _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [inv_castSucc V c t, inv_pos V c _ _ hz]; unfold accWith
      iintro ⟨⟨⟨A1, A2, A3, A4, A5, A6, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runFirst c (grid1.coords t) (mQ t) (hQ t) (mK t) (hK t) (mV t) (hV t) (mM t) (hM t) (mW t) (hW t) (mB t) (hB t) (mO t) (hO t) mAcc (Memref.isWhole_whole _) ((isFirst_iff t).mpr h0) (fun h => h1 ((isLast_iff t).mp h)) (blk V c 0 t) (blk V c 1 t) (blk V c 2 t) (blk V c 3 t) (blk V c 4 t) (blk V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, ⟨%es, HS⟩⟩
      isplitl [A1 A2 A3 A4 A5 A6 HS Hg]
      · isplitl [A1 A2 A3 A4 A5 A6 HS]
        · isplitl [A1]; · iexact A1
          isplitl [A2]; · iexact A2
          isplitl [A3]; · iexact A3
          isplitl [A4]; · iexact A4
          isplitl [A5]; · iexact A5
          isplitl [A6]; · iexact A6
          unfold owns; iexists _; isplitr
          swap; · iexact HS
          ipureintro; exact View.read_writes_of_cover _ _ _ _ _ (first_cover c t _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : t.val % 16 = 15
    · rw [show (dat V c).leavesExact 6 t = owns (c : Thread nD τ) ((cfg1.win 6).stage (cfg1.slots t 6)) fullShare ((dat V c).after 6 t) from by
        unfold Dat.leavesExact; rw [out_live t ((isLast_iff t).mpr h1)], after_6]
      rw [stateAt_last V c t h0 h1]
      unfold accLast outLast accWith; (try dsimp only)
      rw [inv_castSucc V c t, inv_pos V c _ _ hz]; unfold accWith
      iintro ⟨⟨⟨A1, A2, A3, A4, A5, A6, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runLast c (grid1.coords t) (mQ t) (hQ t) (mK t) (hK t) (mV t) (hV t) (mM t) (hM t) (mW t) (hW t) (mB t) (hB t) (mO t) (hO t) mAcc (Memref.isWhole_whole _) (fun h => h0 ((isFirst_iff t).mp h)) ((isLast_iff t).mpr h1) (blk V c 0 t) (blk V c 1 t) (blk V c 2 t) (blk V c 3 t) (blk V c 4 t) (blk V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%eo, H6⟩, ⟨%es, HS⟩⟩
      isplitl [A1 A2 A3 A4 A5 A6 HS Hg]
      · isplitl [A1 A2 A3 A4 A5 A6 HS]
        · isplitl [A1]; · iexact A1
          isplitl [A2]; · iexact A2
          isplitl [A3]; · iexact A3
          isplitl [A4]; · iexact A4
          isplitl [A5]; · iexact A5
          isplitl [A6]; · iexact A6
          unfold owns; iexists _; isplitr
          swap; · iexact HS
          ipureintro; exact View.read_writes_of_cover _ _ _ _ _ (last_cover c t _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (out_cover c t _ _ _ _ _ _ _ _ _)
    · rw [Dat.leavesExact_idle (dat V c) 6 t (out_idle t (fun h => h1 ((isLast_iff t).mp h))) (out_kept t (fun h => h1 ((isLast_iff t).mp h)))]
      rw [stateAt_mid V c t h0 h1]
      unfold accMid accWith; (try dsimp only)
      rw [inv_castSucc V c t, inv_pos V c _ _ hz]; unfold accWith
      iintro ⟨⟨⟨A1, A2, A3, A4, A5, A6, HS⟩, Hg⟩, Ho, ⟨%d0, H0⟩, ⟨%d1, H1⟩, ⟨%d2, H2⟩, ⟨%d3, H3⟩, ⟨%d4, H4⟩, ⟨%d5, H5⟩, ⟨%d6, H6⟩⟩
      iapply ((runMid c (grid1.coords t) (mQ t) (hQ t) (mK t) (hK t) (mV t) (hV t) (mM t) (hM t) (mW t) (hW t) (mB t) (hB t) (mO t) (hO t) mAcc (Memref.isWhole_whole _) (fun h => h0 ((isFirst_iff t).mp h)) (fun h => h1 ((isLast_iff t).mp h)) (blk V c 0 t) (blk V c 1 t) (blk V c 2 t) (blk V c 3 t) (blk V c 4 t) (blk V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [A1 A2 A3 A4 A5 A6 HS Hg]
      · isplitl [A1 A2 A3 A4 A5 A6 HS]
        · isplitl [A1]; · iexact A1
          isplitl [A2]; · iexact A2
          isplitl [A3]; · iexact A3
          isplitl [A4]; · iexact A4
          isplitl [A5]; · iexact A5
          isplitl [A6]; · iexact A6
          unfold owns; iexists _; isplitr
          swap; · iexact HS
          ipureintro; exact View.read_writes_of_cover _ _ _ _ _ (mid_cover c t _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body obligation of the second launch, at every point. -/
theorem obligation (c : Dev nD) : BodyObligation (dat (F := F) V c) (defs₀ (F := F)) Variants.none () Set.univ := fun t => by
  rw [bigSep_W1, bigSep_W1]
  exact body_at V c t

/-- What the launch hands over is the invariant before the first point. -/
theorem inv_in (c : Dev nD) : Pipeline.ΦA spec1 c ⊢ (dat V c).Φ 0 := by
  rw [show (dat V c).Φ 0 = inv V c 0 (Nat.zero_le _) from rfl, inv_zero V c 0 _ rfl]
  try exact Idealize.SL.BI.Entails.refl _

/-- After the last point the invariant gives back what the launch handed over: the accumulator's contents
    are forgotten. -/
theorem inv_out (c : Dev nD) : (dat V c).Φ (Fin.last cfg1.N) ⊢ Pipeline.ΦA spec1 c := by
  have ht : (Fin.last cfg1.N).val ≠ 0 := by rw [Fin.val_last]; have : cfg1.N = 128 := N_1; omega
  rw [show (dat V c).Φ (Fin.last cfg1.N) = inv V c (Fin.last cfg1.N).val (Nat.le_of_lt_succ (Fin.last cfg1.N).isLt) from rfl,
    inv_pos V c _ _ ht, rest_eq]
  unfold accWith
  iintro ⟨⟨A1, A2, A3, A4, A5, A6, HS⟩, Hg⟩
  isplitl [A1 A2 A3 A4 A5 A6 HS]
  · isplitl [A1]; · iexact A1
    isplitl [A2]; · iexact A2
    isplitl [A3]; · iexact A3
    isplitl [A4]; · iexact A4
    isplitl [A5]; · iexact A5
    isplitl [A6]; · iexact A6
    iexists _; iexact HS
  iexact Hg

end Cert.KernelIdeal.Attn

end
-- ==== Proof.WholeIdeal.lean ====
/-
  The whole program: five host operations (two transposes, a format change, two reshapes), the projection
  launch, thirteen host operations (a reshape, three slices, reshapes and transposes into per-head layout, a
  format change), the attention launch. The contents of every unscoped buffer are followed through the four
  stretches: after a stretch of host operations each written buffer holds its operation's result; after a
  launch each of its windows' arrays holds what the write-backs of the launch leave, and every other buffer
  what it held. No stretch writes an argument. The run of the program from any memory with every semaphore at
  zero terminates without a fault, and every unscoped buffer ends at the last valuation.
-/
import proofs.«133163_j69827578298917_2_alg».proof.Proof.ProjectionIdeal
import proofs.«133163_j69827578298917_2_alg».proof.Proof.AttnIdeal
import proofs.«133163_j69827578298917_2_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first five host operations (what the projection launch finds). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the projection launch: its arrays at what its write-backs leave, every other buffer as before. -/
def W2 (c : Dev nD) : Valuation τ sig (Elt F) :=
  Pipeline.withArrays spec0 c (W1 m c) fun w => (Proj.dat (V1 m) c).arrAt w cfg0.N
theorem W2_arr (c : Dev nD) (w : Fin cfg0.W) :
    W2 m c (Proc.devRef .tc (Pipeline.arrRef spec0 w)) = (Proj.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem arrs0 (c : Dev nD) (w : Fin cfg0.W) : (Proj.dat (V1 m) c).arrAt w cfg0.N = V2 m c (Pipeline.arrRef spec0 w) :=
  (W2_arr m c w).symm
theorem rest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the thirteen host operations (what the attention launch finds). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the attention launch. -/
def W4 (c : Dev nD) : Valuation τ sig (Elt F) :=
  Pipeline.withArrays spec1 c (W3 m c) fun w => (Attn.dat (V3 m) c).arrAt w cfg1.N
theorem W4_arr (c : Dev nD) (w : Fin cfg1.W) :
    W4 m c (Proc.devRef .tc (Pipeline.arrRef spec1 w)) = (Attn.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem arrs1 (c : Dev nD) (w : Fin cfg1.W) : (Attn.dat (V3 m) c).arrAt w cfg1.N = V4 m c (Pipeline.arrRef spec1 w) :=
  (W4_arr m c w).symm
theorem rest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- A buffer that is no window's array of either launch and that no host operation writes ends as launched. -/
theorem end_of_untouched (c : Dev nD) (r : Ref sig .tc) (h1 : ∀ w, Pipeline.arrRef spec1 w ≠ r) (h2 : r ∉ hostOps1_W)
    (h3 : ∀ w, Pipeline.arrRef spec0 w ≠ r) (h4 : r ∉ hostOps0_W) :
    W4 m c (Proc.devRef .tc r) = m ((c : Thread nD τ).loc r) :=
  calc W4 m c (Proc.devRef .tc r)
    _ = W3 m c (Proc.devRef .tc r) := W4_of_ne m c r h1
    _ = W2 m c (Proc.devRef .tc r) := StableHlo.after_of_writes_sub hostOps1 _ hostOps1_writes h2
    _ = W1 m c (Proc.devRef .tc r) := W2_of_ne m c r h3
    _ = W0 m c (Proc.devRef .tc r) := StableHlo.after_of_writes_sub hostOps0 _ hostOps0_writes h4
    _ = m ((c : Thread nD τ).loc r) := rfl

theorem end_arg0 (c : Dev nD) : W4 m c (Proc.devRef .tc main_arg0) = m ((c : Thread nD τ).loc main_arg0) :=
  end_of_untouched m c main_arg0 (by decide) (by decide) (by decide) (by decide)
theorem end_arg1 (c : Dev nD) : W4 m c (Proc.devRef .tc main_arg1) = m ((c : Thread nD τ).loc main_arg1) :=
  end_of_untouched m c main_arg1 (by decide) (by decide) (by decide) (by decide)
theorem end_arg2 (c : Dev nD) : W4 m c (Proc.devRef .tc main_arg2) = m ((c : Thread nD τ).loc main_arg2) :=
  end_of_untouched m c main_arg2 (by decide) (by decide) (by decide) (by decide)
theorem end_arg3 (c : Dev nD) : W4 m c (Proc.devRef .tc main_arg3) = m ((c : Thread nD τ).loc main_arg3) :=
  end_of_untouched m c main_arg3 (by decide) (by decide) (by decide) (by decide)
theorem end_arg4 (c : Dev nD) : W4 m c (Proc.devRef .tc main_arg4) = m ((c : Thread nD τ).loc main_arg4) :=
  end_of_untouched m c main_arg4 (by decide) (by decide) (by decide) (by decide)

/-! ## The proof data family and the thread state -/

abbrev adm : (p : Fin 2) → (pcfgs (F := F) p).Adm := fun p => (cfgs p).toPCfg_adm
/-- Both launches' proof data, each at the valuation its launch finds. -/
def pdats (ρ : Dev nD → PrngReg) : (p : Fin 2) → (c : Dev nD) → Dat τ (Elt F) Unit ℕ (UR sig nD τ) ℕ (Pipeline.pin (pcfgs (F := F)) adm p) c
  | ⟨0, _⟩ => fun c => Proj.dat (V1 m) c
  | ⟨1, _⟩ => fun c => Attn.dat (V3 m) c
abbrev 𝒱₀ : Variants := Variants.none
abbrev L : GSem nD τ sig → Finset Unit := fun _ => ∅
abbrev lv : GSem nD τ sig → Unit → ℕ := fun _ _ => 0
/-- What rides beside the buffers through every stretch: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last valuation. -/
abbrev Tₙ (c : Dev nD) : sProp 𝕄 := iprop(StableHlo.held (c : Thread nD τ) (Pipeline.ucRefs τ sig) (W4 m c) ∗ ∃ r, prngReg c r)

/-! ## The launches as segments -/

set_option backward.isDefEq.respectTransparency.types false in
/-- Launch 0 over the thread state: entered from every unscoped buffer at the valuation before it, left at the
    valuation after it. Its windows' arrays are split out of the unscoped buffers and put back at their final
    contents; the generator register passes through; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m c) (V2 m c) ((pdats m ρ 0 c).arrAt · cfg0.N) (arrs0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at the valuation before it, left at the
    valuation after it. Its windows' arrays are split out of the unscoped buffers and put back at their final
    contents; the generator register passes through; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Attn.obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Attn.inv_in (V3 m) c)
    unfold Pipeline.ΦA
    iintro ⟨Hp, -, Hr⟩
    isplitl [Hr]; · iexact Hr
    iexact Hp
  hout c := by
    rw [Pipeline.ownSems0_none]
    refine BIBase.Entails.trans (Attn.inv_out (V3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m c) (V4 m c) ((pdats m ρ 1 c).arrAt · cfg1.N) (arrs1 m c) (rest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .host (hseg hostOps0 hostOps0_sub hostOps0_fresh (W0 m)),
    .region (reg0 m ρ),
    .host (hseg hostOps1 hostOps1_sub hostOps1_fresh (W2 m)),
    .region (reg1 m ρ) ]
theorem main_run (c : Dev nD) : main (F := F) c = Pipeline.Seg.run (segs m ρ) := (main_chain c).trans (by chain_rfl)

set_option backward.isDefEq.respectTransparency.types false in
/-- From any memory with every semaphore at zero, every weakly fair execution of the program terminates without
    a fault, and in the final memory every unscoped buffer holds what the last valuation says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (end_arg0 m c),
     (h c _ (mem_uc main_arg1 (by decide))).trans (end_arg1 m c),
     (h c _ (mem_uc main_arg2 (by decide))).trans (end_arg2 m c),
     (h c _ (mem_uc main_arg3 (by decide))).trans (end_arg3 m c),
     (h c _ (mem_uc main_arg4 (by decide))).trans (end_arg4 m c)⟩) (run_all m ρ)

end Cert.KernelIdeal.Whole

end
-- ==== Proof.Finite.lean ====
/-
  The precondition, decoded. It is the conjunction, over the five inputs, of "every entry's absolute value is
  below +infinity"; over the extended reals that says every entry is a real number.
-/
import proofs.«133163_j69827578298917_2_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Finite

open Idealize.ShloMosaic Cert.Pre_finite_inputs

/-- The pattern of positive infinity denotes the top element. -/
theorem posInf_eq : Ideal.ofBits .f32 0x7F800000#32 = (⊤ : EReal) := by
  simp [Ideal.ofBits, Ideal.ieee]

/-- An extended real whose absolute value is below +infinity is a real. -/
theorem real_of_abs_lt (x : EReal) (h : Ideal.cmp .olt (max x (-x)) (Ideal.ofBits .f32 0x7F800000#32) = 1#1) : ∃ r : ℝ, x = (r : EReal) := by
  rw [posInf_eq] at h
  have h' : max x (-x) < ⊤ := by
    by_contra hn
    simp [Ideal.cmp, hn] at h
  induction x using EReal.rec with
  | bot => simp at h'
  | coe r => exact ⟨r, rfl⟩
  | top => simp at h'

instance : Subsingleton S_.Idx := ⟨fun a b => funext fun d => d.elim0⟩

/-- Under the precondition every entry of every input is a real. -/
theorem finite_of_pre [Facts] (a0 : FVec Ideal S2x2048x1024 .f32) (a1 : FVec Ideal S3072x1024 .f32) (a2 : FVec Ideal S1024x1024 .f32)
    (a3 : FVec Ideal S1024 .f32) (a4 : FVec Ideal S512x1024 .f32) (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [fn, fn_part1] at h0
  obtain ⟨h1, e4⟩ := IntOp.andi_eq_one.1 (show IntOp.andi _ _ = 1#1 from h0)
  obtain ⟨h2, e3⟩ := IntOp.andi_eq_one.1 (show IntOp.andi _ _ = 1#1 from h1)
  obtain ⟨h3, e2⟩ := IntOp.andi_eq_one.1 (show IntOp.andi _ _ = 1#1 from h2)
  obtain ⟨e0, e1⟩ := IntOp.andi_eq_one.1 (show IntOp.andi _ _ = 1#1 from h3)
  exact ⟨fun i => real_of_abs_lt _ (Host.reduce_andi_all _ _ _ _ _ e0 i), fun i => real_of_abs_lt _ (Host.reduce_andi_all _ _ _ _ _ e1 i),
    fun i => real_of_abs_lt _ (Host.reduce_andi_all _ _ _ _ _ e2 i), fun i => real_of_abs_lt _ (Host.reduce_andi_all _ _ _ _ _ e3 i),
    fun i => real_of_abs_lt _ (Host.reduce_andi_all _ _ _ _ _ e4 i)⟩

end Cert.Finite

end
-- ==== Proof.AttnPiecesIdeal.lean ====
/-
  What one grid point of the attention kernel computes, read off the run: with `headAdd` the body's arithmetic
  (the head's scores against the keys and against the memory, scaled by 1/8; the row maximum over both; the
  exponentials; their row sums added; the two weighted sums of values and of memory rows added and divided by
  the row sum; the product with the head's weight slice; added to the accumulator), a first head leaves
  `headAdd` of the zero block, any other head `headAdd` of what the point before left, and a last head stores
  that sum plus the bias (broadcast along rows) into the output block.
-/
import proofs.«133163_j69827578298917_2_alg».proof.Proof.AttnIdeal
import Idealize.ShloMosaic.Lib.Pipeline.Value

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- One head's update of the accumulator, from the point's query, key, value, memory and weight blocks. -/
def headAdd (x0 : Vec F S1x1x512x64 .bf16) (x1 x2 : Vec F S1x1x2048x64 .bf16) (x3 : Vec F S1x512x64 .bf16) (x4 : Vec F S64x1024 .bf16)
    (acc : Vec F S512x1024 .f32) : Vec F S512x1024 .f32 :=
  k1_pay1 (k1_pay5 x2) (k1_pay6 x3) (k1_pay7 x4) (k1_pay11 x0 x1 x3) (k1_pay12 x0 x1 x3) acc

/-- The zero block the first head stores. -/
abbrev zeroAcc : Vec F S512x1024 .f32 := k1_pay3

/-- The accumulator plus the bias, as the output block. -/
abbrev withBias (acc : Vec F S512x1024 .f32) (x5 : Vec F S1x1024 .f32) : Vec F S1x512x1024 .f32 := k1_pay2 acc x5

theorem accMid_eq (c : Dev nD) (t : Fin cfg1.N) (hf : ¬isFirst (grid1.coords t)) (hl : ¬isLast (grid1.coords t)) (x0 : Vec F S1x1x512x64 .bf16) (x1 : Vec F S1x1x2048x64 .bf16) (x2 : Vec F S1x1x2048x64 .bf16) (x3 : Vec F S1x512x64 .bf16) (x4 : Vec F S64x1024 .bf16) (x5 : Vec F S1x1024 .f32) (acc : Vec F S512x1024 .f32) :
    accMid c t hf hl x0 x1 x2 x3 x4 x5 acc = headAdd x0 x1 x2 x3 x4 acc := by
  unfold accMid headAdd
  rw [View.read_writes_eq_canon _ _ _ (mid_cover c t hf hl x0 x1 x2 x3 x4 x5 acc)]
  unfold runMid
  dsimp only
  sl_unfold_words
  rw [View.canon_unit_zero hz2]
  simp only [View.readAt_eq_ld, (hQ t).read_unread, (hK t).read_unread, (hV t).read_unread, (hM t).read_unread, (hW t).read_unread, (hB t).read_unread, (hO t).read_unread, (Memref.isWhole_whole cc1_scratch0).read_unread, View.ld_unit_zero (S := S1x1x512x64) hz4, View.ld_unit_zero (S := S1x1x2048x64) hz4, View.ld_unit_zero (S := S1x512x64) hz3, View.ld_unit_zero (S := S64x1024) hz2, View.ld_unit_zero (S := S1x1024) hz2, View.ld_unit_zero (S := S512x1024) hz2, View.ld_unit_zero (S := S1x512x1024) hz3]

theorem accLast_eq (c : Dev nD) (t : Fin cfg1.N) (hf : ¬isFirst (grid1.coords t)) (hl : isLast (grid1.coords t)) (x0 : Vec F S1x1x512x64 .bf16) (x1 : Vec F S1x1x2048x64 .bf16) (x2 : Vec F S1x1x2048x64 .bf16) (x3 : Vec F S1x512x64 .bf16) (x4 : Vec F S64x1024 .bf16) (x5 : Vec F S1x1024 .f32) (acc : Vec F S512x1024 .f32) :
    accLast c t hf hl x0 x1 x2 x3 x4 x5 acc = headAdd x0 x1 x2 x3 x4 acc := by
  unfold accLast headAdd
  rw [View.read_writes_eq_canon _ _ _ (last_cover c t hf hl x0 x1 x2 x3 x4 x5 acc)]
  unfold runLast
  dsimp only
  sl_unfold_words
  rw [View.canon_unit_zero hz2]
  simp only [View.readAt_eq_ld, (hQ t).read_unread, (hK t).read_unread, (hV t).read_unread, (hM t).read_unread, (hW t).read_unread, (hB t).read_unread, (hO t).read_unread, (Memref.isWhole_whole cc1_scratch0).read_unread, View.ld_unit_zero (S := S1x1x512x64) hz4, View.ld_unit_zero (S := S1x1x2048x64) hz4, View.ld_unit_zero (S := S1x512x64) hz3, View.ld_unit_zero (S := S64x1024) hz2, View.ld_unit_zero (S := S1x1024) hz2, View.ld_unit_zero (S := S512x1024) hz2, View.ld_unit_zero (S := S1x512x1024) hz3]

theorem outLast_eq (c : Dev nD) (t : Fin cfg1.N) (hf : ¬isFirst (grid1.coords t)) (hl : isLast (grid1.coords t)) (x0 : Vec F S1x1x512x64 .bf16) (x1 : Vec F S1x1x2048x64 .bf16) (x2 : Vec F S1x1x2048x64 .bf16) (x3 : Vec F S1x512x64 .bf16) (x4 : Vec F S64x1024 .bf16) (x5 : Vec F S1x1024 .f32) (acc : Vec F S512x1024 .f32) :
    outLast c t hf hl x0 x1 x2 x3 x4 x5 acc = withBias (headAdd x0 x1 x2 x3 x4 acc) x5 := by
  unfold outLast withBias headAdd
  rw [View.read_writes_eq_canon _ _ _ (out_cover c t hf hl x0 x1 x2 x3 x4 x5 acc)]
  unfold runLast
  dsimp only
  sl_unfold_words
  rw [View.canon_unit_zero hz3, View.readCov_unit_zero (S := S512x1024) _ hz2]
  simp only [View.readAt_eq_ld, (hQ t).read_unread, (hK t).read_unread, (hV t).read_unread, (hM t).read_unread, (hW t).read_unread, (hB t).read_unread, (hO t).read_unread, (Memref.isWhole_whole cc1_scratch0).read_unread, View.ld_unit_zero (S := S1x1x512x64) hz4, View.ld_unit_zero (S := S1x1x2048x64) hz4, View.ld_unit_zero (S := S1x512x64) hz3, View.ld_unit_zero (S := S64x1024) hz2, View.ld_unit_zero (S := S1x1024) hz2, View.ld_unit_zero (S := S512x1024) hz2, View.ld_unit_zero (S := S1x512x1024) hz3]

theorem accFirst_eq (c : Dev nD) (t : Fin cfg1.N) (hf : isFirst (grid1.coords t)) (hl : ¬isLast (grid1.coords t)) (x0 : Vec F S1x1x512x64 .bf16) (x1 : Vec F S1x1x2048x64 .bf16) (x2 : Vec F S1x1x2048x64 .bf16) (x3 : Vec F S1x512x64 .bf16) (x4 : Vec F S64x1024 .bf16) (x5 : Vec F S1x1024 .f32) :
    accFirst c t hf hl x0 x1 x2 x3 x4 x5 = headAdd x0 x1 x2 x3 x4 zeroAcc := by
  unfold accFirst headAdd
  rw [View.read_writes_eq_canon _ _ _ (first_cover c t hf hl x0 x1 x2 x3 x4 x5)]
  unfold runFirst
  dsimp only
  sl_unfold_words
  rw [View.canon_cons_unit_zero (S := S512x1024) hz2, View.readCov_unit_zero (S := S512x1024) _ hz2]
  simp only [View.readAt_eq_ld, (hQ t).read_unread, (hK t).read_unread, (hV t).read_unread, (hM t).read_unread, (hW t).read_unread, (hB t).read_unread, (hO t).read_unread, (Memref.isWhole_whole cc1_scratch0).read_unread, View.ld_unit_zero (S := S1x1x512x64) hz4, View.ld_unit_zero (S := S1x1x2048x64) hz4, View.ld_unit_zero (S := S1x512x64) hz3, View.ld_unit_zero (S := S64x1024) hz2, View.ld_unit_zero (S := S1x1024) hz2, View.ld_unit_zero (S := S512x1024) hz2, View.ld_unit_zero (S := S1x512x1024) hz3]

end Cert.KernelIdeal.Attn

end
-- ==== Proof.AttnChainIdeal.lean ====
/-
  The accumulator over the grid in closed form: after position n it is `headAdd` of position n's blocks
  applied to the zero block when n = 0 mod 16 (a first head), and to the accumulator after position n - 1
  otherwise. The state the frame's run carries is this recursion (by induction on the position), and at a
  last head the output block is that accumulator plus the bias.
-/
import proofs.«133163_j69827578298917_2_alg».proof.Proof.AttnPiecesIdeal

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after position `n`. -/
def accAfter (c : Dev nD) : (n : ℕ) → n < cfg1.N → Vec F S512x1024 .f32
  | 0, h => headAdd (blk V c 0 ⟨0, h⟩) (blk V c 1 ⟨0, h⟩) (blk V c 2 ⟨0, h⟩) (blk V c 3 ⟨0, h⟩) (blk V c 4 ⟨0, h⟩) zeroAcc
  | n + 1, h => headAdd (blk V c 0 ⟨n + 1, h⟩) (blk V c 1 ⟨n + 1, h⟩) (blk V c 2 ⟨n + 1, h⟩) (blk V c 3 ⟨n + 1, h⟩) (blk V c 4 ⟨n + 1, h⟩)
      (if (n + 1) % 16 = 0 then zeroAcc else accAfter c n (Nat.lt_of_succ_lt h))

theorem accAfter_first (c : Dev nD) (t : Fin cfg1.N) (h0 : t.val % 16 = 0) :
    accAfter V c t.val t.isLt = headAdd (blk V c 0 t) (blk V c 1 t) (blk V c 2 t) (blk V c 3 t) (blk V c 4 t) zeroAcc := by
  obtain ⟨n, hn⟩ := t
  cases n with
  | zero => rfl
  | succ n => simp only [accAfter]; rw [if_pos h0]

theorem accAfter_next (c : Dev nD) (t : Fin cfg1.N) (h0 : ¬t.val % 16 = 0) :
    accAfter V c t.val t.isLt = headAdd (blk V c 0 t) (blk V c 1 t) (blk V c 2 t) (blk V c 3 t) (blk V c 4 t) (accAfter V c (t.val - 1) (Nat.lt_of_le_of_lt (Nat.sub_le _ _) t.isLt)) := by
  obtain ⟨n, hn⟩ := t
  cases n with
  | zero => exact absurd (Nat.zero_mod _) h0
  | succ n => simp only [accAfter]; rw [if_neg h0]; rfl

/-- The state the run carries is the recursion. -/
theorem stateAt_acc (c : Dev nD) : ∀ (n : ℕ) (h : n < cfg1.N), (stateAt V c n h).2 = accAfter V c n h
  | 0, h => by
    rw [stateAt_first V c ⟨0, h⟩ (Nat.zero_mod _) (by dsimp only; omega)]
    dsimp only
    rw [accFirst_eq, accAfter_first V c ⟨0, h⟩ (Nat.zero_mod _)]
  | n + 1, h => by
    by_cases h0 : (n + 1) % 16 = 0
    · rw [stateAt_first V c ⟨n + 1, h⟩ h0 (by dsimp only; omega)]
      dsimp only
      rw [accFirst_eq, accAfter_first V c ⟨n + 1, h⟩ h0]
    · by_cases h1 : (n + 1) % 16 = 15
      · rw [stateAt_last V c ⟨n + 1, h⟩ h0 h1]
        dsimp only
        rw [accLast_eq, accAfter_next V c ⟨n + 1, h⟩ h0]
        show headAdd _ _ _ _ _ (stateAt V c n _).2 = headAdd _ _ _ _ _ (accAfter V c n _)
        rw [stateAt_acc c n]
      · rw [stateAt_mid V c ⟨n + 1, h⟩ h0 h1]
        dsimp only
        rw [accMid_eq, accAfter_next V c ⟨n + 1, h⟩ h0]
        show headAdd _ _ _ _ _ (stateAt V c n _).2 = headAdd _ _ _ _ _ (accAfter V c n _)
        rw [stateAt_acc c n]

/-- At a last head the output block is the accumulator after the point, plus the bias. -/
theorem stateAt_out (c : Dev nD) (t : Fin cfg1.N) (h1 : t.val % 16 = 15) :
    (stateAt V c t.val t.isLt).1 = withBias (accAfter V c t.val t.isLt) (blk V c 5 t) := by
  have h0 : ¬t.val % 16 = 0 := by omega
  rw [stateAt_last V c t h0 h1]
  dsimp only
  rw [outLast_eq, accAfter_next V c t h0]
  show withBias (headAdd _ _ _ _ _ (stateAt V c (t.val - 1) _).2) _ = withBias (headAdd _ _ _ _ _ (accAfter V c (t.val - 1) _)) _
  rw [stateAt_acc V c (t.val - 1)]

end Cert.KernelIdeal.Attn

end
-- ==== Proof.AttnMathIdeal.lean ====
/-
  The attention kernel's arithmetic read at an index, over the extended reals. For a point's query block Q
  (512 x 64), key and value blocks K, V (2048 x 64), memory block M (512 x 64) and weight slice W (64 x 1024):
  the token scores are s(r, j) = (Σ_d Q(r, d) K(j, d)) / 8 and the memory scores likewise against M; the row
  maximum is the larger of the two parts' maxima (each taken from negative infinity); the exponentials are
  taken against it; and the head adds to the accumulator, at (r, e),
      Σ_d [ (Σ_j p(r, j) V(j, d) + Σ_j p'(r, j) M(j, d)) / (Σ_j p(r, j) + Σ_j p'(r, j)) ] W(d, e).
  The changes of float format in the body are the identity here. First the layout helpers the body needs:
  a row sum and a row maximum of a matrix, the column cast a -> a x 1, the column broadcast a x 1 -> a x b,
  and a matrix product into the zero block.
-/
import proofs.«133163_j69827578298917_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.AttnMath

open Cert.KernelIdeal Cert.KernelIdeal.Gen
open Idealize.ShloMosaic Idealize.ShloMosaic.ValueIdx

/-! ## Layout helpers -/

/-- A matrix's sum along its rows, at row `r`. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec FTy.f32.bits) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src (funext fun c => Fin.ext ?_)
  match c with
  | ⟨0, _⟩ => rfl
  | ⟨1, _⟩ => rfl

/-- A matrix's running maximum along its rows from the accumulator's value, at row `r`. -/
theorem rowMax_apply {a b : ℕ} (src : FVec Ideal ⟨2, ![a, b]⟩ .f32) (acc : BitVec FTy.f32.bits) (h : Shape.Reduces ⟨2, ![a, b]⟩ [1] ⟨1, ![a]⟩)
    (hφ : FKind.Formats .f32) (hacc : acc = FKind.maximumf.neutral .f32 hφ) (r : Fin a) :
    multiReduction .maximumf [1] ⟨1, ![a]⟩ src acc h hφ hacc (ix1 r)
      = (Finset.univ : Finset (Fin b)).fold max (Ideal.ofBits .f32 acc) fun k => src (ix2 r k) := by
  refine (Ideal.multiReduction_maximumf_single src acc h hφ hacc (ix1 r)).trans ?_
  refine congrArg (fun f => (Finset.univ : Finset (Fin b)).fold max (Ideal.ofBits .f32 acc) f) (funext fun k => congrArg src (funext fun c => Fin.ext ?_))
  match c with
  | ⟨0, _⟩ => rfl
  | ⟨1, _⟩ => rfl

/-- A vector of length `a` cast to a column `a x 1` reads, at (r, 0), the vector at r. -/
theorem colCast_apply {α : Type} {a : ℕ} (v : (⟨1, ![a]⟩ : Shape).Idx → α) (h : (⟨1, ![a]⟩ : Shape).ShapeCasts ⟨2, ![a, 1]⟩) (r : Fin a) :
    shapeCast ⟨2, ![a, 1]⟩ v h (ix2 r (0 : Fin 1)) = v (ix1 r) :=
  shapeCast_apply v h _ _ (by
    rw [Shape.rowMajor_val_one, Shape.rowMajor_val_two]
    show r.val = r.val * 1 + 0
    omega)

/-- A column `a x 1` broadcast to `a x b` reads, at (r, j), the column at (r, 0). -/
theorem colBcast_apply {α : Type} {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- A `1 x 1 x a x b` block cast to `a x b` reads, at (i, j), the block at (0, 0, i, j). -/
theorem cast11ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

theorem mmScoreT_l0 (i : S512x2048.Idx) (q : dot_S512x64_S64x2048_S512x2048_1_0_0_1_n_n.contr.Idx) : (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
theorem mmScoreT_l1 (i : S512x2048.Idx) (q : dot_S512x64_S64x2048_S512x2048_1_0_0_1_n_n.contr.Idx) : (dot_S512x64_S64x2048_S512x2048_1_0_0_1_n_n.lhsIdx i q 1).val = (q ⟨0, by decide⟩).val :=
  dot_S512x64_S64x2048_S512x2048_1_0_0_1_n_n.lhsIdx_val_of_single rfl i q
theorem mmScoreT_r0 (i : S512x2048.Idx) (q : dot_S512x64_S64x2048_S512x2048_1_0_0_1_n_n.contr.Idx) : (dot_S512x64_S64x2048_S512x2048_1_0_0_1_n_n.rhsIdx i q 0).val = (q ⟨0, by decide⟩).val :=
  dot_S512x64_S64x2048_S512x2048_1_0_0_1_n_n.rhsIdx_val_of_single rfl i q
theorem mmScoreT_r1 (i : S512x2048.Idx) (q : dot_S512x64_S64x2048_S512x2048_1_0_0_1_n_n.contr.Idx) : (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl
/-- The 512 x 64 by 64 x 2048 product into the zero block, at (i, j): the sum over the contracted axis. -/
theorem mmScoreT {φ₁ φ₂ : FTy} (l : FVec Ideal S512x64 φ₁) (r : FVec Ideal S64x2048 φ₂) (i : Fin 512) (j : Fin 2048)
    (L R : Fin 64 → EReal) (hl : ∀ q, l (ix2 i q) = L q) (hr : ∀ q, r (ix2 q j) = R q) :
    matmul dot_S512x64_S64x2048_S512x2048_1_0_0_1_n_n none l r (constant S512x2048 .f32 0x00000000#32) (ix2 i j) = ∑ q : Fin 64, L q * R q := by
  simp only [matmul]
  rw [Ideal.matmul_constant_zero_apply, ← Equiv.sum_comp (ValueIdx.contrEquiv1 dot_S512x64_S64x2048_S512x2048_1_0_0_1_n_n 64 rfl rfl).symm]
  refine Finset.sum_congr rfl fun q _ => ?_
  have hk := ValueIdx.contrEquiv1_symm_val dot_S512x64_S64x2048_S512x2048_1_0_0_1_n_n 64 rfl rfl q
  have el : dot_S512x64_S64x2048_S512x2048_1_0_0_1_n_n.lhsIdx (ix2 i j) ((ValueIdx.contrEquiv1 dot_S512x64_S64x2048_S512x2048_1_0_0_1_n_n 64 rfl rfl).symm q) = ix2 i q := funext fun c => Fin.ext (by
    match c with
    | ⟨0, _⟩ => exact mmScoreT_l0 _ _
    | ⟨1, _⟩ => exact (mmScoreT_l1 _ _).trans hk)
  have er : dot_S512x64_S64x2048_S512x2048_1_0_0_1_n_n.rhsIdx (ix2 i j) ((ValueIdx.contrEquiv1 dot_S512x64_S64x2048_S512x2048_1_0_0_1_n_n 64 rfl rfl).symm q) = ix2 q j := funext fun c => Fin.ext (by
    match c with
    | ⟨0, _⟩ => exact (mmScoreT_r0 _ _).trans hk
    | ⟨1, _⟩ => exact mmScoreT_r1 _ _)
  rw [el, er, hl q, hr q]

theorem mmScoreM_l0 (i : S512x512.Idx) (q : dot_S512x64_S64x512_S512x512_1_0_0_1_n_n.contr.Idx) : (dot_S512x64_S64x512_S512x512_1_0_0_1_n_n.lhsIdx i q 0).val = (i 0).val := by
  unfold DotDims.lhsIdx
  rw [dif_neg (show ¬(0 : Fin S512x64.rank) ∈ dot_S512x64_S64x512_S512x512_1_0_0_1_n_n.lhsBatch by decide), dif_pos (show (0 : Fin S512x64.rank) ∈ dot_S512x64_S64x512_S512x512_1_0_0_1_n_n.lhsNonContracting by decide)]
  rfl
theorem mmScoreM_l1 (i : S512x512.Idx) (q : dot_S512x64_S64x512_S512x512_1_0_0_1_n_n.contr.Idx) : (dot_S512x64_S64x512_S512x512_1_0_0_1_n_n.lhsIdx i q 1).val = (q ⟨0, by decide⟩).val :=
  dot_S512x64_S64x512_S512x512_1_0_0_1_n_n.lhsIdx_val_of_single rfl i q
theorem mmScoreM_r0 (i : S512x512.Idx) (q : dot_S512x64_S64x512_S512x512_1_0_0_1_n_n.contr.Idx) : (dot_S512x64_S64x512_S512x512_1_0_0_1_n_n.rhsIdx i q 0).val = (q ⟨0, by decide⟩).val :=
  dot_S512x64_S64x512_S512x512_1_0_0_1_n_n.rhsIdx_val_of_single rfl i q
theorem mmScoreM_r1 (i : S512x512.Idx) (q : dot_S512x64_S64x512_S512x512_1_0_0_1_n_n.contr.Idx) : (dot_S512x64_S64x512_S512x512_1_0_0_1_n_n.rhsIdx i q 1).val = (i 1).val := by
  unfold DotDims.rhsIdx
  rw [dif_neg (show ¬(1 : Fin S64x512.rank) ∈ dot_S512x64_S64x512_S512x512_1_0_0_1_n_n.rhsBatch by decide), dif_pos (show (1 : Fin S64x512.rank) ∈ dot_S512x64_S64x512_S512x512_1_0_0_1_n_n.rhsNonContracting by decide)]
  rfl
/-- The 512 x 64 by 64 x 512 product into the zero block, at (i, j): the sum over the contracted axis. -/
theorem mmScoreM {φ₁ φ₂ : FTy} (l : FVec Ideal S512x64 φ₁) (r : FVec Ideal S64x512 φ₂) (i : Fin 512) (j : Fin 512)
    (L R : Fin 64 → EReal) (hl : ∀ q, l (ix2 i q) = L q) (hr : ∀ q, r (ix2 q j) = R q) :
    matmul dot_S512x64_S64x512_S512x512_1_0_0_1_n_n none l r (constant S512x512 .f32 0x00000000#32) (ix2 i j) = ∑ q : Fin 64, L q * R q := by
  simp only [matmul]
  rw [Ideal.matmul_constant_zero_apply, ← Equiv.sum_comp (ValueIdx.contrEquiv1 dot_S512x64_S64x512_S512x512_1_0_0_1_n_n 64 rfl rfl).symm]
  refine Finset.sum_congr rfl fun q _ => ?_
  have hk := ValueIdx.contrEquiv1_symm_val dot_S512x64_S64x512_S512x512_1_0_0_1_n_n 64 rfl rfl q
  have el : dot_S512x64_S64x512_S512x512_1_0_0_1_n_n.lhsIdx (ix2 i j) ((ValueIdx.contrEquiv1 dot_S512x64_S64x512_S512x512_1_0_0_1_n_n 64 rfl rfl).symm q) = ix2 i q := funext fun c => Fin.ext (by
    match c with
    | ⟨0, _⟩ => exact mmScoreM_l0 _ _
    | ⟨1, _⟩ => exact (mmScoreM_l1 _ _).trans hk)
  have er : dot_S512x64_S64x512_S512x512_1_0_0_1_n_n.rhsIdx (ix2 i j) ((ValueIdx.contrEquiv1 dot_S512x64_S64x512_S512x512_1_0_0_1_n_n 64 rfl rfl).symm q) = ix2 q j := funext fun c => Fin.ext (by
    match c with
    | ⟨0, _⟩ => exact (mmScoreM_r0 _ _).trans hk
    | ⟨1, _⟩ => exact mmScoreM_r1 _ _)
  rw [el, er, hl q, hr q]

theorem mmValT_l0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem mmValT_l1 (i : S512x64.Idx) (q : dot_S512x2048_S2048x64_S512x64_1_0_0_1_n_n.contr.Idx) : (dot_S512x2048_S2048x64_S512x64_1_0_0_1_n_n.lhsIdx i q 1).val = (q ⟨0, by decide⟩).val :=
  dot_S512x2048_S2048x64_S512x64_1_0_0_1_n_n.lhsIdx_val_of_single rfl i q
theorem mmValT_r0 (i : S512x64.Idx) (q : dot_S512x2048_S2048x64_S512x64_1_0_0_1_n_n.contr.Idx) : (dot_S512x2048_S2048x64_S512x64_1_0_0_1_n_n.rhsIdx i q 0).val = (q ⟨0, by decide⟩).val :=
  dot_S512x2048_S2048x64_S512x64_1_0_0_1_n_n.rhsIdx_val_of_single rfl i q
theorem mmValT_r1 (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl
/-- The 512 x 2048 by 2048 x 64 product into the zero block, at (i, j): the sum over the contracted axis. -/
theorem mmValT {φ₁ φ₂ : FTy} (l : FVec Ideal S512x2048 φ₁) (r : FVec Ideal S2048x64 φ₂) (i : Fin 512) (j : Fin 64)
    (L R : Fin 2048 → EReal) (hl : ∀ q, l (ix2 i q) = L q) (hr : ∀ q, r (ix2 q j) = R q) :
    matmul dot_S512x2048_S2048x64_S512x64_1_0_0_1_n_n none l r (constant S512x64 .f32 0x00000000#32) (ix2 i j) = ∑ q : Fin 2048, L q * R q := by
  simp only [matmul]
  rw [Ideal.matmul_constant_zero_apply, ← Equiv.sum_comp (ValueIdx.contrEquiv1 dot_S512x2048_S2048x64_S512x64_1_0_0_1_n_n 2048 rfl rfl).symm]
  refine Finset.sum_congr rfl fun q _ => ?_
  have hk := ValueIdx.contrEquiv1_symm_val dot_S512x2048_S2048x64_S512x64_1_0_0_1_n_n 2048 rfl rfl q
  have el : dot_S512x2048_S2048x64_S512x64_1_0_0_1_n_n.lhsIdx (ix2 i j) ((ValueIdx.contrEquiv1 dot_S512x2048_S2048x64_S512x64_1_0_0_1_n_n 2048 rfl rfl).symm q) = ix2 i q := funext fun c => Fin.ext (by
    match c with
    | ⟨0, _⟩ => exact mmValT_l0 _ _
    | ⟨1, _⟩ => exact (mmValT_l1 _ _).trans hk)
  have er : dot_S512x2048_S2048x64_S512x64_1_0_0_1_n_n.rhsIdx (ix2 i j) ((ValueIdx.contrEquiv1 dot_S512x2048_S2048x64_S512x64_1_0_0_1_n_n 2048 rfl rfl).symm q) = ix2 q j := funext fun c => Fin.ext (by
    match c with
    | ⟨0, _⟩ => exact (mmValT_r0 _ _).trans hk
    | ⟨1, _⟩ => exact mmValT_r1 _ _)
  rw [el, er, hl q, hr q]

theorem mmValM_l0 (i : S512x64.Idx) (q : dot_S512x512_S512x64_S512x64_1_0_0_1_n_n.contr.Idx) : (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
  rfl
theorem mmValM_l1 (i : S512x64.Idx) (q : dot_S512x512_S512x64_S512x64_1_0_0_1_n_n.contr.Idx) : (dot_S512x512_S512x64_S512x64_1_0_0_1_n_n.lhsIdx i q 1).val = (q ⟨0, by decide⟩).val :=
  dot_S512x512_S512x64_S512x64_1_0_0_1_n_n.lhsIdx_val_of_single rfl i q
theorem mmValM_r0 (i : S512x64.Idx) (q : dot_S512x512_S512x64_S512x64_1_0_0_1_n_n.contr.Idx) : (dot_S512x512_S512x64_S512x64_1_0_0_1_n_n.rhsIdx i q 0).val = (q ⟨0, by decide⟩).val :=
  dot_S512x512_S512x64_S512x64_1_0_0_1_n_n.rhsIdx_val_of_single rfl i q
theorem mmValM_r1 (i : S512x64.Idx) (q : dot_S512x512_S512x64_S512x64_1_0_0_1_n_n.contr.Idx) : (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
  rfl
/-- The 512 x 512 by 512 x 64 product into the zero block, at (i, j): the sum over the contracted axis. -/
theorem mmValM {φ₁ φ₂ : FTy} (l : FVec Ideal S512x512 φ₁) (r : FVec Ideal S512x64 φ₂) (i : Fin 512) (j : Fin 64)
    (L R : Fin 512 → EReal) (hl : ∀ q, l (ix2 i q) = L q) (hr : ∀ q, r (ix2 q j) = R q) :
    matmul dot_S512x512_S512x64_S512x64_1_0_0_1_n_n none l r (constant S512x64 .f32 0x00000000#32) (ix2 i j) = ∑ q : Fin 512, L q * R q := by
  simp only [matmul]
  rw [Ideal.matmul_constant_zero_apply, ← Equiv.sum_comp (ValueIdx.contrEquiv1 dot_S512x512_S512x64_S512x64_1_0_0_1_n_n 512 rfl rfl).symm]
  refine Finset.sum_congr rfl fun q _ => ?_
  have hk := ValueIdx.contrEquiv1_symm_val dot_S512x512_S512x64_S512x64_1_0_0_1_n_n 512 rfl rfl q
  have el : dot_S512x512_S512x64_S512x64_1_0_0_1_n_n.lhsIdx (ix2 i j) ((ValueIdx.contrEquiv1 dot_S512x512_S512x64_S512x64_1_0_0_1_n_n 512 rfl rfl).symm q) = ix2 i q := funext fun c => Fin.ext (by
    match c with
    | ⟨0, _⟩ => exact mmValM_l0 _ _
    | ⟨1, _⟩ => exact (mmValM_l1 _ _).trans hk)
  have er : dot_S512x512_S512x64_S512x64_1_0_0_1_n_n.rhsIdx (ix2 i j) ((ValueIdx.contrEquiv1 dot_S512x512_S512x64_S512x64_1_0_0_1_n_n 512 rfl rfl).symm q) = ix2 q j := funext fun c => Fin.ext (by
    match c with
    | ⟨0, _⟩ => exact (mmValM_r0 _ _).trans hk
    | ⟨1, _⟩ => exact mmValM_r1 _ _)
  rw [el, er, hl q, hr q]

theorem mmOut_l0 (i : S512x1024.Idx) (q : dot_S512x64_S64x1024_S512x1024_1_0_0_1_n_n.contr.Idx) : (dot_S512x64_S64x1024_S512x1024_1_0_0_1_n_n.lhsIdx i q 0).val = (i 0).val := by
  unfold DotDims.lhsIdx
  rw [dif_neg (show ¬(0 : Fin S512x64.rank) ∈ dot_S512x64_S64x1024_S512x1024_1_0_0_1_n_n.lhsBatch by decide), dif_pos (show (0 : Fin S512x64.rank) ∈ dot_S512x64_S64x1024_S512x1024_1_0_0_1_n_n.lhsNonContracting by decide)]
  rfl
theorem mmOut_l1 (i : S512x1024.Idx) (q : dot_S512x64_S64x1024_S512x1024_1_0_0_1_n_n.contr.Idx) : (dot_S512x64_S64x1024_S512x1024_1_0_0_1_n_n.lhsIdx i q 1).val = (q ⟨0, by decide⟩).val :=
  dot_S512x64_S64x1024_S512x1024_1_0_0_1_n_n.lhsIdx_val_of_single rfl i q
theorem mmOut_r0 (i : S512x1024.Idx) (q : dot_S512x64_S64x1024_S512x1024_1_0_0_1_n_n.contr.Idx) : (dot_S512x64_S64x1024_S512x1024_1_0_0_1_n_n.rhsIdx i q 0).val = (q ⟨0, by decide⟩).val :=
  dot_S512x64_S64x1024_S512x1024_1_0_0_1_n_n.rhsIdx_val_of_single rfl i q
theorem mmOut_r1 (i : S512x1024.Idx) (q : dot_S512x64_S64x1024_S512x1024_1_0_0_1_n_n.contr.Idx) : (dot_S512x64_S64x1024_S512x1024_1_0_0_1_n_n.rhsIdx i q 1).val = (i 1).val := by
  unfold DotDims.rhsIdx
  rw [dif_neg (show ¬(1 : Fin S64x1024.rank) ∈ dot_S512x64_S64x1024_S512x1024_1_0_0_1_n_n.rhsBatch by decide), dif_pos (show (1 : Fin S64x1024.rank) ∈ dot_S512x64_S64x1024_S512x1024_1_0_0_1_n_n.rhsNonContracting by decide)]
  rfl
/-- The 512 x 64 by 64 x 1024 product into the zero block, at (i, j): the sum over the contracted axis. -/
theorem mmOut {φ₁ φ₂ : FTy} (l : FVec Ideal S512x64 φ₁) (r : FVec Ideal S64x1024 φ₂) (i : Fin 512) (j : Fin 1024)
    (L R : Fin 64 → EReal) (hl : ∀ q, l (ix2 i q) = L q) (hr : ∀ q, r (ix2 q j) = R q) :
    matmul dot_S512x64_S64x1024_S512x1024_1_0_0_1_n_n none l r (constant S512x1024 .f32 0x00000000#32) (ix2 i j) = ∑ q : Fin 64, L q * R q := by
  simp only [matmul]
  rw [Ideal.matmul_constant_zero_apply, ← Equiv.sum_comp (ValueIdx.contrEquiv1 dot_S512x64_S64x1024_S512x1024_1_0_0_1_n_n 64 rfl rfl).symm]
  refine Finset.sum_congr rfl fun q _ => ?_
  have hk := ValueIdx.contrEquiv1_symm_val dot_S512x64_S64x1024_S512x1024_1_0_0_1_n_n 64 rfl rfl q
  have el : dot_S512x64_S64x1024_S512x1024_1_0_0_1_n_n.lhsIdx (ix2 i j) ((ValueIdx.contrEquiv1 dot_S512x64_S64x1024_S512x1024_1_0_0_1_n_n 64 rfl rfl).symm q) = ix2 i q := funext fun c => Fin.ext (by
    match c with
    | ⟨0, _⟩ => exact mmOut_l0 _ _
    | ⟨1, _⟩ => exact (mmOut_l1 _ _).trans hk)
  have er : dot_S512x64_S64x1024_S512x1024_1_0_0_1_n_n.rhsIdx (ix2 i j) ((ValueIdx.contrEquiv1 dot_S512x64_S64x1024_S512x1024_1_0_0_1_n_n 64 rfl rfl).symm q) = ix2 q j := funext fun c => Fin.ext (by
    match c with
    | ⟨0, _⟩ => exact (mmOut_r0 _ _).trans hk
    | ⟨1, _⟩ => exact mmOut_r1 _ _)
  rw [el, er, hl q, hr q]

/-! ## The row quantities -/

/-- The scale 1/8 and the starting value of a row maximum, as the programs spell them. -/
abbrev c8 : EReal := Ideal.ofBits .f32 0x3E000000#32
abbrev negInf : EReal := Ideal.ofBits .f32 0xFF800000#32

section Rows
variable (Q : FVec Ideal S512x64 .bf16) (K V : FVec Ideal S2048x64 .bf16) (M : FVec Ideal S512x64 .bf16)

/-- Scores of query row `r` against token key `j`, and against memory key `j`. -/
def sTok (r : Fin 512) (j : Fin 2048) : EReal := (∑ d : Fin 64, Q (ix2 r d) * K (ix2 j d)) * c8
def sMem (r : Fin 512) (j : Fin 512) : EReal := (∑ d : Fin 64, Q (ix2 r d) * M (ix2 j d)) * c8
/-- The row maximum over both parts. -/
def rowMx (r : Fin 512) : EReal :=
  max ((Finset.univ : Finset (Fin 2048)).fold max negInf fun j => sTok Q K r j) ((Finset.univ : Finset (Fin 512)).fold max negInf fun j => sMem Q M r j)
/-- The exponentials against the row maximum. -/
def pTok (r : Fin 512) (j : Fin 2048) : EReal := Ideal.exp (sTok Q K r j - rowMx Q K M r)
def pMem (r : Fin 512) (j : Fin 512) : EReal := Ideal.exp (sMem Q M r j - rowMx Q K M r)
/-- The head's attention output at row `r`, column `d`. -/
def attn (r : Fin 512) (d : Fin 64) : EReal :=
  Ideal.div ((∑ j : Fin 2048, pTok Q K M r j * V (ix2 j d)) + ∑ j : Fin 512, pMem Q K M r j * M (ix2 j d))
    ((∑ j : Fin 2048, pTok Q K M r j) + ∑ j : Fin 512, pMem Q K M r j)
end Rows

/-! ## The payloads at an index -/

theorem pay8_apply (x0 : FVec Ideal S1x1x512x64 .bf16) (x1 : FVec Ideal S1x1x2048x64 .bf16) (r : Fin 512) (j : Fin 2048) :
    k1_pay8 (F := Ideal) x0 x1 (ix2 r j) = sTok (k1_pay4 (F := Ideal) x0) (k1_pay5 (F := Ideal) x1) r j := by
  unfold k1_pay8 sTok
  rw [mulf_apply, broadcast_apply]
  rw [mmScoreT (k1_pay4 (F := Ideal) x0) (transpose S64x2048 [1, 0] (shapeCast S2048x64 x1 shapeCasts_S1x1x2048x64_S2048x64) transposes_S2048x64_p1_0_S64x2048) r j _ _ (fun q => rfl) (fun q => transpose_ix2_apply _ _ q j)]
  rfl

theorem pay9_apply (x0 : FVec Ideal S1x1x512x64 .bf16) (x3 : FVec Ideal S1x512x64 .bf16) (r : Fin 512) (j : Fin 512) :
    k1_pay9 (F := Ideal) x0 x3 (ix2 r j) = sMem (k1_pay4 (F := Ideal) x0) (k1_pay6 (F := Ideal) x3) r j := by
  unfold k1_pay9 sMem
  rw [mulf_apply, broadcast_apply]
  rw [mmScoreM (k1_pay4 (F := Ideal) x0) (transpose S64x512 [1, 0] (k1_pay6 (F := Ideal) x3) transposes_S512x64_p1_0_S64x512) r j _ _ (fun q => rfl) (fun q => transpose_ix2_apply _ _ q j)]
  rfl

theorem pay10_apply (x0 : FVec Ideal S1x1x512x64 .bf16) (x1 : FVec Ideal S1x1x2048x64 .bf16) (x3 : FVec Ideal S1x512x64 .bf16) (r : Fin 512) :
    k1_pay10 (F := Ideal) x0 x1 x3 (ix2 r (0 : Fin 1)) = rowMx (k1_pay4 (F := Ideal) x0) (k1_pay5 (F := Ideal) x1) (k1_pay6 (F := Ideal) x3) r := by
  unfold k1_pay10 rowMx
  rw [maximumf_apply]
  refine congrArg₂ max ?_ ?_
  · refine (colCast_apply _ _ r).trans ((rowMax_apply _ _ _ _ _ r).trans ?_)
    exact congrArg (fun f => (Finset.univ : Finset (Fin 2048)).fold max negInf f) (funext fun j => pay8_apply x0 x1 r j)
  · refine (colCast_apply _ _ r).trans ((rowMax_apply _ _ _ _ _ r).trans ?_)
    exact congrArg (fun f => (Finset.univ : Finset (Fin 512)).fold max negInf f) (funext fun j => pay9_apply x0 x3 r j)

theorem pay11_apply (x0 : FVec Ideal S1x1x512x64 .bf16) (x1 : FVec Ideal S1x1x2048x64 .bf16) (x3 : FVec Ideal S1x512x64 .bf16) (r : Fin 512) (j : Fin 2048) :
    k1_pay11 (F := Ideal) x0 x1 x3 (ix2 r j) = pTok (k1_pay4 (F := Ideal) x0) (k1_pay5 (F := Ideal) x1) (k1_pay6 (F := Ideal) x3) r j := by
  unfold k1_pay11 pTok
  show Ideal.exp (k1_pay8 (F := Ideal) x0 x1 (ix2 r j) - broadcastTo S512x2048 (k1_pay10 (F := Ideal) x0 x1 x3) broadcasts_S512x1_S512x2048 (ix2 r j)) = _
  rw [pay8_apply, colBcast_apply, pay10_apply]

theorem pay12_apply (x0 : FVec Ideal S1x1x512x64 .bf16) (x1 : FVec Ideal S1x1x2048x64 .bf16) (x3 : FVec Ideal S1x512x64 .bf16) (r : Fin 512) (j : Fin 512) :
    k1_pay12 (F := Ideal) x0 x1 x3 (ix2 r j) = sMem (k1_pay4 (F := Ideal) x0) (k1_pay6 (F := Ideal) x3) r j - rowMx (k1_pay4 (F := Ideal) x0) (k1_pay5 (F := Ideal) x1) (k1_pay6 (F := Ideal) x3) r := by
  unfold k1_pay12
  show k1_pay9 (F := Ideal) x0 x3 (ix2 r j) - broadcastTo S512x512 (k1_pay10 (F := Ideal) x0 x1 x3) broadcasts_S512x1_S512x512 (ix2 r j) = _
  rw [pay9_apply, colBcast_apply, pay10_apply]

/-- The accumulator's update at (r, e), over plain matrices: the value block `v8`, the memory block `v10`, the weight
    slice `v12`, the token exponentials `v28` and the memory scores less the row maximum `v30`. -/
theorem pay1_apply (v8 : FVec Ideal S2048x64 .bf16) (v10 : FVec Ideal S512x64 .bf16) (v12 : FVec Ideal S64x1024 .bf16)
    (v28 : FVec Ideal S512x2048 .f32) (v30 : FVec Ideal S512x512 .f32) (v46 : FVec Ideal S512x1024 .f32) (r : Fin 512) (e : Fin 1024) :
    k1_pay1 (F := Ideal) v8 v10 v12 v28 v30 v46 (ix2 r e)
      = v46 (ix2 r e) + ∑ d : Fin 64,
          Ideal.div ((∑ j : Fin 2048, v28 (ix2 r j) * v8 (ix2 j d)) + ∑ j : Fin 512, Ideal.exp (v30 (ix2 r j)) * v10 (ix2 j d))
            ((∑ j : Fin 2048, v28 (ix2 r j)) + ∑ j : Fin 512, Ideal.exp (v30 (ix2 r j))) * v12 (ix2 d e) := by
  unfold k1_pay1
  rw [shapeCast_self, addf_apply]
  refine congrArg (v46 (ix2 r e) + ·) ?_
  refine mmOut _ v12 r e
    (fun d => Ideal.div ((∑ j : Fin 2048, v28 (ix2 r j) * v8 (ix2 j d)) + ∑ j : Fin 512, Ideal.exp (v30 (ix2 r j)) * v10 (ix2 j d))
      ((∑ j : Fin 2048, v28 (ix2 r j)) + ∑ j : Fin 512, Ideal.exp (v30 (ix2 r j))))
    (fun d => v12 (ix2 d e)) (fun d => ?_) (fun d => rfl)
  refine congrArg₂ Ideal.div (congrArg₂ (· + ·) ?_ ?_) ?_
  · exact mmValT _ v8 r d _ _ (fun j => rfl) (fun j => rfl)
  · exact mmValM _ v10 r d _ _ (fun j => rfl) (fun j => rfl)
  · refine (colBcast_apply _ _ r d).trans (congrArg₂ (· + ·) ?_ ?_)
    · exact (colCast_apply _ _ r).trans (rowSum_apply _ _ _ _ r)
    · exact (colCast_apply _ _ r).trans (rowSum_apply _ _ _ _ r)

end Cert.KernelIdeal.AttnMath

end
-- ==== Proof.AttnBlocksIdeal.lean ====
/-
  The attention launch's blocks as parts of the arrays. Point number t (0..127) is batch b = t / 64, query
  block qb = (t / 16) mod 4 and head h = t mod 16. Its query block is rows 512 qb .. 512 qb + 511 of the
  (b, h) slab of the query array; its key and value blocks are the whole (b, h) slabs; its memory block is
  slab h of the memory array; its weight slice is rows 64 h .. 64 h + 63 of the transposed output weights;
  its bias block is the whole bias row. The windows' index maps are decided once over the 128 points.
-/
import proofs.«133163_j69827578298917_2_alg».proof.Proof.AttnChainIdeal
import proofs.«133163_j69827578298917_2_alg».proof.Proof.AttnMathIdeal

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.AttnMath

variable (V : (c : Dev nD) → (b : Ref sig .tc) → Buf (Elt Ideal) ((c : Thread nD τ).loc b))

theorem N128 : cfg1.N = 128 := N_1

/-- The batch, query block and head of point `t`. -/
def pB (t : Fin cfg1.N) : Fin 2 := ⟨t.val / 64, by have h : t.val < 128 := lt_of_lt_of_eq t.isLt N128; omega⟩
def pQ (t : Fin cfg1.N) : Fin 4 := ⟨t.val / 16 % 4, by omega⟩
def pH (t : Fin cfg1.N) : Fin 16 := ⟨t.val % 16, by omega⟩
/-- Row `r` of query block `qb`, as a row of the sequence. -/
def seqRow (qb : Fin 4) (r : Fin 512) : Fin 2048 := ⟨qb.val * 512 + r.val, by have := qb.isLt; have := r.isLt; omega⟩
/-- Column `d` of head `h`, as a column of the model dimension. -/
def headCol (h : Fin 16) (d : Fin 64) : Fin 1024 := ⟨h.val * 64 + d.val, by have := h.isLt; have := d.isLt; omega⟩

theorem idx_q : ∀ t : Fin cfg1.N, win1_0.index t 0 = t.val / 64 ∧ win1_0.index t 1 = t.val % 16 ∧ win1_0.index t 2 = t.val / 16 % 4 ∧ win1_0.index t 3 = 0 :=
  (by decide +kernel : ∀ t : Fin grid1.N, win1_0.index t 0 = t.val / 64 ∧ win1_0.index t 1 = t.val % 16 ∧ win1_0.index t 2 = t.val / 16 % 4 ∧ win1_0.index t 3 = 0)
theorem idx_k : ∀ t : Fin cfg1.N, win1_1.index t 0 = t.val / 64 ∧ win1_1.index t 1 = t.val % 16 ∧ win1_1.index t 2 = 0 ∧ win1_1.index t 3 = 0 :=
  (by decide +kernel : ∀ t : Fin grid1.N, win1_1.index t 0 = t.val / 64 ∧ win1_1.index t 1 = t.val % 16 ∧ win1_1.index t 2 = 0 ∧ win1_1.index t 3 = 0)
theorem idx_v : ∀ t : Fin cfg1.N, win1_2.index t 0 = t.val / 64 ∧ win1_2.index t 1 = t.val % 16 ∧ win1_2.index t 2 = 0 ∧ win1_2.index t 3 = 0 :=
  (by decide +kernel : ∀ t : Fin grid1.N, win1_2.index t 0 = t.val / 64 ∧ win1_2.index t 1 = t.val % 16 ∧ win1_2.index t 2 = 0 ∧ win1_2.index t 3 = 0)
theorem idx_m : ∀ t : Fin cfg1.N, win1_3.index t 0 = t.val % 16 ∧ win1_3.index t 1 = 0 ∧ win1_3.index t 2 = 0 :=
  (by decide +kernel : ∀ t : Fin grid1.N, win1_3.index t 0 = t.val % 16 ∧ win1_3.index t 1 = 0 ∧ win1_3.index t 2 = 0)
theorem idx_w : ∀ t : Fin cfg1.N, win1_4.index t 0 = t.val % 16 ∧ win1_4.index t 1 = 0 :=
  (by decide +kernel : ∀ t : Fin grid1.N, win1_4.index t 0 = t.val % 16 ∧ win1_4.index t 1 = 0)
theorem idx_b : ∀ t : Fin cfg1.N, win1_5.index t 0 = 0 ∧ win1_5.index t 1 = 0 :=
  (by decide +kernel : ∀ t : Fin grid1.N, win1_5.index t 0 = 0 ∧ win1_5.index t 1 = 0)
theorem idx_o : ∀ t : Fin cfg1.N, win1_6.index t 0 = t.val / 64 ∧ win1_6.index t 1 = t.val / 16 % 4 ∧ win1_6.index t 2 = 0 :=
  (by decide +kernel : ∀ t : Fin grid1.N, win1_6.index t 0 = t.val / 64 ∧ win1_6.index t 1 = t.val / 16 % 4 ∧ win1_6.index t 2 = 0)

/-- The query block as a matrix: entry (r, d) is the query array at (b, h, 512 qb + r, d). -/
theorem qmat (c : Dev nD) (t : Fin cfg1.N) (r : Fin 512) (d : Fin 64) :
    k1_pay4 (F := Ideal) (blk V c 0 t) (ix2 r d) = V c main_v11 (ix4 (pB t) (pH t) (seqRow (pQ t) r) d) := by
  unfold k1_pay4
  refine (cast11ab_apply _ _ r d).trans ?_
  obtain ⟨h0, h1, h2, h3⟩ := idx_q t
  unfold blk
  rw [View.read_apply]
  refine congrArg (V c main_v11) (funext fun a => Fin.ext ?_)
  match a with
  | ⟨0, _⟩ => show win1_0.index t 0 * 1 + 1 * 0 = t.val / 64; rw [h0]; try omega
  | ⟨1, _⟩ => show win1_0.index t 1 * 1 + 1 * 0 = t.val % 16; rw [h1]; try omega
  | ⟨2, _⟩ => show win1_0.index t 2 * 512 + 1 * r.val = t.val / 16 % 4 * 512 + r.val; rw [h2]; try omega
  | ⟨3, _⟩ => show win1_0.index t 3 * 64 + 1 * d.val = d.val; rw [h3]; try omega

/-- The key block as a matrix: entry (j, d) is the key array at (b, h, j, d). -/
theorem kmat (c : Dev nD) (t : Fin cfg1.N) (j : Fin 2048) (d : Fin 64) :
    k1_pay5 (F := Ideal) (blk V c 1 t) (ix2 j d) = V c main_v13 (ix4 (pB t) (pH t) j d) := by
  unfold k1_pay5
  refine (cast11ab_apply _ _ j d).trans ?_
  obtain ⟨h0, h1, h2, h3⟩ := idx_k t
  unfold blk
  rw [View.read_apply]
  refine congrArg (V c main_v13) (funext fun a => Fin.ext ?_)
  match a with
  | ⟨0, _⟩ => show win1_1.index t 0 * 1 + 1 * 0 = t.val / 64; rw [h0]; try omega
  | ⟨1, _⟩ => show win1_1.index t 1 * 1 + 1 * 0 = t.val % 16; rw [h1]; try omega
  | ⟨2, _⟩ => show win1_1.index t 2 * 2048 + 1 * j.val = j.val; rw [h2]; try omega
  | ⟨3, _⟩ => show win1_1.index t 3 * 64 + 1 * d.val = d.val; rw [h3]; try omega

/-- The value block as a matrix: entry (j, d) is the value array at (b, h, j, d). -/
theorem vmat (c : Dev nD) (t : Fin cfg1.N) (j : Fin 2048) (d : Fin 64) :
    k1_pay5 (F := Ideal) (blk V c 2 t) (ix2 j d) = V c main_v15 (ix4 (pB t) (pH t) j d) := by
  unfold k1_pay5
  refine (cast11ab_apply _ _ j d).trans ?_
  obtain ⟨h0, h1, h2, h3⟩ := idx_v t
  unfold blk
  rw [View.read_apply]
  refine congrArg (V c main_v15) (funext fun a => Fin.ext ?_)
  match a with
  | ⟨0, _⟩ => show win1_2.index t 0 * 1 + 1 * 0 = t.val / 64; rw [h0]; try omega
  | ⟨1, _⟩ => show win1_2.index t 1 * 1 + 1 * 0 = t.val % 16; rw [h1]; try omega
  | ⟨2, _⟩ => show win1_2.index t 2 * 2048 + 1 * j.val = j.val; rw [h2]; try omega
  | ⟨3, _⟩ => show win1_2.index t 3 * 64 + 1 * d.val = d.val; rw [h3]; try omega

/-- The memory block as a matrix: entry (j, d) is the memory array at (h, j, d). -/
theorem mmat (c : Dev nD) (t : Fin cfg1.N) (j : Fin 512) (d : Fin 64) :
    k1_pay6 (F := Ideal) (blk V c 3 t) (ix2 j d) = V c main_v18 (ix3 (pH t) j d) := by
  unfold k1_pay6
  refine (shapeCast_1ab_ab_apply _ _ j d).trans ?_
  obtain ⟨h0, h1, h2⟩ := idx_m t
  unfold blk
  rw [View.read_apply]
  refine congrArg (V c main_v18) (funext fun a => Fin.ext ?_)
  match a with
  | ⟨0, _⟩ => show win1_3.index t 0 * 1 + 1 * 0 = t.val % 16; rw [h0]; try omega
  | ⟨1, _⟩ => show win1_3.index t 1 * 512 + 1 * j.val = j.val; rw [h1]; try omega
  | ⟨2, _⟩ => show win1_3.index t 2 * 64 + 1 * d.val = d.val; rw [h2]; try omega

/-- The weight slice as a matrix: entry (d, e) is the transposed output weights at (64 h + d, e). -/
theorem wmat (c : Dev nD) (t : Fin cfg1.N) (d : Fin 64) (e : Fin 1024) :
    k1_pay7 (F := Ideal) (blk V c 4 t) (ix2 d e) = V c main_v2 (ix2 (headCol (pH t) d) e) := by
  unfold k1_pay7
  rw [shapeCast_self]
  obtain ⟨h0, h1⟩ := idx_w t
  unfold blk
  rw [View.read_apply]
  refine congrArg (V c main_v2) (funext fun a => Fin.ext ?_)
  match a with
  | ⟨0, _⟩ => show win1_4.index t 0 * 64 + 1 * d.val = t.val % 16 * 64 + d.val; rw [h0]; try omega
  | ⟨1, _⟩ => show win1_4.index t 1 * 1024 + 1 * e.val = e.val; rw [h1]; try omega

/-- The bias block: entry (0, e) is the bias row at (0, e). -/
theorem bvec (c : Dev nD) (t : Fin cfg1.N) (e : Fin 1024) :
    (blk V c 5 t : FVec Ideal S1x1024 .f32) (ix2 (0 : Fin 1) e) = V c main_v3 (ix2 (0 : Fin 1) e) := by
  obtain ⟨h0, h1⟩ := idx_b t
  unfold blk
  rw [View.read_apply]
  refine congrArg (V c main_v3) (funext fun a => Fin.ext ?_)
  match a with
  | ⟨0, _⟩ => show win1_5.index t 0 * 1 + 1 * 0 = 0; rw [h0]; try omega
  | ⟨1, _⟩ => show win1_5.index t 1 * 1024 + 1 * e.val = e.val; rw [h1]; try omega

end Cert.KernelIdeal.Attn

end
-- ==== Proof.AttnSumIdeal.lean ====
/-
  The sum over heads. With contribution(b, qb, h)(r, e) = Σ_d attn(b, h, qb)(r, d) · W(64 h + d, e) — the attention
  output of head h for rows 512 qb .. of batch b, times the head's rows of the transposed output weights — the
  accumulator after point n holds, at (r, e), zero plus the contributions of the points n - (n mod 16) .. n (the
  heads of n's group so far): by induction on n, a first head restarting the sum. So after a last head it holds
  zero plus the sum over all 16 heads, and the output block adds the bias.
-/
import proofs.«133163_j69827578298917_2_alg».proof.Proof.AttnBlocksIdeal

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.AttnMath

variable (V : (c : Dev nD) → (b : Ref sig .tc) → Buf (Elt Ideal) ((c : Thread nD τ).loc b))

/-- One head's update at (r, e): the accumulator there plus the head's attention output times its weight slice. -/
theorem headAdd_apply (x0 : FVec Ideal S1x1x512x64 .bf16) (x1 x2 : FVec Ideal S1x1x2048x64 .bf16) (x3 : FVec Ideal S1x512x64 .bf16)
    (x4 : FVec Ideal S64x1024 .bf16) (acc : FVec Ideal S512x1024 .f32) (r : Fin 512) (e : Fin 1024) :
    headAdd (F := Ideal) x0 x1 x2 x3 x4 acc (ix2 r e)
      = acc (ix2 r e) + ∑ d : Fin 64, attn (k1_pay4 (F := Ideal) x0) (k1_pay5 (F := Ideal) x1) (k1_pay5 (F := Ideal) x2) (k1_pay6 (F := Ideal) x3) r d
          * k1_pay7 (F := Ideal) x4 (ix2 d e) := by
  unfold headAdd
  rw [pay1_apply]
  refine congrArg (acc (ix2 r e) + ·) (Finset.sum_congr rfl fun d _ => ?_)
  unfold attn pMem
  simp only [pay11_apply, pay12_apply]

/-- The zero block at an index. -/
theorem zeroAcc_apply (j : S512x1024.Idx) : zeroAcc (F := Ideal) j = 0 := by
  unfold zeroAcc k1_pay3
  rw [shapeCast_self]
  exact Ideal.ofBits_zero_f32

/-- The accumulator plus the bias, at (0, r, e). -/
theorem withBias_apply (acc : FVec Ideal S512x1024 .f32) (x5 : FVec Ideal S1x1024 .f32) (r : Fin 512) (e : Fin 1024) :
    withBias (F := Ideal) acc x5 (ix3 (0 : Fin 1) r e) = acc (ix2 r e) + x5 (ix2 (0 : Fin 1) e) := by
  unfold withBias k1_pay2
  rw [shapeCast_ab_1ab_apply, addf_apply, broadcastTo_1b_ab_apply, shapeCast_self]

/-! ## The arrays' slabs as matrices -/

/-- Rows 512 qb .. of slab (b, h) of a [2, 16, 2048, 64] array; slab (b, h) whole; slab h of a [16, 512, 64] array. -/
def slabRows (A : S2x16x2048x64.Idx → EReal) (b : Fin 2) (h : Fin 16) (qb : Fin 4) : FVec Ideal S512x64 .bf16 :=
  fun y => A (ix4 b h (seqRow qb ⟨(y 0).val, (y 0).isLt⟩) ⟨(y 1).val, (y 1).isLt⟩)
def slab (A : S2x16x2048x64.Idx → EReal) (b : Fin 2) (h : Fin 16) : FVec Ideal S2048x64 .bf16 :=
  fun y => A (ix4 b h ⟨(y 0).val, (y 0).isLt⟩ ⟨(y 1).val, (y 1).isLt⟩)
def memSlab (A : S16x512x64.Idx → EReal) (h : Fin 16) : FVec Ideal S512x64 .bf16 :=
  fun y => A (ix3 h ⟨(y 0).val, (y 0).isLt⟩ ⟨(y 1).val, (y 1).isLt⟩)

theorem q_slab (c : Dev nD) (t : Fin cfg1.N) : k1_pay4 (F := Ideal) (blk V c 0 t) = slabRows (V c main_v11) (pB t) (pH t) (pQ t) :=
  funext fun y => by rw [eq_ix2 y]; exact qmat V c t _ _
theorem k_slab (c : Dev nD) (t : Fin cfg1.N) : k1_pay5 (F := Ideal) (blk V c 1 t) = slab (V c main_v13) (pB t) (pH t) :=
  funext fun y => by rw [eq_ix2 y]; exact kmat V c t _ _
theorem v_slab (c : Dev nD) (t : Fin cfg1.N) : k1_pay5 (F := Ideal) (blk V c 2 t) = slab (V c main_v15) (pB t) (pH t) :=
  funext fun y => by rw [eq_ix2 y]; exact vmat V c t _ _
theorem m_slab (c : Dev nD) (t : Fin cfg1.N) : k1_pay6 (F := Ideal) (blk V c 3 t) = memSlab (V c main_v18) (pH t) :=
  funext fun y => by rw [eq_ix2 y]; exact mmat V c t _ _

/-- Head h's contribution to rows 512 qb .. of batch b, at (r, e). -/
def contrib (c : Dev nD) (b : Fin 2) (qb : Fin 4) (h : Fin 16) (r : Fin 512) (e : Fin 1024) : EReal :=
  ∑ d : Fin 64, attn (slabRows (V c main_v11) b h qb) (slab (V c main_v13) b h) (slab (V c main_v15) b h) (memSlab (V c main_v18) h) r d
    * V c main_v2 (ix2 (headCol h d) e)

/-- The same by point number (zero past the grid). -/
def contribAt (c : Dev nD) (r : Fin 512) (e : Fin 1024) (n : ℕ) : EReal :=
  if hn : n < cfg1.N then contrib V c (pB ⟨n, hn⟩) (pQ ⟨n, hn⟩) (pH ⟨n, hn⟩) r e else 0

/-- One point's update of the accumulator, in the arrays' terms. -/
theorem step_apply (c : Dev nD) (t : Fin cfg1.N) (acc : FVec Ideal S512x1024 .f32) (r : Fin 512) (e : Fin 1024) :
    headAdd (F := Ideal) (blk V c 0 t) (blk V c 1 t) (blk V c 2 t) (blk V c 3 t) (blk V c 4 t) acc (ix2 r e)
      = acc (ix2 r e) + contribAt V c r e t.val := by
  rw [headAdd_apply, q_slab, k_slab, v_slab, m_slab]
  unfold contribAt contrib
  rw [dif_pos t.isLt]
  exact congrArg (acc (ix2 r e) + ·) (Finset.sum_congr rfl fun d _ => congrArg (_ * ·) (wmat V c t d e))

/-- The accumulator after point n: zero plus the contributions of n's group so far. -/
theorem accAfter_apply (c : Dev nD) (r : Fin 512) (e : Fin 1024) : ∀ (n : ℕ) (hn : n < cfg1.N),
    accAfter V c n hn (ix2 r e) = 0 + ∑ k ∈ Finset.range (n % 16 + 1), contribAt V c r e (n - n % 16 + k)
  | 0, hn => by
    rw [accAfter_first V c ⟨0, hn⟩ (Nat.zero_mod _), step_apply, zeroAcc_apply]
    simp
  | n + 1, hn => by
    by_cases h0 : (n + 1) % 16 = 0
    · rw [accAfter_first V c ⟨n + 1, hn⟩ h0, step_apply, zeroAcc_apply, h0]
      simp
    · rw [accAfter_next V c ⟨n + 1, hn⟩ h0, step_apply]
      show accAfter V c n _ (ix2 r e) + _ = _
      rw [accAfter_apply c r e n (Nat.lt_of_succ_lt hn)]
      have e1 : (n + 1) % 16 = n % 16 + 1 := by omega
      have e2 : n + 1 - (n % 16 + 1) = n - n % 16 := by omega
      have e3 : n - n % 16 + (n % 16 + 1) = n + 1 := by omega
      rw [e1, e2, Finset.sum_range_succ (n := n % 16 + 1), e3, add_assoc]

/-- After a last head: zero plus the sum over the 16 heads. -/
theorem accAfter_last (c : Dev nD) (t : Fin cfg1.N) (h1 : t.val % 16 = 15) (r : Fin 512) (e : Fin 1024) :
    accAfter V c t.val t.isLt (ix2 r e) = 0 + ∑ h : Fin 16, contrib V c (pB t) (pQ t) h r e := by
  rw [accAfter_apply V c r e t.val t.isLt, h1, Finset.sum_range]
  refine congrArg (0 + ·) (Finset.sum_congr rfl fun h _ => ?_)
  have hN : t.val < 128 := lt_of_lt_of_eq t.isLt N128
  have hb : t.val - 15 + h.val < cfg1.N := lt_of_lt_of_eq (show t.val - 15 + h.val < 128 by have := h.isLt; omega) N128.symm
  unfold contribAt
  rw [dif_pos hb]
  have eB : pB ⟨t.val - 15 + h.val, hb⟩ = pB t := Fin.ext (by show (t.val - 15 + h.val) / 64 = t.val / 64; have := h.isLt; omega)
  have eQ : pQ ⟨t.val - 15 + h.val, hb⟩ = pQ t := Fin.ext (by show (t.val - 15 + h.val) / 16 % 4 = t.val / 16 % 4; have := h.isLt; omega)
  have eH : pH ⟨t.val - 15 + h.val, hb⟩ = h := Fin.ext (by show (t.val - 15 + h.val) % 16 = h.val; have := h.isLt; omega)
  rw [eB, eQ, eH]

end Cert.KernelIdeal.Attn

end
-- ==== Proof.AttnFinalIdeal.lean ====
/-
  The result array after the attention launch. Only the last head of each group of 16 points writes the output
  block back, and block (b, qb) is rows 512 qb .. 512 qb + 511 of batch b; the 8 groups' blocks cover the
  [2, 2048, 1024] array. So the array ends, at (b, s, e), at zero plus the sum over the 16 heads of the head's
  contribution at row s mod 512 of query block s / 512, plus the bias at e.
-/
import proofs.«133163_j69827578298917_2_alg».proof.Proof.AttnSumIdeal

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.AttnMath
open Idealize.ShloMosaic.Pipeline (Dat)

variable (V : (c : Dev nD) → (b : Ref sig .tc) → Buf (Elt Ideal) ((c : Thread nD τ).loc b))

/-- The result at (b, s, e). -/
def outSpec (c : Dev nD) : S2x2048x1024.Idx → EReal := fun i =>
  (0 + ∑ h : Fin 16, contrib V c ⟨(i 0).val, (i 0).isLt⟩ ⟨(i 1).val / 512, by have h : (i 1).val < 2048 := (i 1).isLt; omega⟩ h
      ⟨(i 1).val % 512, by omega⟩ ⟨(i 2).val, (i 2).isLt⟩)
    + V c main_v3 (ix2 (0 : Fin 1) ⟨(i 2).val, (i 2).isLt⟩)

/-- What a last head's point leaves in the output block, at (0, r, e), is the result at (b, 512 qb + r, e). -/
theorem out_point (c : Dev nD) (t : Fin cfg1.N) (h1 : t.val % 16 = 15) (r : Fin 512) (e : Fin 1024) :
    withBias (F := Ideal) (accAfter V c t.val t.isLt) (blk V c 5 t) (ix3 (0 : Fin 1) r e) = outSpec V c (ix3 (pB t) (seqRow (pQ t) r) e) := by
  rw [withBias_apply, accAfter_last V c t h1, bvec]
  unfold outSpec
  have eq : (⟨(seqRow (pQ t) r).val / 512, by have := (pQ t).isLt; have := r.isLt; show (_ * 512 + _) / 512 < 4; omega⟩ : Fin 4) = pQ t :=
    Fin.ext (by show ((pQ t).val * 512 + r.val) / 512 = (pQ t).val; have := r.isLt; omega)
  have er : (⟨(seqRow (pQ t) r).val % 512, by omega⟩ : Fin 512) = r :=
    Fin.ext (by show ((pQ t).val * 512 + r.val) % 512 = r.val; have := r.isLt; omega)
  show _ = (0 + ∑ h : Fin 16, contrib V c (pB t) ⟨(seqRow (pQ t) r).val / 512, _⟩ h ⟨(seqRow (pQ t) r).val % 512, _⟩ e) + V c main_v3 (ix2 (0 : Fin 1) e)
  rw [eq, er]

/-- What a flushing point writes back is its block of the result. -/
theorem out_flushed (c : Dev nD) (t : Fin cfg1.N) (hf : (cfg1.win 6).flush t = true) :
    (dat V c).flushed 6 t = ((cfg1.win 6).blk t).view.read (Elt Ideal) (outSpec V c) := by
  have h1 : t.val % 16 = 15 := (flush1_6 t).mp hf
  show (cfg1.win 6).cut (grid1.coords t) ((dat V c).after 6 t) = _
  rw [after_6, stateAt_out V c t h1]
  obtain ⟨e0, e1, e2⟩ := idx_o t
  funext j
  show withBias (F := Ideal) (accAfter V c t.val t.isLt) (blk V c 5 t) j = outSpec V c (((cfg1.win 6).blk t).view.emb j)
  have hj0 : (j 0).val < 1 := (j 0).isLt
  have hj1 : (j 1).val < 512 := (j 1).isLt
  have hj2 : (j 2).val < 1024 := (j 2).isLt
  have hj : j = ix3 (0 : Fin 1) ⟨(j 1).val, hj1⟩ ⟨(j 2).val, hj2⟩ := funext fun a => Fin.ext (by
    match a with
    | ⟨0, _⟩ => show (j 0).val = 0; omega
    | ⟨1, _⟩ => rfl
    | ⟨2, _⟩ => rfl)
  have hemb : ((cfg1.win 6).blk t).view.emb j = ix3 (pB t) (seqRow (pQ t) ⟨(j 1).val, hj1⟩) ⟨(j 2).val, hj2⟩ := funext fun a => Fin.ext (by
    match a with
    | ⟨0, _⟩ => show win1_6.index t 0 * 1 + 1 * (j 0).val = t.val / 64; rw [e0]; omega
    | ⟨1, _⟩ => show win1_6.index t 1 * 512 + 1 * (j 1).val = t.val / 16 % 4 * 512 + (j 1).val; rw [e1]; omega
    | ⟨2, _⟩ => show win1_6.index t 2 * 1024 + 1 * (j 2).val = (j 2).val; rw [e2]; omega)
  rw [hemb]
  exact (congrArg (withBias (F := Ideal) (accAfter V c t.val t.isLt) (blk V c 5 t)) hj).trans (out_point V c t h1 _ _)

/-- An index of the result is in point `t`'s block iff each coordinate is in the block's range. -/
theorem mem_out (t : Fin cfg1.N) (i : S2x2048x1024.Idx) :
    i ∈ ((cfg1.win 6).blk t).view.set ↔ ∀ a : Fin 3, win1_6.index t a * S1x512x1024.size a ≤ (i a).val ∧ (i a).val < win1_6.index t a * S1x512x1024.size a + S1x512x1024.size a := by
  show i ∈ ((View.whole main_v19).slice (win1_6.rect t)).set ↔ _
  rw [View.set_slice_whole, Rect.mem_set_unit]
  exact Iff.rfl

/-- THE RESULT ARRAY after the launch. -/
theorem out_final (c : Dev nD) : (dat V c).arrAt 6 cfg1.N = outSpec V c :=
  (dat V c).arrAt_eq_of_cover 6 (outSpec V c) (out_flushed V c) fun i => by
    have hi0 : (i 0).val < 2 := (i 0).isLt
    have hi1 : (i 1).val < 2048 := (i 1).isLt
    have hi2 : (i 2).val < 1024 := (i 2).isLt
    have hb : ((i 0).val * 4 + (i 1).val / 512) * 16 + 15 < cfg1.N := lt_of_lt_of_eq (by omega) N128.symm
    refine ⟨⟨((i 0).val * 4 + (i 1).val / 512) * 16 + 15, hb⟩, (flush1_6 _).mpr (by show (((i 0).val * 4 + (i 1).val / 512) * 16 + 15) % 16 = 15; omega), ?_⟩
    rw [mem_out]
    obtain ⟨e0, e1, e2⟩ := idx_o ⟨((i 0).val * 4 + (i 1).val / 512) * 16 + 15, hb⟩
    intro a
    match a with
    | ⟨0, _⟩ =>
      show win1_6.index _ 0 * 1 ≤ (i 0).val ∧ (i 0).val < win1_6.index _ 0 * 1 + 1
      rw [e0]; show (((i 0).val * 4 + (i 1).val / 512) * 16 + 15) / 64 * 1 ≤ (i 0).val ∧ (i 0).val < (((i 0).val * 4 + (i 1).val / 512) * 16 + 15) / 64 * 1 + 1
      omega
    | ⟨1, _⟩ =>
      show win1_6.index _ 1 * 512 ≤ (i 1).val ∧ (i 1).val < win1_6.index _ 1 * 512 + 512
      rw [e1]; show (((i 0).val * 4 + (i 1).val / 512) * 16 + 15) / 16 % 4 * 512 ≤ (i 1).val ∧ (i 1).val < (((i 0).val * 4 + (i 1).val / 512) * 16 + 15) / 16 % 4 * 512 + 512
      omega
    | ⟨2, _⟩ =>
      show win1_6.index _ 2 * 1024 ≤ (i 2).val ∧ (i 2).val < win1_6.index _ 2 * 1024 + 1024
      rw [e2]; omega

end Cert.KernelIdeal.Attn

end
-- ==== Proof.ProjValueIdeal.lean ====
/-
  The projection launch's result array. Point number t (0..23) is weight block t / 8 and row block t mod 8; it
  writes back the 512 x 1024 block (t mod 8, t / 8) of the [4096, 3072] result, the product of rows
  512 (t mod 8) .. of the flattened activations with columns 1024 (t / 8) .. of the transposed weights. The 24
  blocks cover the result, so it ends, at (R, n), at Σ_j A(R, j) · W(j, n).
-/
import proofs.«133163_j69827578298917_2_alg».proof.Proof.ProjectionIdeal
import proofs.«133163_j69827578298917_2_alg».proof.Proof.AttnMathIdeal

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.AttnMath
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem N24 : cfg0.N = 24 := N_0

theorem mmProj_l0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem mmProj_l1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem mmProj_r0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem mmProj_r1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl
/-- The 512 x 1024 by 1024 x 1024 product into the zero block, at (i, j): the sum over the contracted axis. -/
theorem mmProj {φ₁ φ₂ : FTy} (l : FVec Ideal S512x1024 φ₁) (r : FVec Ideal S1024x1024 φ₂) (i : Fin 512) (j : Fin 1024)
    (L R : Fin 1024 → EReal) (hl : ∀ q, l (ix2 i q) = L q) (hr : ∀ q, r (ix2 q j) = R q) :
    matmul dot_S512x1024_S1024x1024_S512x1024_1_0_0_1_n_n none l r (constant S512x1024 .f32 0x00000000#32) (ix2 i j) = ∑ q : Fin 1024, L q * R q := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun q _ => ?_
  have hk := ValueIdx.contrEquiv1_symm_val dot_S512x1024_S1024x1024_S512x1024_1_0_0_1_n_n 1024 rfl rfl q
  have el : dot_S512x1024_S1024x1024_S512x1024_1_0_0_1_n_n.lhsIdx (ix2 i j) ((ValueIdx.contrEquiv1 dot_S512x1024_S1024x1024_S512x1024_1_0_0_1_n_n 1024 rfl rfl).symm q) = ix2 i q := funext fun c => Fin.ext (by
    match c with
    | ⟨0, _⟩ => exact mmProj_l0 _ _
    | ⟨1, _⟩ => exact (mmProj_l1 _ _).trans hk)
  have er : dot_S512x1024_S1024x1024_S512x1024_1_0_0_1_n_n.rhsIdx (ix2 i j) ((ValueIdx.contrEquiv1 dot_S512x1024_S1024x1024_S512x1024_1_0_0_1_n_n 1024 rfl rfl).symm q) = ix2 q j := funext fun c => Fin.ext (by
    match c with
    | ⟨0, _⟩ => exact (mmProj_r0 _ _).trans hk
    | ⟨1, _⟩ => exact mmProj_r1 _ _)
  rw [el, er, hl q, hr q]

/-- The body's product block at (r, n). -/
theorem pay_apply (x0 : FVec Ideal S512x1024 .f32) (x1 : FVec Ideal S1024x1024 .f32) (r : Fin 512) (n : Fin 1024) :
    k0_pay1 (F := Ideal) x0 x1 (ix2 r n) = ∑ j : Fin 1024, x0 (ix2 r j) * x1 (ix2 j n) := by
  unfold k0_pay1
  rw [truncf_apply]
  exact mmProj _ _ r n _ _ (fun j => by rw [truncf_apply, shapeCast_self]) (fun j => by rw [truncf_apply, shapeCast_self])

/-- What the body leaves in the output block is that product block. -/
theorem prod_eq (x0 : Vec Ideal S512x1024 .f32) (x1 : Vec Ideal S1024x1024 .f32) : prod (F := Ideal) x0 x1 = k0_pay1 (F := Ideal) x0 x1 := by
  unfold prod
  rw [View.canon_unit_zero hz2]
  simp only [View.ld_unit_zero (S := S512x1024) hz2, View.ld_unit_zero (S := S1024x1024) hz2]

theorem idx0 : ∀ t : Fin cfg0.N, win0_0.index t 0 = t.val % 8 ∧ win0_0.index t 1 = 0 ∧ win0_1.index t 0 = 0 ∧ win0_1.index t 1 = t.val / 8
    ∧ win0_2.index t 0 = t.val % 8 ∧ win0_2.index t 1 = t.val / 8 :=
  (by decide +kernel : ∀ t : Fin grid0.N, win0_0.index t 0 = t.val % 8 ∧ win0_0.index t 1 = 0 ∧ win0_1.index t 0 = 0 ∧ win0_1.index t 1 = t.val / 8
    ∧ win0_2.index t 0 = t.val % 8 ∧ win0_2.index t 1 = t.val / 8)

/-- The two arrays the launch reads, as arrays of extended reals. -/
def flatA (c : Dev nD) : S4096x1024.Idx → EReal := V c main_v4
def wT (c : Dev nD) : S1024x3072.Idx → EReal := V c main_v0

/-- The result at (R, n). -/
def projSpec (c : Dev nD) : S4096x3072.Idx → EReal := fun i =>
  ∑ j : Fin 1024, flatA V c (ix2 ⟨(i 0).val, (i 0).isLt⟩ j) * wT V c (ix2 j ⟨(i 1).val, (i 1).isLt⟩)

theorem proj_flushed (c : Dev nD) (t : Fin cfg0.N) (_hf : (cfg0.win 2).flush t = true) :
    (dat V c).flushed 2 t = ((cfg0.win 2).blk t).view.read (Elt Ideal) (projSpec V c) := by
  show (cfg0.win 2).cut (grid0.coords t) ((dat V c).after 2 t) = _
  rw [after_prod, prod_eq]
  obtain ⟨a0, a1, b0, b1, o0, o1⟩ := idx0 t
  have hN : t.val < 24 := lt_of_lt_of_eq t.isLt N24
  funext j
  show k0_pay1 (F := Ideal) (blk V c 0 t) (blk V c 1 t) j = projSpec V c (((cfg0.win 2).blk t).view.emb j)
  have hj0 : (j 0).val < 512 := (j 0).isLt
  have hj1 : (j 1).val < 1024 := (j 1).isLt
  have hj : j = ix2 (⟨(j 0).val, hj0⟩ : Fin 512) (⟨(j 1).val, hj1⟩ : Fin 1024) := funext fun a => Fin.ext (by
    match a with
    | ⟨0, _⟩ => rfl
    | ⟨1, _⟩ => rfl)
  refine (congrArg (k0_pay1 (F := Ideal) (blk V c 0 t) (blk V c 1 t)) hj).trans ((pay_apply _ _ _ _).trans ?_)
  unfold projSpec flatA wT
  refine Finset.sum_congr rfl fun q _ => congrArg₂ (· * ·) ?_ ?_
  · unfold blk
    rw [View.read_apply]
    refine congrArg (V c main_v4) (funext fun a => Fin.ext ?_)
    match a with
    | ⟨0, _⟩ => show win0_0.index t 0 * 512 + 1 * (j 0).val = win0_2.index t 0 * 512 + 1 * (j 0).val; rw [a0, o0]
    | ⟨1, _⟩ => show win0_0.index t 1 * 1024 + 1 * q.val = q.val; rw [a1]; omega
  · unfold blk
    rw [View.read_apply]
    refine congrArg (V c main_v0) (funext fun a => Fin.ext ?_)
    match a with
    | ⟨0, _⟩ => show win0_1.index t 0 * 1024 + 1 * q.val = q.val; rw [b0]; omega
    | ⟨1, _⟩ => show win0_1.index t 1 * 1024 + 1 * (j 1).val = win0_2.index t 1 * 1024 + 1 * (j 1).val; rw [b1, o1]

theorem mem_proj (t : Fin cfg0.N) (i : S4096x3072.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v5).slice (win0_2.rect t)).set ↔ _
  rw [View.set_slice_whole, Rect.mem_set_unit]
  exact Iff.rfl

/-- THE PROJECTION'S RESULT ARRAY after the launch. -/
theorem proj_final (c : Dev nD) : (dat V c).arrAt 2 cfg0.N = projSpec V c :=
  (dat V c).arrAt_eq_of_cover 2 (projSpec V c) (proj_flushed V c) fun i => by
    have hi0 : (i 0).val < 4096 := (i 0).isLt
    have hi1 : (i 1).val < 3072 := (i 1).isLt
    have hb : (i 1).val / 1024 * 8 + (i 0).val / 512 < cfg0.N := lt_of_lt_of_eq (by omega) N24.symm
    refine ⟨⟨(i 1).val / 1024 * 8 + (i 0).val / 512, hb⟩, flush0_2 _, ?_⟩
    rw [mem_proj]
    obtain ⟨-, -, -, -, o0, o1⟩ := idx0 ⟨(i 1).val / 1024 * 8 + (i 0).val / 512, hb⟩
    intro a
    match a with
    | ⟨0, _⟩ =>
      show win0_2.index _ 0 * 512 ≤ (i 0).val ∧ (i 0).val < win0_2.index _ 0 * 512 + 512
      rw [o0]; show ((i 1).val / 1024 * 8 + (i 0).val / 512) % 8 * 512 ≤ (i 0).val ∧ (i 0).val < ((i 1).val / 1024 * 8 + (i 0).val / 512) % 8 * 512 + 512
      omega
    | ⟨1, _⟩ =>
      show win0_2.index _ 1 * 1024 ≤ (i 1).val ∧ (i 1).val < win0_2.index _ 1 * 1024 + 1024
      rw [o1]; show ((i 1).val / 1024 * 8 + (i 0).val / 512) / 8 * 1024 ≤ (i 1).val ∧ (i 1).val < ((i 1).val / 1024 * 8 + (i 0).val / 512) / 8 * 1024 + 1024
      omega

end Cert.KernelIdeal.Proj

end
-- ==== Proof.HostValueIdeal.lean ====
/-
  The arrays the two launches read, in terms of the arguments (at the Ideal instance; a change of float format
  is the identity). The projection launch reads the activations flattened to [4096, 1024] and the projection
  weights transposed; its result, reshaped to [2, 2048, 3072], is at (b, t, n) the sum over j of x(b, t, j)
  times w(n, j) — the reference's first stage. The query, key and value arrays are that stage sliced, reshaped to
  heads and transposed, exactly as the reference forms them, so they are the reference's stages. The memory
  array is at (h, k, d) the memory argument at (k, 64 h + d); the output weights the attention launch reads are
  the output weights transposed; its bias row is the bias. The program's result array is `outSpec` of these.
-/
import proofs.«133163_j69827578298917_2_alg».proof.Proof.WholeIdeal
import proofs.«133163_j69827578298917_2_alg».proof.Proof.AttnFinalIdeal
import proofs.«133163_j69827578298917_2_alg».proof.Proof.ProjValueIdeal
import proofs.«133163_j69827578298917_2_alg».proof.Proof.Gen.ReferenceIdeal.Read
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.AttnMath Cert.KernelIdeal.Attn

variable (m : (ℓ : Loc nD τ sig) → Buf (Elt Ideal) ℓ)

/-- The five arguments on core `c`, as arrays of extended reals. -/
abbrev aX (c : Dev nD) : S2x2048x1024.Idx → EReal := m ((c : Thread nD τ).loc main_arg0)
abbrev aWqkv (c : Dev nD) : S3072x1024.Idx → EReal := m ((c : Thread nD τ).loc main_arg1)
abbrev aWout (c : Dev nD) : S1024x1024.Idx → EReal := m ((c : Thread nD τ).loc main_arg2)
abbrev aBias (c : Dev nD) : S1024.Idx → EReal := m ((c : Thread nD τ).loc main_arg3)
abbrev aMem (c : Dev nD) : S512x1024.Idx → EReal := m ((c : Thread nD τ).loc main_arg4)

theorem flat_eq (c : Dev nD) : (V1 m c main_v4 : S4096x1024.Idx → EReal)
    = shapeCast S4096x1024 (aX m c) shapeCasts_S2x2048x1024_S4096x1024 := by
  show StableHlo.after hostOps0 (fun b => m (c, b)) (Proc.devRef .tc main_v4) = _
  after_results <;> rfl

theorem wqkvT_eq (c : Dev nD) : (V1 m c main_v0 : S1024x3072.Idx → EReal)
    = transpose S1024x3072 [1, 0] (aWqkv m c) transposes_S3072x1024_S1024x3072_1_0 := by
  show StableHlo.after hostOps0 (fun b => m (c, b)) (Proc.devRef .tc main_v0) = _
  after_results <;> rfl

/-- The projection launch's result array. -/
theorem proj_arr (c : Dev nD) : (W2 m c (Proc.devRef .tc main_v5) : S4096x3072.Idx → EReal) = Proj.projSpec (V1 m) c :=
  (W2_arr m c 2).trans (Proj.proj_final (V1 m) c)

/-- Row (b, t) of the batch as a row of the flattened activations. -/
def flatRow (b : Fin 2) (t : Fin 2048) : Fin 4096 := ⟨b.val * 2048 + t.val, by have := b.isLt; have := t.isLt; omega⟩

/-- The projection result reshaped is the reference's first stage. -/
theorem qkv_eq (c : Dev nD) :
    shapeCast S2x2048x3072 (W2 m c (Proc.devRef .tc main_v5) : S4096x3072.Idx → EReal) shapeCasts_S4096x3072_S2x2048x3072
      = Cert.ReferenceIdeal.Read.val_main_v0 (F := Ideal) (aX m c) (aWqkv m c) := by
  funext i
  obtain ⟨b, t, n, rfl⟩ : ∃ (b : Fin 2) (t : Fin 2048) (n : Fin 3072), i = ix3 b t n := ⟨i 0, i 1, i 2, eq_ix3 i⟩
  refine (shapeCast_apply _ _ (ix3 b t n) (ix2 (flatRow b t) n) (by
    rw [Shape.rowMajor_val_two, Shape.rowMajor_val_three]; rfl)).trans ?_
  refine (congrFun (proj_arr m c) _).trans ?_
  refine Eq.trans ?_ (Cert.ReferenceIdeal.Read.val_main_v0_apply (aX m c) (aWqkv m c) (ix3 b t n)).symm
  unfold Proj.projSpec Proj.flatA Proj.wT
  show @Eq EReal _ _
  refine Finset.sum_congr rfl fun j _ => congrArg₂ (· * ·) ?_ ?_
  · refine (congrFun (flat_eq m c) _).trans ?_
    refine (shapeCast_apply _ _ (ix2 (flatRow b t) j) (ix3 b t j) (by
      rw [Shape.rowMajor_val_two, Shape.rowMajor_val_three]; rfl)).trans ?_
    exact congrArg (aX m c) (funext fun a => Fin.ext (by match a with | ⟨0, _⟩ => rfl | ⟨1, _⟩ => rfl | ⟨2, _⟩ => rfl))
  · refine (congrFun (wqkvT_eq m c) _).trans ?_
    refine (transpose_ix2_apply _ _ j n).trans ?_
    exact congrArg (aWqkv m c) (funext fun a => Fin.ext (by match a with | ⟨0, _⟩ => rfl | ⟨1, _⟩ => rfl))

/-- The query, key and value arrays are the reference's stages. -/
theorem q_arr (c : Dev nD) : (V3 m c main_v11 : S2x16x2048x64.Idx → EReal) = Cert.ReferenceIdeal.Read.val_main_v5 (F := Ideal) (aX m c) (aWqkv m c) := by
  show StableHlo.after hostOps1 (W2 m c) (Proc.devRef .tc main_v11) = _
  after_results
  unfold Cert.ReferenceIdeal.Read.val_main_v5 Cert.ReferenceIdeal.Read.val_main_v4 Cert.ReferenceIdeal.Read.val_main_v1
  rw [← qkv_eq]
  rfl
theorem k_arr (c : Dev nD) : (V3 m c main_v13 : S2x16x2048x64.Idx → EReal) = Cert.ReferenceIdeal.Read.val_main_v7 (F := Ideal) (aX m c) (aWqkv m c) := by
  show StableHlo.after hostOps1 (W2 m c) (Proc.devRef .tc main_v13) = _
  after_results
  unfold Cert.ReferenceIdeal.Read.val_main_v7 Cert.ReferenceIdeal.Read.val_main_v6 Cert.ReferenceIdeal.Read.val_main_v2
  rw [← qkv_eq]
  rfl
theorem v_arr (c : Dev nD) : (V3 m c main_v15 : S2x16x2048x64.Idx → EReal) = Cert.ReferenceIdeal.Read.val_main_v9 (F := Ideal) (aX m c) (aWqkv m c) := by
  show StableHlo.after hostOps1 (W2 m c) (Proc.devRef .tc main_v15) = _
  after_results
  unfold Cert.ReferenceIdeal.Read.val_main_v9 Cert.ReferenceIdeal.Read.val_main_v8 Cert.ReferenceIdeal.Read.val_main_v3
  rw [← qkv_eq]
  rfl

/-- The memory argument passes the projection launch and the first stretch untouched. -/
theorem mem_kept (c : Dev nD) : (W2 m c (Proc.devRef .tc main_arg4) : S512x1024.Idx → EReal) = aMem m c :=
  (W2_of_ne m c main_arg4 (by decide)).trans (StableHlo.after_of_writes_sub hostOps0 _ hostOps0_writes (by decide))

/-- The memory array at (h, k, d) is the memory argument at (k, 64 h + d). -/
theorem mem_arr (c : Dev nD) (h : Fin 16) (k : Fin 512) (d : Fin 64) :
    (V3 m c main_v18 : S16x512x64.Idx → EReal) (ix3 h k d) = aMem m c (ix2 k (headCol h d)) := by
  have e : (V3 m c main_v18 : S16x512x64.Idx → EReal)
      = truncf (F := Ideal) .bf16 (transpose S16x512x64 [1, 0, 2] (shapeCast S512x16x64 (W2 m c (Proc.devRef .tc main_arg4) : S512x1024.Idx → EReal) shapeCasts_S512x1024_S512x16x64) transposes_S512x16x64_S16x512x64_1_0_2) bitsLt_bf16_f32 := by
    show StableHlo.after hostOps1 (W2 m c) (Proc.devRef .tc main_v18) = _
    after_results <;> rfl
  rw [e, mem_kept]
  show transpose S16x512x64 [1, 0, 2] (shapeCast S512x16x64 (aMem m c) shapeCasts_S512x1024_S512x16x64) transposes_S512x16x64_S16x512x64_1_0_2 (ix3 h k d) = _
  rw [transpose_apply _ _ _ (ix3 h k d) (ix3 k h d) (fun a => match a with | ⟨0, _⟩ => rfl | ⟨1, _⟩ => rfl | ⟨2, _⟩ => rfl)]
  exact shapeCast_apply _ _ (ix3 k h d) (ix2 k (headCol h d)) (by
    rw [Shape.rowMajor_val_two, Shape.rowMajor_val_three]
    show k.val * 1024 + (h.val * 64 + d.val) = (k.val * 16 + h.val) * 64 + d.val
    omega)

/-- The output weights the attention launch reads, at (j, e), are the output weights at (e, j). -/
theorem wout_arr (c : Dev nD) (j e : Fin 1024) : (V3 m c main_v2 : S1024x1024.Idx → EReal) (ix2 j e) = aWout m c (ix2 e j) := by
  have e1 : (V3 m c main_v2 : S1024x1024.Idx → EReal) = (V1 m c main_v2 : S1024x1024.Idx → EReal) :=
    (StableHlo.after_of_writes_sub hostOps1 _ hostOps1_writes (by decide)).trans (W2_of_ne m c main_v2 (by decide))
  have e2 : (V1 m c main_v2 : S1024x1024.Idx → EReal)
      = truncf (F := Ideal) .bf16 (transpose S1024x1024 [1, 0] (aWout m c) transposes_S1024x1024_S1024x1024_1_0) bitsLt_bf16_f32 := by
    show StableHlo.after hostOps0 (fun b => m (c, b)) (Proc.devRef .tc main_v2) = _
    after_results <;> rfl
  rw [e1, e2]
  exact transpose_ix2_apply _ _ j e

/-- The bias row at (0, e) is the bias at e. -/
theorem bias_arr (c : Dev nD) (e : Fin 1024) : (V3 m c main_v3 : S1x1024.Idx → EReal) (ix2 (0 : Fin 1) e) = aBias m c (ix1 e) := by
  have e1 : (V3 m c main_v3 : S1x1024.Idx → EReal) = (V1 m c main_v3 : S1x1024.Idx → EReal) :=
    (StableHlo.after_of_writes_sub hostOps1 _ hostOps1_writes (by decide)).trans (W2_of_ne m c main_v3 (by decide))
  have e2 : (V1 m c main_v3 : S1x1024.Idx → EReal) = shapeCast S1x1024 (aBias m c) shapeCasts_S1024_S1x1024 := by
    show StableHlo.after hostOps0 (fun b => m (c, b)) (Proc.devRef .tc main_v3) = _
    after_results <;> rfl
  rw [e1, e2]
  exact shapeCast_a_1a_apply _ _ (0 : Fin 1) e

/-- The program's result array. -/
theorem result_arr (c : Dev nD) : (W4 m c (Proc.devRef .tc main_v19) : S2x2048x1024.Idx → EReal) = outSpec (V3 m) c :=
  (W4_arr m c 6).trans (out_final (V3 m) c)

end Cert.KernelIdeal.Whole

end
-- ==== Proof.RowLaw.lean ====
/-
  The law of one attention row over the extended reals, with no program in sight. A row has real scores
  against the memory keys (`sM`) and against the token keys (`sT`), and real values `vM`, `vT` for one output
  column. One side takes the row maximum as the larger of the two parts' maxima, exponentiates each part
  against it, and divides the sum of the two weighted value sums by the sum of the two exponential sums. The
  other side works on the concatenated row (memory first): the maximum over the whole row, the exponentials,
  their sum from zero, each exponential divided by that sum, and the sum of those quotients times the values.
  Over the reals both are (Σ e·v)/(Σ e) with e = exp(s − max): the maximum of a concatenation is the larger of
  the parts' maxima, a sum over a concatenation splits, and a positive real divisor distributes over a finite
  sum of reals. Also here: the three float literals the two programs spell, as extended reals.
-/
import Idealize.ShloMosaic.PureOps.Ideal
import Idealize.ShloMosaic.PureOps.Ideal.Laws

noncomputable section

namespace Cert.RowLaw

open Idealize.ShloMosaic

/-- The scale 0.125 denotes the real 1/8. -/
theorem scale_eq : Ideal.ofBits .f32 0x3E000000#32 = ((1 / 8 : ℝ) : EReal) := by
  simp [Ideal.ofBits, Ideal.ieee, -EReal.coe_mul]; norm_num

/-- The pattern of negative infinity denotes the bottom element. -/
theorem negInf_eq : Ideal.ofBits .f32 0xFF800000#32 = (⊥ : EReal) := by
  simp [Ideal.ofBits, Ideal.ieee]

/-- A real-valued finite sum, as an extended real, is the sum of the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The running maximum from the bottom over a concatenated row is the larger of the two parts' running maxima. -/
theorem fold_max_append {m n : ℕ} (f : Fin (m + n) → EReal) :
    (Finset.univ : Finset (Fin (m + n))).fold max ⊥ f
      = max ((Finset.univ : Finset (Fin m)).fold max ⊥ fun j => f (Fin.castAdd n j))
            ((Finset.univ : Finset (Fin n)).fold max ⊥ fun j => f (Fin.natAdd m j)) := by
  apply le_antisymm
  · rw [Finset.fold_max_le]
    refine ⟨bot_le, fun x _ => ?_⟩
    induction x using Fin.addCases with
    | left j => exact le_max_of_le_left (Finset.le_fold_max _ |>.mpr (Or.inr ⟨j, Finset.mem_univ _, le_rfl⟩))
    | right j => exact le_max_of_le_right (Finset.le_fold_max _ |>.mpr (Or.inr ⟨j, Finset.mem_univ _, le_rfl⟩))
  · refine max_le ?_ ?_
    · rw [Finset.fold_max_le]
      exact ⟨bot_le, fun j _ => Finset.le_fold_max _ |>.mpr (Or.inr ⟨_, Finset.mem_univ _, le_rfl⟩)⟩
    · rw [Finset.fold_max_le]
      exact ⟨bot_le, fun j _ => Finset.le_fold_max _ |>.mpr (Or.inr ⟨_, Finset.mem_univ _, le_rfl⟩)⟩

/-- The running maximum of finitely many reals, at least one, is a real. -/
theorem fold_max_real {n : ℕ} (hn : 0 < n) (f : Fin n → ℝ) :
    ∃ M : ℝ, (Finset.univ : Finset (Fin n)).fold max ⊥ (fun j => (f j : EReal)) = (M : EReal) := by
  have hb : (Finset.univ : Finset (Fin n)).fold max ⊥ (fun j => (f j : EReal)) ≠ ⊥ := by
    have h : ((f ⟨0, hn⟩ : ℝ) : EReal) ≤ (Finset.univ : Finset (Fin n)).fold max ⊥ (fun j => (f j : EReal)) :=
      Finset.le_fold_max _ |>.mpr (Or.inr ⟨⟨0, hn⟩, Finset.mem_univ _, le_rfl⟩)
    intro e; rw [e] at h; exact absurd (le_bot_iff.mp h) (EReal.coe_ne_bot _)
  have ht : (Finset.univ : Finset (Fin n)).fold max ⊥ (fun j => (f j : EReal)) ≠ ⊤ := by
    have h : (Finset.univ : Finset (Fin n)).fold max ⊥ (fun j => (f j : EReal)) < ⊤ :=
      Finset.fold_max_lt _ |>.mpr ⟨bot_lt_top, fun j _ => EReal.coe_lt_top _⟩
    exact ne_of_lt h
  exact ⟨_, (EReal.coe_toReal ht hb).symm⟩

/-- THE ROW LAW. -/
theorem row_eq {Km Kt : ℕ} (hKt : 0 < Kt) (sM vM : Fin Km → ℝ) (sT vT : Fin Kt → ℝ)
    (sC vC : Fin (Km + Kt) → EReal)
    (hsM : ∀ j, sC (Fin.castAdd Kt j) = (sM j : EReal)) (hsT : ∀ j, sC (Fin.natAdd Km j) = (sT j : EReal))
    (hvM : ∀ j, vC (Fin.castAdd Kt j) = (vM j : EReal)) (hvT : ∀ j, vC (Fin.natAdd Km j) = (vT j : EReal)) :
    let mx : EReal := max ((Finset.univ : Finset (Fin Kt)).fold max ⊥ fun j => (sT j : EReal))
                          ((Finset.univ : Finset (Fin Km)).fold max ⊥ fun j => (sM j : EReal))
    let mxR : EReal := max ⊥ ((Finset.univ : Finset (Fin (Km + Kt))).fold max ⊥ sC)
    Ideal.div ((∑ j : Fin Kt, Ideal.exp ((sT j : EReal) - mx) * (vT j : EReal)) + ∑ j : Fin Km, Ideal.exp ((sM j : EReal) - mx) * (vM j : EReal))
        ((∑ j : Fin Kt, Ideal.exp ((sT j : EReal) - mx)) + ∑ j : Fin Km, Ideal.exp ((sM j : EReal) - mx))
      = ∑ j : Fin (Km + Kt), Ideal.div (Ideal.exp (sC j - mxR)) (0 + ∑ j : Fin (Km + Kt), Ideal.exp (sC j - mxR)) * vC j := by
  intro mx mxR
  -- the two maxima agree, and are a real
  have hmx : mxR = mx := by
    show max ⊥ _ = max _ _
    rw [max_eq_right bot_le, fold_max_append, max_comm]
    simp only [hsT, hsM]
  obtain ⟨MT, hMT⟩ := fold_max_real hKt sT
  have hM : ∃ M : ℝ, mx = (M : EReal) := by
    show ∃ M : ℝ, max _ _ = _
    rw [hMT]
    by_cases hKm : 0 < Km
    · obtain ⟨MM, hMM⟩ := fold_max_real hKm sM
      rw [hMM]; exact ⟨max MT MM, (EReal.coe_strictMono.monotone.map_max).symm⟩
    · have : Km = 0 := by omega
      subst this
      exact ⟨MT, by simp⟩
  obtain ⟨M, hM⟩ := hM
  rw [hmx, hM]
  -- split the concatenated sums
  rw [Fin.sum_univ_add, Fin.sum_univ_add]
  simp only [hsM, hsT, hvM, hvT, ← EReal.coe_sub, Ideal.exp_coe]
  -- everything is real: the divisor is positive
  set eT : Fin Kt → ℝ := fun j => Real.exp (sT j - M)
  set eM : Fin Km → ℝ := fun j => Real.exp (sM j - M)
  have hpos : 0 < (∑ j, eT j) + ∑ j, eM j := by
    have h1 : 0 < ∑ j, eT j := Finset.sum_pos (fun j _ => Real.exp_pos _) ⟨⟨0, hKt⟩, Finset.mem_univ _⟩
    have h2 : 0 ≤ ∑ j, eM j := Finset.sum_nonneg fun j _ => (Real.exp_pos _).le
    linarith
  have hne : (∑ j, eT j) + ∑ j, eM j ≠ 0 := ne_of_gt hpos
  have hden : ((∑ j : Fin Kt, ((eT j : ℝ) : EReal)) + ∑ j : Fin Km, ((eM j : ℝ) : EReal)) = ((((∑ j, eT j) + ∑ j, eM j : ℝ)) : EReal) := by
    rw [EReal.coe_add, coe_sum, coe_sum]
  have hden' : (0 + ((∑ j : Fin Km, ((eM j : ℝ) : EReal)) + ∑ j : Fin Kt, ((eT j : ℝ) : EReal))) = ((((∑ j, eT j) + ∑ j, eM j : ℝ)) : EReal) := by
    rw [zero_add, add_comm, hden]
  rw [hden, hden', Ideal.div_coe hne]
  simp only [Ideal.div_coe hne, ← EReal.coe_mul, ← coe_sum, ← EReal.coe_add]
  congr 1
  rw [add_mul, Finset.sum_mul, Finset.sum_mul, add_comm]
  congr 1 <;> exact Finset.sum_congr rfl fun j _ => by ring

end Cert.RowLaw

end
-- ==== Proof.RefRow.lean ====
/-
  One row of the reference's attention, read off its stages. For batch b, head h and sequence row s the
  reference forms the scores of the row against the concatenated keys (memory first, 2560 in all), takes the
  row maximum (the larger of negative infinity and the running maximum from negative infinity), exponentiates
  against it, sums the exponentials from zero, divides, and contracts the quotients with the concatenated
  values. The concatenated keys and values read, below 512, the memory stage, and from 512 on the key or value
  stage at the coordinate less 512; the memory stage at (b, h, k, d) is the memory argument at (k, 64 h + d).
-/
import proofs.«133163_j69827578298917_2_alg».proof.Proof.Gen.ReferenceIdeal.Read
import proofs.«133163_j69827578298917_2_alg».proof.Proof.RowLaw

set_option maxRecDepth 16384

noncomputable section

namespace Cert.ReferenceIdeal.Row

open Cert.ReferenceIdeal Cert.ReferenceIdeal.Gen Cert.ReferenceIdeal.Read
open Idealize.ShloMosaic Idealize.ShloMosaic.ValueIdx

variable (x0 : (⟨S2x2048x1024, .f32⟩ : BufTy).Contents (Elt Ideal)) (x1 : (⟨S3072x1024, .f32⟩ : BufTy).Contents (Elt Ideal)) (x4 : (⟨S512x1024, .f32⟩ : BufTy).Contents (Elt Ideal))

/-- The row's scores and, for output column d, its values, on the concatenated axis. -/
def sC (b : Fin 2) (h : Fin 16) (s : Fin 2048) (j : Fin 2560) : EReal := val_main_v17 (F := Ideal) x0 x1 x4 (ix4 b h s j)
def vC (b : Fin 2) (h : Fin 16) (d : Fin 64) (j : Fin 2560) : EReal := val_main_v14 (F := Ideal) x0 x1 x4 (ix4 b h j d)
/-- The row maximum as the reference takes it. -/
def mxR (b : Fin 2) (h : Fin 16) (s : Fin 2048) : EReal := max ⊥ ((Finset.univ : Finset (Fin 2560)).fold max ⊥ (sC x0 x1 x4 b h s))

variable (b : Fin 2) (h : Fin 16) (s : Fin 2048)

theorem i22 (j : Fin 2560) : idx_main_v22 (ix4 b h s j) = ix4 b h s (0 : Fin 1) :=
  funext fun a => Fin.ext (by match a with | ⟨0, _⟩ => rfl | ⟨1, _⟩ => rfl | ⟨2, _⟩ => rfl | ⟨3, _⟩ => rfl)
theorem i27 (j : Fin 2560) : idx_main_v27 (ix4 b h s j) = ix4 b h s (0 : Fin 1) :=
  funext fun a => Fin.ext (by match a with | ⟨0, _⟩ => rfl | ⟨1, _⟩ => rfl | ⟨2, _⟩ => rfl | ⟨3, _⟩ => rfl)
theorem i21 : idx_main_v21 (ix4 b h s (0 : Fin 1)) = ix3 b h s :=
  funext fun a => Fin.ext (by match a with | ⟨0, _⟩ => rfl | ⟨1, _⟩ => rfl | ⟨2, _⟩ => rfl)
theorem i26 : idx_main_v26 (ix4 b h s (0 : Fin 1)) = ix3 b h s :=
  funext fun a => Fin.ext (by match a with | ⟨0, _⟩ => rfl | ⟨1, _⟩ => rfl | ⟨2, _⟩ => rfl)
theorem i25 (k : Fin 2560) : idx_main_v25 (ix3 b h s) k = ix4 b h s k :=
  funext fun a => Fin.ext (by match a with | ⟨0, _⟩ => rfl | ⟨1, _⟩ => rfl | ⟨2, _⟩ => rfl | ⟨3, _⟩ => rfl)
theorem l29 (d : Fin 64) (k : Fin 2560) : lidx_main_v29 (ix4 b h s d) k = ix4 b h s k :=
  funext fun a => Fin.ext (by match a with | ⟨0, _⟩ => rfl | ⟨1, _⟩ => rfl | ⟨2, _⟩ => rfl | ⟨3, _⟩ => rfl)
theorem r29 (d : Fin 64) (k : Fin 2560) : ridx_main_v29 (ix4 b h s d) k = ix4 b h k d :=
  funext fun a => Fin.ext (by match a with | ⟨0, _⟩ => rfl | ⟨1, _⟩ => rfl | ⟨2, _⟩ => rfl | ⟨3, _⟩ => rfl)
theorem l15 (j : Fin 2560) (d : Fin 64) : lidx_main_v15 (ix4 b h s j) d = ix4 b h s d :=
  funext fun a => Fin.ext (by match a with | ⟨0, _⟩ => rfl | ⟨1, _⟩ => rfl | ⟨2, _⟩ => rfl | ⟨3, _⟩ => rfl)
theorem r15 (j : Fin 2560) (d : Fin 64) : ridx_main_v15 (ix4 b h s j) d = ix4 b h j d :=
  funext fun a => Fin.ext (by match a with | ⟨0, _⟩ => rfl | ⟨1, _⟩ => rfl | ⟨2, _⟩ => rfl | ⟨3, _⟩ => rfl)

/-- A score: the query row against key j, over 8. -/
theorem score (j : Fin 2560) : sC x0 x1 x4 b h s j
    = (∑ d : Fin 64, val_main_v5 (F := Ideal) x0 x1 (ix4 b h s d) * val_main_v13 (F := Ideal) x0 x1 x4 (ix4 b h j d)) * Ideal.ofBits .f32 0x3E000000#32 := by
  unfold sC
  rw [val_main_v17_apply, val_main_v15_apply, val_main_v16_apply, val_main_cst_apply]
  simp only [l15, r15]
  rfl

/-- The row maximum. -/
theorem rowmax : val_main_v20 (F := Ideal) x0 x1 x4 (ix3 b h s) = mxR x0 x1 x4 b h s := by
  rw [val_main_v20_apply, val_main_v19_apply, val_main_cst_1_apply]
  unfold mxR val_main_v18
  rw [Host.reduce_eq_fold_single (FloatOps.maximumf (F := Ideal) (φ := .f32)) _ _ reducesTo_S2x16x2048x2560_S2x16x2048_d3 (by decide) h_S_ (ix3 b h s)]
  show max (Ideal.ofBits .f32 0xFF800000#32) ((Finset.univ : Finset (Fin 2560)).fold max (Ideal.ofBits .f32 0xFF800000#32) _) = _
  rw [RowLaw.negInf_eq]
  refine congrArg (max ⊥) (congrArg (fun f => (Finset.univ : Finset (Fin 2560)).fold max ⊥ f) (funext fun k => ?_))
  unfold sC
  exact congrArg (val_main_v17 (F := Ideal) x0 x1 x4) (funext fun a => Fin.ext (by match a with | ⟨0, _⟩ => rfl | ⟨1, _⟩ => rfl | ⟨2, _⟩ => rfl | ⟨3, _⟩ => rfl))

/-- An exponential of the row. -/
theorem expo (j : Fin 2560) : val_main_v24 (F := Ideal) x0 x1 x4 (ix4 b h s j) = Ideal.exp (sC x0 x1 x4 b h s j - mxR x0 x1 x4 b h s) := by
  rw [val_main_v24_apply, val_main_v23_apply, val_main_v22_apply, i22, val_main_v21_apply, i21, rowmax]
  rfl

/-- The sum of the row's exponentials, from zero. -/
theorem expsum : val_main_v25 (F := Ideal) x0 x1 x4 (ix3 b h s) = 0 + ∑ j : Fin 2560, Ideal.exp (sC x0 x1 x4 b h s j - mxR x0 x1 x4 b h s) := by
  rw [val_main_v25_apply, val_main_cst_2_apply]
  show Ideal.ofBits .f32 0x00000000#32 + _ = _
  rw [Ideal.ofBits_zero_f32]
  refine congrArg (0 + ·) (Finset.sum_congr rfl fun j _ => ?_)
  rw [i25, expo]

/-- THE REFERENCE'S ROW: its attention output at (b, h, s, d). -/
theorem ref_row (d : Fin 64) : val_main_v29 (F := Ideal) x0 x1 x4 (ix4 b h s d)
    = ∑ j : Fin 2560, Ideal.div (Ideal.exp (sC x0 x1 x4 b h s j - mxR x0 x1 x4 b h s))
        (0 + ∑ j' : Fin 2560, Ideal.exp (sC x0 x1 x4 b h s j' - mxR x0 x1 x4 b h s)) * vC x0 x1 x4 b h d j := by
  rw [val_main_v29_apply]
  refine Finset.sum_congr rfl fun j _ => ?_
  rw [l29, r29, val_main_v28_apply, expo, val_main_v27_apply, i27, val_main_v26_apply, i26, expsum]
  rfl

/-! ## The concatenated axis -/

/-- Below 512 the concatenated keys (values) are the memory stage; from 512 on, the key (value) stage. -/
theorem keyM (j : Fin 512) (d : Fin 64) :
    val_main_v13 (F := Ideal) x0 x1 x4 (ix4 b h (Fin.castAdd 2048 j) d) = val_main_v12 (F := Ideal) x4 (ix4 b h j d) := by
  unfold val_main_v13
  exact concatenate_pair_apply_left (t := S2x16x2560x64) (s₁ := S2x16x512x64) (s₂ := S2x16x2048x64) 2 _ _ _ (ix4 b h (Fin.castAdd 2048 j) d) rfl (ix4 b h j d) (fun a => match a with | ⟨0, _⟩ => rfl | ⟨1, _⟩ => rfl | ⟨2, _⟩ => rfl | ⟨3, _⟩ => rfl)
theorem keyT (j : Fin 2048) (d : Fin 64) :
    val_main_v13 (F := Ideal) x0 x1 x4 (ix4 b h (Fin.natAdd 512 j) d) = val_main_v7 (F := Ideal) x0 x1 (ix4 b h j d) := by
  unfold val_main_v13
  exact concatenate_pair_apply_right (t := S2x16x2560x64) (s₁ := S2x16x512x64) (s₂ := S2x16x2048x64) 2 _ _ _ (ix4 b h (Fin.natAdd 512 j) d) rfl rfl (ix4 b h j d)
    (fun a => match a with | ⟨0, _⟩ => fun _ => rfl | ⟨1, _⟩ => fun _ => rfl | ⟨2, _⟩ => fun hne => absurd rfl hne | ⟨3, _⟩ => fun _ => rfl)
    (by show j.val + 512 = 512 + j.val; omega)
theorem valM (j : Fin 512) (d : Fin 64) :
    val_main_v14 (F := Ideal) x0 x1 x4 (ix4 b h (Fin.castAdd 2048 j) d) = val_main_v12 (F := Ideal) x4 (ix4 b h j d) := by
  unfold val_main_v14
  exact concatenate_pair_apply_left (t := S2x16x2560x64) (s₁ := S2x16x512x64) (s₂ := S2x16x2048x64) 2 _ _ _ (ix4 b h (Fin.castAdd 2048 j) d) rfl (ix4 b h j d) (fun a => match a with | ⟨0, _⟩ => rfl | ⟨1, _⟩ => rfl | ⟨2, _⟩ => rfl | ⟨3, _⟩ => rfl)
theorem valT (j : Fin 2048) (d : Fin 64) :
    val_main_v14 (F := Ideal) x0 x1 x4 (ix4 b h (Fin.natAdd 512 j) d) = val_main_v9 (F := Ideal) x0 x1 (ix4 b h j d) := by
  unfold val_main_v14
  exact concatenate_pair_apply_right (t := S2x16x2560x64) (s₁ := S2x16x512x64) (s₂ := S2x16x2048x64) 2 _ _ _ (ix4 b h (Fin.natAdd 512 j) d) rfl rfl (ix4 b h j d)
    (fun a => match a with | ⟨0, _⟩ => fun _ => rfl | ⟨1, _⟩ => fun _ => rfl | ⟨2, _⟩ => fun hne => absurd rfl hne | ⟨3, _⟩ => fun _ => rfl)
    (by show j.val + 512 = 512 + j.val; omega)

/-- The memory stage at (b, h, k, d) is the memory argument at (k, 64 h + d). -/
theorem memStage (k : Fin 512) (d : Fin 64) :
    val_main_v12 (F := Ideal) x4 (ix4 b h k d) = x4 (ix2 k (⟨h.val * 64 + d.val, by have := h.isLt; have := d.isLt; omega⟩ : Fin 1024)) := by
  rw [val_main_v12_apply, val_main_v11_apply, val_main_v10_apply]
  refine congrArg x4 (funext fun a => Fin.ext ?_)
  have hh := h.isLt; have hd := d.isLt; have hk := k.isLt
  match a with
  | ⟨0, _⟩ => show (((0 * 512 + k.val) * 16 + h.val) * 64 + d.val) / 1024 = k.val; omega
  | ⟨1, _⟩ => show (((0 * 512 + k.val) * 16 + h.val) * 64 + d.val) % 1024 = h.val * 64 + d.val; omega

end Cert.ReferenceIdeal.Row

end
-- ==== Proof.Join.lean ====
/-
  The two result arrays are equal. For batch b, sequence row s = 512 qb + r and output column e, the kernel's
  array is zero plus the sum over heads h of Σ_d attn(b, h, qb)(r, d) · Wout(e, 64 h + d), plus the bias at e; the
  reference's is Σ_k out(b, s, k) · Wout(e, k) plus the bias, with out(b, s, 64 h + d) its attention output of
  head h. Under the precondition every input entry is a real, hence so are the query, key and value stages
  (finite sums of products of reals) and every score; the row law then equates the two attention outputs, and
  the contraction over k regroups as the double sum over (h, d), k = 64 h + d.
-/
import proofs.«133163_j69827578298917_2_alg».proof.Proof.HostValueIdeal
import proofs.«133163_j69827578298917_2_alg».proof.Proof.RefRow

set_option maxRecDepth 16384

noncomputable section

namespace Cert.Join

open Idealize.ShloMosaic Idealize.ShloMosaic.TcCoe Idealize.ShloMosaic.ValueIdx
open Cert.ReferenceIdeal.Read Cert.ReferenceIdeal.Row
open Cert.KernelIdeal.Attn Cert.KernelIdeal.AttnMath Cert.KernelIdeal.Whole

/-! ## The stages are real-valued -/

section Reals
variable (x0 : (⟨3, ![2, 2048, 1024]⟩ : Shape).Idx → EReal) (x1 : (⟨2, ![3072, 1024]⟩ : Shape).Idx → EReal)
  (h0 : ∀ i, ∃ r : ℝ, x0 i = (r : EReal)) (h1 : ∀ i, ∃ r : ℝ, x1 i = (r : EReal))

include h0 h1 in
theorem real_qkv (i) : ∃ r : ℝ, val_main_v0 (F := Ideal) x0 x1 i = (r : EReal) := by
  choose f0 hf0 using h0
  choose f1 hf1 using h1
  rw [val_main_v0_apply]
  exact ⟨∑ k, f0 (lidx_main_v0 i k) * f1 (ridx_main_v0 i k), by simp only [hf0, hf1, ← EReal.coe_mul, ← RowLaw.coe_sum]⟩

include h0 h1 in
theorem real_q (i) : ∃ r : ℝ, val_main_v5 (F := Ideal) x0 x1 i = (r : EReal) := by
  rw [val_main_v5_apply, val_main_v4_apply, val_main_v1_apply]; exact real_qkv x0 x1 h0 h1 _
include h0 h1 in
theorem real_k (i) : ∃ r : ℝ, val_main_v7 (F := Ideal) x0 x1 i = (r : EReal) := by
  rw [val_main_v7_apply, val_main_v6_apply, val_main_v2_apply]; exact real_qkv x0 x1 h0 h1 _
include h0 h1 in
theorem real_v (i) : ∃ r : ℝ, val_main_v9 (F := Ideal) x0 x1 i = (r : EReal) := by
  rw [val_main_v9_apply, val_main_v8_apply, val_main_v3_apply]; exact real_qkv x0 x1 h0 h1 _
end Reals

/-! ## One row -/

/-- The memory argument's slab of head h as a matrix. -/
def memM (x4 : (⟨2, ![512, 1024]⟩ : Shape).Idx → EReal) (h : Fin 16) : FVec Ideal ⟨2, ![512, 64]⟩ .bf16 :=
  fun y => x4 (ix2 ⟨(y 0).val, (y 0).isLt⟩ (headCol h ⟨(y 1).val, (y 1).isLt⟩))

theorem row_join (x0 : (⟨3, ![2, 2048, 1024]⟩ : Shape).Idx → EReal) (x1 : (⟨2, ![3072, 1024]⟩ : Shape).Idx → EReal)
    (x4 : (⟨2, ![512, 1024]⟩ : Shape).Idx → EReal)
    (h0 : ∀ i, ∃ r : ℝ, x0 i = (r : EReal)) (h1 : ∀ i, ∃ r : ℝ, x1 i = (r : EReal)) (h4 : ∀ i, ∃ r : ℝ, x4 i = (r : EReal))
    (b : Fin 2) (h : Fin 16) (qb : Fin 4) (r : Fin 512) (d : Fin 64) :
    attn (slabRows (val_main_v5 (F := Ideal) x0 x1) b h qb) (slab (val_main_v7 (F := Ideal) x0 x1) b h) (slab (val_main_v9 (F := Ideal) x0 x1) b h) (memM x4 h) r d
      = val_main_v29 (F := Ideal) x0 x1 x4 (ix4 b h (seqRow qb r) d) := by
  choose q5 hq5 using real_q x0 x1 h0 h1
  choose k7 hk7 using real_k x0 x1 h0 h1
  choose v9 hv9 using real_v x0 x1 h0 h1
  choose m4 hm4 using h4
  rw [ref_row]
  -- the real scores and values of the row
  let sT : Fin 2048 → ℝ := fun j => (∑ d' : Fin 64, q5 (ix4 b h (seqRow qb r) d') * k7 (ix4 b h j d')) * (1 / 8)
  let sM : Fin 512 → ℝ := fun j => (∑ d' : Fin 64, q5 (ix4 b h (seqRow qb r) d') * m4 (ix2 j (headCol h d'))) * (1 / 8)
  let vT : Fin 2048 → ℝ := fun j => v9 (ix4 b h j d)
  let vM : Fin 512 → ℝ := fun j => m4 (ix2 j (headCol h d))
  have hsM : ∀ j : Fin 512, sC x0 x1 x4 b h (seqRow qb r) (Fin.castAdd 2048 j) = ((sM j : ℝ) : EReal) := fun j => by
    rw [score]
    simp only [keyM, memStage, hq5, hm4, RowLaw.scale_eq, ← EReal.coe_mul, ← RowLaw.coe_sum]
    rfl
  have hsT : ∀ j : Fin 2048, sC x0 x1 x4 b h (seqRow qb r) (Fin.natAdd 512 j) = ((sT j : ℝ) : EReal) := fun j => by
    rw [score]
    simp only [keyT, hq5, hk7, RowLaw.scale_eq, ← EReal.coe_mul, ← RowLaw.coe_sum]
    rfl
  have hvM : ∀ j : Fin 512, vC x0 x1 x4 b h d (Fin.castAdd 2048 j) = ((vM j : ℝ) : EReal) := fun j => by
    unfold vC
    rw [valM, memStage, hm4]
    rfl
  have hvT : ∀ j : Fin 2048, vC x0 x1 x4 b h d (Fin.natAdd 512 j) = ((vT j : ℝ) : EReal) := fun j => by
    unfold vC
    rw [valT, hv9]
  have key := RowLaw.row_eq (Km := 512) (Kt := 2048) (by norm_num) sM vM sT vT (sC x0 x1 x4 b h (seqRow qb r)) (vC x0 x1 x4 b h d) hsM hsT hvM hvT
  refine Eq.trans ?_ key
  -- the kernel's side, in the same reals
  have eT : ∀ j : Fin 2048, sTok (slabRows (val_main_v5 (F := Ideal) x0 x1) b h qb) (slab (val_main_v7 (F := Ideal) x0 x1) b h) r j = ((sT j : ℝ) : EReal) := fun j => by
    unfold sTok slabRows slab
    simp only [hq5, hk7, c8, RowLaw.scale_eq, ← EReal.coe_mul, ← RowLaw.coe_sum]
    rfl
  have eM : ∀ j : Fin 512, sMem (slabRows (val_main_v5 (F := Ideal) x0 x1) b h qb) (memM x4 h) r j = ((sM j : ℝ) : EReal) := fun j => by
    unfold sMem slabRows memM
    simp only [hq5, hm4, c8, RowLaw.scale_eq, ← EReal.coe_mul, ← RowLaw.coe_sum]
    rfl
  have eV : ∀ j : Fin 2048, slab (val_main_v9 (F := Ideal) x0 x1) b h (ix2 j d) = ((vT j : ℝ) : EReal) := fun j => by
    unfold slab; exact hv9 _
  have eMv : ∀ j : Fin 512, memM x4 h (ix2 j d) = ((vM j : ℝ) : EReal) := fun j => by
    unfold memM; exact hm4 _
  unfold attn pTok pMem rowMx
  simp only [eT, eM, eV, eMv, negInf, RowLaw.negInf_eq]

/-! ## The contraction over the model dimension, by heads -/

theorem sum_by_heads (f : Fin 1024 → EReal) : ∑ k : Fin 1024, f k = ∑ h : Fin 16, ∑ d : Fin 64, f (headCol h d) := by
  rw [← Fintype.sum_prod_type' (f := fun h d => f (headCol h d))]
  refine (Equiv.sum_comp (finProdFinEquiv (m := 16) (n := 64)) f).symm.trans ?_
  refine Finset.sum_congr rfl fun p _ => congrArg f (Fin.ext ?_)
  show p.2.val + 64 * p.1.val = p.1.val * 64 + p.2.val
  omega

/-! ## The result arrays -/

theorem result_eq (m : (ℓ : Loc Cert.KernelIdeal.nD Cert.KernelIdeal.τ Cert.KernelIdeal.sig) → Buf (Elt Ideal) ℓ) (c : Dev Cert.KernelIdeal.nD)
    (h0 : ∀ i, ∃ r : ℝ, aX m c i = (r : EReal)) (h1 : ∀ i, ∃ r : ℝ, aWqkv m c i = (r : EReal)) (h4 : ∀ i, ∃ r : ℝ, aMem m c i = (r : EReal)) :
    (W4 m c (Proc.devRef .tc Cert.KernelIdeal.main_v19) : (⟨3, ![2, 2048, 1024]⟩ : Shape).Idx → EReal)
      = val_main_v35 (F := Ideal) (aX m c) (aWqkv m c) (aWout m c) (aBias m c) (aMem m c) := by
  rw [result_arr]
  funext i
  obtain ⟨b, s, e, rfl⟩ : ∃ (b : Fin 2) (s : Fin 2048) (e : Fin 1024), i = ix3 b s e := ⟨i 0, i 1, i 2, eq_ix3 i⟩
  have hs : s.val < 2048 := s.isLt
  -- the reference's side
  rw [val_main_v35_apply, val_main_v32_apply, val_main_v34_apply, val_main_v33_apply]
  show _ = (∑ k : Fin 1024, val_main_v31 (F := Ideal) (aX m c) (aWqkv m c) (aMem m c) (lidx_main_v32 (ix3 b s e) k) * aWout m c (ridx_main_v32 (ix3 b s e) k)) + aBias m c (idx_main_v33 (idx_main_v34 (ix3 b s e)))
  rw [sum_by_heads]
  -- the kernel's side
  unfold outSpec
  rw [zero_add]
  refine congrArg₂ (· + ·) (Finset.sum_congr rfl fun h _ => ?_) ?_
  · unfold contrib
    refine Finset.sum_congr rfl fun d _ => ?_
    have eqb : seqRow (⟨s.val / 512, by omega⟩ : Fin 4) (⟨s.val % 512, by omega⟩ : Fin 512) = s := Fin.ext (by show s.val / 512 * 512 + s.val % 512 = s.val; omega)
    have emem : memSlab (V3 m c Cert.KernelIdeal.main_v18) h = memM (aMem m c) h := funext fun y => by
      rw [eq_ix2 y]; exact mem_arr m c h _ _
    refine congrArg₂ (· * ·) ?_ ?_
    · show attn (slabRows (V3 m c Cert.KernelIdeal.main_v11) b h ⟨s.val / 512, _⟩) (slab (V3 m c Cert.KernelIdeal.main_v13) b h) (slab (V3 m c Cert.KernelIdeal.main_v15) b h) (memSlab (V3 m c Cert.KernelIdeal.main_v18) h) ⟨s.val % 512, _⟩ d = _
      rw [q_arr, k_arr, v_arr, emem, row_join _ _ _ h0 h1 h4, eqb, val_main_v31_apply, val_main_v30_apply]
      refine congrArg (val_main_v29 (F := Ideal) (aX m c) (aWqkv m c) (aMem m c)) (funext fun a => Fin.ext ?_)
      have hb := b.isLt; have hh := h.isLt; have hd := d.isLt
      match a with
      | ⟨0, _⟩ => show b.val = ((b.val * 2048 + s.val) * 1024 + (h.val * 64 + d.val)) / 2097152; omega
      | ⟨1, _⟩ => show h.val = ((b.val * 2048 + s.val) * 1024 + (h.val * 64 + d.val)) / 64 % 16; omega
      | ⟨2, _⟩ => show s.val = ((b.val * 2048 + s.val) * 1024 + (h.val * 64 + d.val)) / 1024 % 2048; omega
      | ⟨3, _⟩ => show d.val = ((b.val * 2048 + s.val) * 1024 + (h.val * 64 + d.val)) % 64; omega
    · refine (wout_arr m c (headCol h d) e).trans ?_
      exact congrArg (aWout m c) (funext fun a => Fin.ext (by match a with | ⟨0, _⟩ => rfl | ⟨1, _⟩ => rfl))
  · refine (bias_arr m c e).trans ?_
    exact congrArg (aBias m c) (funext fun a => Fin.ext (by match a with | ⟨0, _⟩ => rfl))

end Cert.Join

end
-- ==== Proof.lean ====
/-
  The certificate of a fused attention kernel against its reference, over the extended reals.

  The program: activations x [2, 2048, 1024] are projected to queries, keys and values by one weight matrix
  [3072, 1024] (first launch: a blocked matrix product), split into 16 heads of 64; each head attends over 512
  memory rows (used as keys and as values) followed by the 2048 tokens, with scores scaled by 1/8 and a softmax
  over the 2560 keys; the heads' outputs are contracted with the output weights [1024, 1024] and a bias is added
  (second launch: per batch, block of 512 query rows and head, it accumulates the head's contribution in a
  scratch accumulator, reset at the first head and written out with the bias at the last).

  The frames: each launch's body is run once per kind of grid point, the second launch's invariant carrying the
  accumulator's exact contents from point to point; the whole program is the four stretches in order. The
  reference's frame is its run with the result dropped. No operation was rewritten by the idealization.

  The values: the kernel takes the row maximum as the larger of the token part's and the memory part's, divides
  the summed weighted values by the summed exponentials, and adds heads in order from zero; the reference
  concatenates memory before tokens, divides each exponential by their sum first, and contracts over the whole
  model dimension at once. Over the reals these agree (a maximum and a sum over a concatenation split; a positive
  divisor distributes over a finite sum; the contraction regroups by head), and under the precondition every
  quantity involved is a real.
-/
import proofs.«133163_j69827578298917_2_alg».proof.Defs
import proofs.«133163_j69827578298917_2_alg».proof.Proof.Gen.Kernel
import proofs.«133163_j69827578298917_2_alg».proof.Proof.Gen.KernelIdeal
import proofs.«133163_j69827578298917_2_alg».proof.Proof.Gen.ReferenceIdeal
import proofs.«133163_j69827578298917_2_alg».proof.Proof.Gen.Pre_finite_inputs
import proofs.«133163_j69827578298917_2_alg».proof.Proof.Gen.ReferenceIdeal.Run
import proofs.«133163_j69827578298917_2_alg».proof.Proof.Gen.ReferenceIdeal.Read
import proofs.«133163_j69827578298917_2_alg».proof.Proof.WholeBits
import proofs.«133163_j69827578298917_2_alg».proof.Proof.WholeIdeal
import proofs.«133163_j69827578298917_2_alg».proof.Proof.Finite
import proofs.«133163_j69827578298917_2_alg».proof.Proof.Join
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Whole.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Whole.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The two idealized programs, run from memories agreeing on the five arguments, end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  haveI : Cert.Pre_finite_inputs.Facts := Cert.Pre_finite_inputs.Gen.facts
  have hfin := fun c => Cert.Finite.finite_of_pre _ _ _ _ _ (hpre c)
  refine ⟨fun c => Cert.KernelIdeal.Whole.W4 m c (Proc.devRef .tc Cert.KernelIdeal.main_v19), ?_, ?_⟩
  · refine (θ_run Cert.KernelIdeal.defs _ _).mono (fun r h c => ⟨h c _ (Cert.KernelIdeal.Whole.mem_uc Cert.KernelIdeal.main_v19 (by decide)),
      (h c _ (Cert.KernelIdeal.Whole.mem_uc Cert.KernelIdeal.main_arg0 (by decide))).trans (Cert.KernelIdeal.Whole.end_arg0 m c),
      (h c _ (Cert.KernelIdeal.Whole.mem_uc Cert.KernelIdeal.main_arg1 (by decide))).trans (Cert.KernelIdeal.Whole.end_arg1 m c),
      (h c _ (Cert.KernelIdeal.Whole.mem_uc Cert.KernelIdeal.main_arg2 (by decide))).trans (Cert.KernelIdeal.Whole.end_arg2 m c),
      (h c _ (Cert.KernelIdeal.Whole.mem_uc Cert.KernelIdeal.main_arg3 (by decide))).trans (Cert.KernelIdeal.Whole.end_arg3 m c),
      (h c _ (Cert.KernelIdeal.Whole.mem_uc Cert.KernelIdeal.main_arg4 (by decide))).trans (Cert.KernelIdeal.Whole.end_arg4 m c)⟩)
      (Cert.KernelIdeal.Whole.run_all (F := Ideal) m ρ)
  · refine (θ_run Cert.ReferenceIdeal.defs _ _).mono (fun r h c => ⟨?_, (h c).2⟩) (Cert.ReferenceIdeal.Value.run (F := Ideal) m' ρ')
    rw [(h c).1, Cert.ReferenceIdeal.Read.val_main_v35_eq, (hagree c).1, (hagree c).2.1, (hagree c).2.2.1, (hagree c).2.2.2.1, (hagree c).2.2.2.2]
    exact (Cert.Join.result_eq m c (hfin c).1 (hfin c).2.1 (hfin c).2.2.2.2).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
